-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_cst_26)) (v3 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_cst_26) = v2 c
          ∧ r.2.mem ((c.tc : Thread Cert.KernelIdeal.nD Cert.KernelIdeal.τ).loc Cert.KernelIdeal.main_v64) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_cst_28) = v2 c
          ∧ r.2.mem ((c.tc : Thread Cert.ReferenceIdeal.nD Cert.ReferenceIdeal.τ).loc Cert.ReferenceIdeal.main_v81) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x512x512 : Shape := ⟨4, ![16, 1, 512, 512]⟩
abbrev S_ : Shape := ⟨0, ![]⟩

class Facts : Prop where
  bcast_S_S16x1x512x512 : S_.BroadcastsInDim S16x1x512x512 (![] : Fin 0 → Fin S16x1x512x512.rank)
  reducesTo_S16x1x512x512_S_d0_1_2_3 : S16x1x512x512.ReducesTo [0, 1, 2, 3] S_
  h_S_ : 0 < S_.numel

variable [Facts]

def fn_part1 {F : FTy → Type} [FloatOps F] (main_arg4 : FVec F S16x1x512x512 .f32) (main_v13 : IVec S_ 1) (main_v16 : IVec S16x1x512x512 1) : IVec S_ 1 :=
  let main_c_5 : IVec S_ 1 := constantI S_ 1 1#1
  let main_v17 : IVec S_ 1 := (fun x v => Host.reduce IntOp.andi x v reducesTo_S16x1x512x512_S_d0_1_2_3 h_S_) main_v16 main_c_5
  let main_v18 : IVec S_ 1 := andi main_v13 main_v17
  let main_v19 : FVec F S16x1x512x512 .f32 := Host.absf main_arg4
  let main_cst_6 : FVec F S_ .f32 := constant S_ .f32 0x7F800000#32
  let main_v20 : FVec F S16x1x512x512 .f32 := broadcastInDim S16x1x512x512 ![] bcast_S_S16x1x512x512 main_cst_6
  let main_v21 : IVec S16x1x512x512 1 := cmpf .olt main_v19 main_v20
  let main_c_7 : IVec S_ 1 := constantI S_ 1 1#1
  let main_v22 : IVec S_ 1 := (fun x v => Host.reduce IntOp.andi x v reducesTo_S16x1x512x512_S_d0_1_2_3 h_S_) main_v21 main_c_7
  let main_v23 : IVec S_ 1 := andi main_v18 main_v22
  main_v23

def fn {F : FTy → Type} [FloatOps F] (main_arg0 : FVec F S16x1x512x512 .f32) (main_arg1 : FVec F S16x1x512x512 .f32) (main_arg2 : FVec F S16x1x512x512 .f32) (main_arg3 : FVec F S16x1x512x512 .f32) (main_arg4 : FVec F S16x1x512x512 .f32) : IVec S_ 1 :=
  let main_v0 : FVec F S16x1x512x512 .f32 := Host.absf main_arg0
  let main_cst : FVec F S_ .f32 := constant S_ .f32 0x7F800000#32
  let main_v1 : FVec F S16x1x512x512 .f32 := broadcastInDim S16x1x512x512 ![] bcast_S_S16x1x512x512 main_cst
  let main_v2 : IVec S16x1x512x512 1 := cmpf .olt main_v0 main_v1
  let main_c : IVec S_ 1 := constantI S_ 1 1#1
  let main_v3 : IVec S_ 1 := (fun x v => Host.reduce IntOp.andi x v reducesTo_S16x1x512x512_S_d0_1_2_3 h_S_) main_v2 main_c
  let main_v4 : FVec F S16x1x512x512 .f32 := Host.absf main_arg1
  let main_cst_0 : FVec F S_ .f32 := constant S_ .f32 0x7F800000#32
  let main_v5 : FVec F S16x1x512x512 .f32 := broadcastInDim S16x1x512x512 ![] bcast_S_S16x1x512x512 main_cst_0
  let main_v6 : IVec S16x1x512x512 1 := cmpf .olt main_v4 main_v5
  let main_c_1 : IVec S_ 1 := constantI S_ 1 1#1
  let main_v7 : IVec S_ 1 := (fun x v => Host.reduce IntOp.andi x v reducesTo_S16x1x512x512_S_d0_1_2_3 h_S_) main_v6 main_c_1
  let main_v8 : IVec S_ 1 := andi main_v3 main_v7
  let main_v9 : FVec F S16x1x512x512 .f32 := Host.absf main_arg2
  let main_cst_2 : FVec F S_ .f32 := constant S_ .f32 0x7F800000#32
  let main_v10 : FVec F S16x1x512x512 .f32 := broadcastInDim S16x1x512x512 ![] bcast_S_S16x1x512x512 main_cst_2
  let main_v11 : IVec S16x1x512x512 1 := cmpf .olt main_v9 main_v10
  let main_c_3 : IVec S_ 1 := constantI S_ 1 1#1
  let main_v12 : IVec S_ 1 := (fun x v => Host.reduce IntOp.andi x v reducesTo_S16x1x512x512_S_d0_1_2_3 h_S_) main_v11 main_c_3
  let main_v13 : IVec S_ 1 := andi main_v8 main_v12
  let main_v14 : FVec F S16x1x512x512 .f32 := Host.absf main_arg3
  let main_cst_4 : FVec F S_ .f32 := constant S_ .f32 0x7F800000#32
  let main_v15 : FVec F S16x1x512x512 .f32 := broadcastInDim S16x1x512x512 ![] bcast_S_S16x1x512x512 main_cst_4
  let main_v16 : IVec S16x1x512x512 1 := cmpf .olt main_v14 main_v15
  fn_part1 (F := F) main_arg4 main_v13 main_v16
-- ==== Kernel.lean ====
abbrev S16x1x512x512 : Shape := ⟨4, ![16, 1, 512, 512]⟩
abbrev S16x262144 : Shape := ⟨2, ![16, 262144]⟩
abbrev S2x16x1 : Shape := ⟨3, ![2, 16, 1]⟩
abbrev S2x16x16 : Shape := ⟨3, ![2, 16, 16]⟩
abbrev S16x32768 : Shape := ⟨2, ![16, 32768]⟩
abbrev S1x16x1 : Shape := ⟨3, ![1, 16, 1]⟩
abbrev S1x16x16 : Shape := ⟨3, ![1, 16, 16]⟩
abbrev S16x1 : Shape := ⟨2, ![16, 1]⟩
abbrev S16x16 : Shape := ⟨2, ![16, 16]⟩
abbrev S16 : Shape := ⟨1, ![16]⟩
abbrev S_ : Shape := ⟨0, ![]⟩
abbrev S1x16 : Shape := ⟨2, ![1, 16]⟩

abbrev nBuf : Space → Nat
  | .hbm => 108
  | .vmem => 24
  | .smem => 0
  | _ => 0

abbrev bufTy : (tb : Table) → Fin (tcTables nBuf tb) → BufTy
  | .hbm, ⟨0, _⟩ => ⟨S16x1x512x512, .f32⟩
  | .hbm, ⟨1, _⟩ => ⟨S16x1x512x512, .f32⟩
  | .hbm, ⟨2, _⟩ => ⟨S16x1x512x512, .f32⟩
  | .hbm, ⟨3, _⟩ => ⟨S16x1x512x512, .f32⟩
  | .hbm, ⟨4, _⟩ => ⟨S16x1x512x512, .f32⟩
  | .hbm, ⟨5, _⟩ => ⟨S16x262144, .f32⟩
  | .hbm, ⟨6, _⟩ => ⟨S16x262144, .f32⟩
  | .hbm, ⟨7, _⟩ => ⟨S16x262144, .f32⟩
  | .hbm, ⟨8, _⟩ => ⟨S16x262144, .f32⟩
  | .hbm, ⟨9, _⟩ => ⟨S16x262144, .f32⟩
  | .hbm, ⟨10, _⟩ => ⟨S2x16x1, .f32⟩
  | .hbm, ⟨11, _⟩ => ⟨S2x16x1, .f32⟩
  | .hbm, ⟨12, _⟩ => ⟨S2x16x1, .f32⟩
  | .hbm, ⟨13, _⟩ => ⟨S2x16x1, .f32⟩
  | .hbm, ⟨14, _⟩ => ⟨S2x16x1, .f32⟩
  | .hbm, ⟨15, _⟩ => ⟨S2x16x1, .f32⟩
  | .hbm, ⟨16, _⟩ => ⟨S2x16x16, .f32⟩
  | .hbm, ⟨17, _⟩ => ⟨S_, .f32⟩
  | .hbm, ⟨18, _⟩ => ⟨S16x1, .f32⟩
  | .hbm, ⟨19, _⟩ => ⟨S_, .f32⟩
  | .hbm, ⟨20, _⟩ => ⟨S16x1, .f32⟩
  | .hbm, ⟨21, _⟩ => ⟨S_, .f32⟩
  | .hbm, ⟨22, _⟩ => ⟨S16x1, .f32⟩
  | .hbm, ⟨23, _⟩ => ⟨S_, .f32⟩
  | .hbm, ⟨24, _⟩ => ⟨S16x1, .f32⟩
  | .hbm, ⟨25, _⟩ => ⟨S_, .f32⟩
  | .hbm, ⟨26, _⟩ => ⟨S16x1, .f32⟩
  | .hbm, ⟨27, _⟩ => ⟨S_, .f32⟩
  | .hbm, ⟨28, _⟩ => ⟨S16x1, .f32⟩
  | .hbm, ⟨29, _⟩ => ⟨S_, .f32⟩
  | .hbm, ⟨30, _⟩ => ⟨S16x16, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S16, .f32⟩
  | .hbm, ⟨64, _⟩ => ⟨S_, .f32⟩
  | .hbm, ⟨65, _⟩ => ⟨S16x16, .f32⟩
  | .hbm, ⟨66, _⟩ => ⟨S16x16, .f32⟩
  | .hbm, ⟨67, _⟩ => ⟨S16x1, .f32⟩
  | .hbm, ⟨68, _⟩ => ⟨S1x16, .f32⟩
  | .hbm, ⟨69, _⟩ => ⟨S16x16, .f32⟩
  | .hbm, ⟨70, _⟩ => ⟨S16x16, .f32⟩
  | .hbm, ⟨71, _⟩ => ⟨S16x16, .f32⟩
  | .hbm, ⟨72, _⟩ => ⟨S_, .f32⟩
  | .hbm, ⟨73, _⟩ => ⟨S16x16, .f32⟩
  | .hbm, ⟨74, _⟩ => ⟨S16x16, .f32⟩
  | .hbm, ⟨75, _⟩ => ⟨S16x16, .f32⟩
  | .hbm, ⟨76, _⟩ => ⟨S16x16, .f32⟩
  | .hbm, ⟨77, _⟩ => ⟨S_, .f32⟩
  | .hbm, ⟨78, _⟩ => ⟨S16x16, .f32⟩
  | .hbm, ⟨79, _⟩ => ⟨S16x16, .f32⟩
  | .hbm, ⟨80, _⟩ => ⟨S16x16, .f32⟩
  | .hbm, ⟨81, _⟩ => ⟨S16x16, .i32⟩
  | .hbm, ⟨82, _⟩ => ⟨S16x16, .i32⟩
  | .hbm, ⟨83, _⟩ => ⟨S_, .i32⟩
  | .hbm, ⟨84, _⟩ => ⟨S16x16, .i32⟩
  | .hbm, ⟨85, _⟩ => ⟨S16x16, .i32⟩
  | .hbm, ⟨86, _⟩ => ⟨S16x16, .i1⟩
  | .hbm, ⟨87, _⟩ => ⟨S16x16, .f32⟩
  | .hbm, ⟨88, _⟩ => ⟨S_, .f32⟩
  | .hbm, ⟨89, _⟩ => ⟨S16x16, .f32⟩
  | .hbm, ⟨90, _⟩ => ⟨S16x16, .f32⟩
  | .hbm, ⟨91, _⟩ => ⟨S16x16, .f32⟩
  | .hbm, ⟨92, _⟩ => ⟨S_, .f32⟩
  | .hbm, ⟨93, _⟩ => ⟨S16, .f32⟩
  | .hbm, ⟨94, _⟩ => ⟨S16, .f32⟩
  | .hbm, ⟨95, _⟩ => ⟨S16, .f32⟩
  | .hbm, ⟨96, _⟩ => ⟨S16, .f32⟩
  | .hbm, ⟨97, _⟩ => ⟨S16, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .local _ .vmem, ⟨0, _⟩ => ⟨S16x32768, .f32⟩
  | .local _ .vmem, ⟨1, _⟩ => ⟨S16x32768, .f32⟩
  | .local _ .vmem, ⟨2, _⟩ => ⟨S16x32768, .f32⟩
  | .local _ .vmem, ⟨3, _⟩ => ⟨S16x32768, .f32⟩
  | .local _ .vmem, ⟨4, _⟩ => ⟨S16x32768, .f32⟩
  | .local _ .vmem, ⟨5, _⟩ => ⟨S16x32768, .f32⟩
  | .local _ .vmem, ⟨6, _⟩ => ⟨S16x32768, .f32⟩
  | .local _ .vmem, ⟨7, _⟩ => ⟨S16x32768, .f32⟩
  | .local _ .vmem, ⟨8, _⟩ => ⟨S16x32768, .f32⟩
  | .local _ .vmem, ⟨9, _⟩ => ⟨S16x32768, .f32⟩
  | .local _ .vmem, ⟨10, _⟩ => ⟨S1x16x1, .f32⟩
  | .local _ .vmem, ⟨11, _⟩ => ⟨S1x16x1, .f32⟩
  | .local _ .vmem, ⟨12, _⟩ => ⟨S1x16x1, .f32⟩
  | .local _ .vmem, ⟨13, _⟩ => ⟨S1x16x1, .f32⟩
  | .local _ .vmem, ⟨14, _⟩ => ⟨S1x16x1, .f32⟩
  | .local _ .vmem, ⟨15, _⟩ => ⟨S1x16x1, .f32⟩
  | .local _ .vmem, ⟨16, _⟩ => ⟨S1x16x1, .f32⟩
  | .local _ .vmem, ⟨17, _⟩ => ⟨S1x16x1, .f32⟩
  | .local _ .vmem, ⟨18, _⟩ => ⟨S1x16x1, .f32⟩
  | .local _ .vmem, ⟨19, _⟩ => ⟨S1x16x1, .f32⟩
  | .local _ .vmem, ⟨20, _⟩ => ⟨S1x16x1, .f32⟩
  | .local _ .vmem, ⟨21, _⟩ => ⟨S1x16x1, .f32⟩
  | .local _ .vmem, ⟨22, _⟩ => ⟨S1x16x16, .f32⟩
  | .local _ .vmem, ⟨23, _⟩ => ⟨S1x16x16, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev main_v5_6 : Ref sig .tc := ⟨.hbm, 16, rfl⟩
abbrev main_cst : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_cst_6 : Ref sig .tc := ⟨.hbm, 31, rfl⟩
abbrev main_v13 : Ref sig .tc := ⟨.hbm, 32, rfl⟩
abbrev main_cst_7 : Ref sig .tc := ⟨.hbm, 33, rfl⟩
abbrev main_v14 : Ref sig .tc := ⟨.hbm, 34, rfl⟩
abbrev main_cst_8 : Ref sig .tc := ⟨.hbm, 35, rfl⟩
abbrev main_v15 : Ref sig .tc := ⟨.hbm, 36, rfl⟩
abbrev main_cst_9 : Ref sig .tc := ⟨.hbm, 37, rfl⟩
abbrev main_v16 : Ref sig .tc := ⟨.hbm, 38, rfl⟩
abbrev main_cst_10 : Ref sig .tc := ⟨.hbm, 39, rfl⟩
abbrev main_v17 : Ref sig .tc := ⟨.hbm, 40, rfl⟩
abbrev main_v18 : Ref sig .tc := ⟨.hbm, 41, rfl⟩
abbrev main_cst_11 : Ref sig .tc := ⟨.hbm, 42, rfl⟩
abbrev main_v19 : Ref sig .tc := ⟨.hbm, 43, rfl⟩
abbrev main_v20 : Ref sig .tc := ⟨.hbm, 44, rfl⟩
abbrev main_cst_12 : Ref sig .tc := ⟨.hbm, 45, rfl⟩
abbrev main_v21 : Ref sig .tc := ⟨.hbm, 46, rfl⟩
abbrev main_v22 : Ref sig .tc := ⟨.hbm, 47, rfl⟩
abbrev main_cst_13 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_14 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_15 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_16 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_17 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_18 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_19 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_20 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_21 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_22 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_cst_24 : Ref sig .tc := ⟨.hbm, 102, rfl⟩
abbrev main_v65 : Ref sig .tc := ⟨.hbm, 103, rfl⟩
abbrev main_cst_25 : Ref sig .tc := ⟨.hbm, 104, rfl⟩
abbrev main_v66 : Ref sig .tc := ⟨.hbm, 105, rfl⟩
abbrev main_v67 : Ref sig .tc := ⟨.hbm, 106, rfl⟩
abbrev main_cst_26 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x32768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x16x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x16x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x16x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x16x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  shapeCasts_S16x1x512x512_S16x262144 : S16x1x512x512.ShapeCasts S16x262144
  inb_S1x16x1_S1x16x1_0_0_0 : ∀ a, (![0, 0, 0] : Fin 3 → Nat) a + S1x16x1.size a ≤ S1x16x1.size a
  h_S1x16x1 : 0 < S1x16x1.numel
  shapeCasts_S1x16x1_S16x1 : S1x16x1.ShapeCasts S16x1
  shapeCasts_S16x1_S1x16x1 : S16x1.ShapeCasts S1x16x1
  inb_S1x16x16_S1x16x16_0_0_0 : ∀ a, (![0, 0, 0] : Fin 3 → Nat) a + S1x16x16.size a ≤ S1x16x16.size a
  h_S1x16x16 : 0 < S1x16x16.numel
  shapeCasts_S1x16x16_S16x16 : S1x16x16.ShapeCasts S16x16
  shapeCasts_S16x16_S1x16x16 : S16x16.ShapeCasts S1x16x16
  inb_S16x32768_S16x32768_0_0 : ∀ a, (![0, 0] : Fin 2 → Nat) a + S16x32768.size a ≤ S16x32768.size a
  h_S16x32768 : 0 < S16x32768.numel
  shapeCasts_S16x32768_S16x32768 : S16x32768.ShapeCasts S16x32768
  reduces_S16x32768_S16 : S16x32768.Reduces [1] S16
  shapeCasts_S16_S16x1 : S16.ShapeCasts S16x1
  bitsLt_bf16_f32 : FTy.bits .bf16 < FTy.bits .f32
  reducesTo_S2x16x1_S16x1_d0 : S2x16x1.ReducesTo [0] S16x1
  h_S_ : 0 < S_.numel
  reducesTo_S2x16x16_S16x16_d0 : S2x16x16.ReducesTo [0] S16x16
  reducesTo_S16x1_S_d0_1 : S16x1.ReducesTo [0, 1] S_
  shapeCasts_S16x1_S16 : S16x1.ShapeCasts S16
  bcast_S_S16 : S_.BroadcastsInDim S16 (![] : Fin 0 → Fin S16.rank)
  bcast_S_S16x16 : S_.BroadcastsInDim S16x16 (![] : Fin 0 → Fin S16x16.rank)
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  reducesTo_S16x16_S16_d1 : S16x16.ReducesTo [1] S16
  reducesTo_S16_S_d0 : S16.ReducesTo [0] S_
  dot_S16x32768_S16x32768_S16x16_1_1_0_0_n_n_wf : DotDims.WF S16x32768 S16x32768 S16x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x32768.size a ≤ S16x262144.size a
  hwx0_0 : ∀ i : grid0.Coords, EltTy.bits .f32 = 32 ∨ (Rect.block (s := S16x262144) S16x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x32768.size a ≤ S16x262144.size a
  hwx0_1 : ∀ i : grid0.Coords, EltTy.bits .f32 = 32 ∨ (Rect.block (s := S16x262144) S16x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x32768.size a ≤ S16x262144.size a
  hwx0_2 : ∀ i : grid0.Coords, EltTy.bits .f32 = 32 ∨ (Rect.block (s := S16x262144) S16x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x32768.size a ≤ S16x262144.size a
  hwx0_3 : ∀ i : grid0.Coords, EltTy.bits .f32 = 32 ∨ (Rect.block (s := S16x262144) S16x32768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x32768.size a ≤ S16x262144.size a
  hwx0_4 : ∀ i : grid0.Coords, EltTy.bits .f32 = 32 ∨ (Rect.block (s := S16x262144) S16x32768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x1.size a ≤ S2x16x1.size a
  hwx0_5 : ∀ i : grid0.Coords, EltTy.bits .f32 = 32 ∨ (Rect.block (s := S2x16x1) S1x16x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x1.size a ≤ S2x16x1.size a
  hwx0_6 : ∀ i : grid0.Coords, EltTy.bits .f32 = 32 ∨ (Rect.block (s := S2x16x1) S1x16x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x1.size a ≤ S2x16x1.size a
  hwx0_7 : ∀ i : grid0.Coords, EltTy.bits .f32 = 32 ∨ (Rect.block (s := S2x16x1) S1x16x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16x1.size a ≤ S2x16x1.size a
  hwx0_8 : ∀ i : grid0.Coords, EltTy.bits .f32 = 32 ∨ (Rect.block (s := S2x16x1) S1x16x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x16x1.size a ≤ S2x16x1.size a
  hwx0_9 : ∀ i : grid0.Coords, EltTy.bits .f32 = 32 ∨ (Rect.block (s := S2x16x1) S1x16x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x16x1.size a ≤ S2x16x1.size a
  hwx0_10 : ∀ i : grid0.Coords, EltTy.bits .f32 = 32 ∨ (Rect.block (s := S2x16x1) S1x16x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x16x16.size a ≤ S2x16x16.size a
  hwx0_11 : ∀ i : grid0.Coords, EltTy.bits .f32 = 32 ∨ (Rect.block (s := S2x16x16) S1x16x16.size (cc0_transform_11 i) (hinb0_11 i)).WholeWords (EltTy.packing .f32)

variable [Facts₀]

def dot_S16x32768_S16x32768_S16x16_1_1_0_0_n_n : DotDims S16x32768 S16x32768 S16x16 where
  lhsContracting := [1]
  rhsContracting := [1]
  lhsNonContracting := [0]
  rhsNonContracting := [0]
  lhsBatch := []
  rhsBatch := []
  wf := dot_S16x32768_S16x32768_S16x16_1_1_0_0_n_n_wf

abbrev win0_0 : Pipeline.Window sig grid0 :=
  Pipeline.Window.ofSpec (Memref.whole main_v0) S16x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x32768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S16x32768.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S1x16x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S1x16x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_2) S1x16x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_3) S1x16x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_4) S1x16x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_5) S1x16x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_6) S1x16x16.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16x1x512x512 : Shape := ⟨4, ![16, 1, 512, 512]⟩
abbrev S_ : Shape := ⟨0, ![]⟩
abbrev S4194304 : Shape := ⟨1, ![4194304]⟩
abbrev S16 : Shape := ⟨1, ![16]⟩
abbrev S16x262144 : Shape := ⟨2, ![16, 262144]⟩
abbrev S262144x16 : Shape := ⟨2, ![262144, 16]⟩
abbrev S16x16 : Shape := ⟨2, ![16, 16]⟩
abbrev S16x1 : Shape := ⟨2, ![16, 1]⟩
abbrev S1x16 : Shape := ⟨2, ![1, 16]⟩

abbrev nBuf : Space → Nat
  | .hbm => 121
  | .vmem => 0
  | .smem => 0
  | _ => 0

abbrev bufTy : (tb : Table) → Fin (tcTables nBuf tb) → BufTy
  | .hbm, ⟨0, _⟩ => ⟨S16x1x512x512, .f32⟩
  | .hbm, ⟨1, _⟩ => ⟨S16x1x512x512, .f32⟩
  | .hbm, ⟨2, _⟩ => ⟨S16x1x512x512, .f32⟩
  | .hbm, ⟨3, _⟩ => ⟨S16x1x512x512, .f32⟩
  | .hbm, ⟨4, _⟩ => ⟨S16x1x512x512, .f32⟩
  | .hbm, ⟨5, _⟩ => ⟨S16x1x512x512, .f32⟩
  | .hbm, ⟨6, _⟩ => ⟨S16x1x512x512, .f32⟩
  | .hbm, ⟨7, _⟩ => ⟨S_, .f32⟩
  | .hbm, ⟨8, _⟩ => ⟨S16x1x512x512, .f32⟩
  | .hbm, ⟨9, _⟩ => ⟨S16x1x512x512, .f32⟩
  | .hbm, ⟨10, _⟩ => ⟨S_, .f32⟩
  | .hbm, ⟨11, _⟩ => ⟨S16x1x512x512, .f32⟩
  | .hbm, ⟨12, _⟩ => ⟨S16x1x512x512, .f32⟩
  | .hbm, ⟨13, _⟩ => ⟨S4194304, .f32⟩
  | .hbm, ⟨14, _⟩ => ⟨S4194304, .f32⟩
  | .hbm, ⟨15, _⟩ => ⟨S4194304, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S16x1x512x512, .f32⟩
  | .hbm, ⟨33, _⟩ => ⟨S16x1x512x512, .f32⟩
  | .hbm, ⟨34, _⟩ => ⟨S_, .f32⟩
  | .hbm, ⟨35, _⟩ => ⟨S16x1x512x512, .f32⟩
  | .hbm, ⟨36, _⟩ => ⟨S16x1x512x512, .f32⟩
  | .hbm, ⟨37, _⟩ => ⟨S_, .f32⟩
  | .hbm, ⟨38, _⟩ => ⟨S16x1x512x512, .f32⟩
  | .hbm, ⟨39, _⟩ => ⟨S16x1x512x512, .f32⟩
  | .hbm, ⟨40, _⟩ => ⟨S16x1x512x512, .f32⟩
  | .hbm, ⟨41, _⟩ => ⟨S16x1x512x512, .f32⟩
  | .hbm, ⟨42, _⟩ => ⟨S_, .f32⟩
  | .hbm, ⟨43, _⟩ => ⟨S16x1x512x512, .f32⟩
  | .hbm, ⟨44, _⟩ => ⟨S16x1x512x512, .f32⟩
  | .hbm, ⟨45, _⟩ => ⟨S_, .f32⟩
  | .hbm, ⟨46, _⟩ => ⟨S16x1x512x512, .f32⟩
  | .hbm, ⟨47, _⟩ => ⟨S16x1x512x512, .f32⟩
  | .hbm, ⟨48, _⟩ => ⟨S16x1x512x512, .f32⟩
  | .hbm, ⟨49, _⟩ => ⟨S16x1x512x512, .f32⟩
  | .hbm, ⟨50, _⟩ => ⟨S16x1x512x512, .f32⟩
  | .hbm, ⟨51, _⟩ => ⟨S_, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S16, .f32⟩
  | .hbm, ⟨61, _⟩ => ⟨S16x262144, .f32⟩
  | .hbm, ⟨62, _⟩ => ⟨S16x262144, .f32⟩
  | .hbm, ⟨63, _⟩ => ⟨S16x262144, .f32⟩
  | .hbm, ⟨64, _⟩ => ⟨S_, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S16x262144, .f32⟩
  | .hbm, ⟨70, _⟩ => ⟨S_, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S262144x16, .f32⟩
  | .hbm, ⟨76, _⟩ => ⟨S16x16, .f32⟩
  | .hbm, ⟨77, _⟩ => ⟨S_, .f32⟩
  | .hbm, ⟨78, _⟩ => ⟨S16x16, .f32⟩
  | .hbm, ⟨79, _⟩ => ⟨S16x16, .f32⟩
  | .hbm, ⟨80, _⟩ => ⟨S16x1, .f32⟩
  | .hbm, ⟨81, _⟩ => ⟨S1x16, .f32⟩
  | .hbm, ⟨82, _⟩ => ⟨S16x16, .f32⟩
  | .hbm, ⟨83, _⟩ => ⟨S16x16, .f32⟩
  | .hbm, ⟨84, _⟩ => ⟨S16x16, .f32⟩
  | .hbm, ⟨85, _⟩ => ⟨S_, .f32⟩
  | .hbm, ⟨86, _⟩ => ⟨S16x16, .f32⟩
  | .hbm, ⟨87, _⟩ => ⟨S16x16, .f32⟩
  | .hbm, ⟨88, _⟩ => ⟨S16x16, .f32⟩
  | .hbm, ⟨89, _⟩ => ⟨S16x16, .f32⟩
  | .hbm, ⟨90, _⟩ => ⟨S_, .f32⟩
  | .hbm, ⟨91, _⟩ => ⟨S16x16, .f32⟩
  | .hbm, ⟨92, _⟩ => ⟨S16x16, .f32⟩
  | .hbm, ⟨93, _⟩ => ⟨S16x16, .f32⟩
  | .hbm, ⟨94, _⟩ => ⟨S16x16, .i32⟩
  | .hbm, ⟨95, _⟩ => ⟨S16x16, .i32⟩
  | .hbm, ⟨96, _⟩ => ⟨S_, .i32⟩
  | .hbm, ⟨97, _⟩ => ⟨S16x16, .i32⟩
  | .hbm, ⟨98, _⟩ => ⟨S16x16, .i32⟩
  | .hbm, ⟨99, _⟩ => ⟨S16x16, .i1⟩
  | .hbm, ⟨100, _⟩ => ⟨S16x16, .f32⟩
  | .hbm, ⟨101, _⟩ => ⟨S_, .f32⟩
  | .hbm, ⟨102, _⟩ => ⟨S16x16, .f32⟩
  | .hbm, ⟨103, _⟩ => ⟨S16x16, .f32⟩
  | .hbm, ⟨104, _⟩ => ⟨S16x16, .f32⟩
  | .hbm, ⟨105, _⟩ => ⟨S_, .f32⟩
  | .hbm, ⟨106, _⟩ => ⟨S16, .f32⟩
  | .hbm, ⟨107, _⟩ => ⟨S16, .f32⟩
  | .hbm, ⟨108, _⟩ => ⟨S16, .f32⟩
  | .hbm, ⟨109, _⟩ => ⟨S16, .f32⟩
  | .hbm, ⟨110, _⟩ => ⟨S16, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_cst_6 : Ref sig .tc := ⟨.hbm, 27, rfl⟩
abbrev main_v15 : Ref sig .tc := ⟨.hbm, 28, rfl⟩
abbrev main_v16 : Ref sig .tc := ⟨.hbm, 29, rfl⟩
abbrev main_cst_7 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_8 : Ref sig .tc := ⟨.hbm, 34, rfl⟩
abbrev main_v20 : Ref sig .tc := ⟨.hbm, 35, rfl⟩
abbrev main_v21 : Ref sig .tc := ⟨.hbm, 36, rfl⟩
abbrev main_cst_9 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_10 : Ref sig .tc := ⟨.hbm, 42, rfl⟩
abbrev main_v26 : Ref sig .tc := ⟨.hbm, 43, rfl⟩
abbrev main_v27 : Ref sig .tc := ⟨.hbm, 44, rfl⟩
abbrev main_cst_11 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_12 : Ref sig .tc := ⟨.hbm, 51, rfl⟩
abbrev main_v33 : Ref sig .tc := ⟨.hbm, 52, rfl⟩
abbrev main_cst_13 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_14 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_15 : Ref sig .tc := ⟨.hbm, 64, rfl⟩
abbrev main_v43 : Ref sig .tc := ⟨.hbm, 65, rfl⟩
abbrev main_cst_16 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_17 : Ref sig .tc := ⟨.hbm, 70, rfl⟩
abbrev main_v47 : Ref sig .tc := ⟨.hbm, 71, rfl⟩
abbrev main_cst_18 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_19 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_20 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_21 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_22 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_23 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_24 : Ref sig .tc := ⟨.hbm, 111, rfl⟩
abbrev main_v80 : Ref sig .tc := ⟨.hbm, 112, rfl⟩
abbrev main_cst_25 : Ref sig .tc := ⟨.hbm, 113, rfl⟩
abbrev main_v81 : Ref sig .tc := ⟨.hbm, 114, rfl⟩
abbrev main_cst_26 : Ref sig .tc := ⟨.hbm, 115, rfl⟩
abbrev main_v82 : Ref sig .tc := ⟨.hbm, 116, rfl⟩
abbrev main_cst_27 : Ref sig .tc := ⟨.hbm, 117, rfl⟩
abbrev main_v83 : Ref sig .tc := ⟨.hbm, 118, rfl⟩
abbrev main_v84 : Ref sig .tc := ⟨.hbm, 119, rfl⟩
abbrev main_cst_28 : Ref sig .tc := ⟨.hbm, 120, rfl⟩

abbrev nD : Nat := 1
abbrev τ : Topo := Topo.v7x

variable {F : FTy → Type} [FloatOps F]

class Facts₀ : Prop where
  bcast_S_S16x1x512x512 : S_.BroadcastsInDim S16x1x512x512 (![] : Fin 0 → Fin S16x1x512x512.rank)
  shapeCasts_S16x1x512x512_S4194304 : S16x1x512x512.ShapeCasts S4194304
  reducesTo_S4194304_S_d0 : S4194304.ReducesTo [0] S_
  h_S_ : 0 < S_.numel
  reducesTo_S16x1x512x512_S16_d1_2_3 : S16x1x512x512.ReducesTo [1, 2, 3] S16
  bcast_S_S16 : S_.BroadcastsInDim S16 (![] : Fin 0 → Fin S16.rank)
  shapeCasts_S16x1x512x512_S16x262144 : S16x1x512x512.ShapeCasts S16x262144
  reducesTo_S16x262144_S16_d1 : S16x262144.ReducesTo [1] S16
  transposes_S16x262144_S262144x16_1_0 : S16x262144.Transposes [1, 0] S262144x16
  bcast_S_S16x16 : S_.BroadcastsInDim S16x16 (![] : Fin 0 → Fin S16x16.rank)
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  reducesTo_S16x16_S16_d1 : S16x16.ReducesTo [1] S16
  reducesTo_S16_S_d0 : S16.ReducesTo [0] S_
  dot_S16x262144_S262144x16_S16x16_1_0_0_1_n_n_wf : DotDims.WF S16x262144 S262144x16 S16x16 [1] [0] [0] [1] [] []

variable [Facts₀]

def dot_S16x262144_S262144x16_S16x16_1_0_0_1_n_n : DotDims S16x262144 S262144x16 S16x16 where
  lhsContracting := [1]
  rhsContracting := [0]
  lhsNonContracting := [0]
  rhsNonContracting := [1]
  lhsBatch := []
  rhsBatch := []
  wf := dot_S16x262144_S262144x16_S16x16_1_0_0_1_n_n_wf

class Facts : Prop extends Facts₀ where

variable [Facts]
-- ==== Proof.Kernel.Shared.lean ====
/-
  The part of the frame proof that both control cases of the reduction kernel share.

  @main is five reshapes of the arguments (each [16,1,512,512] array flattened to [16,262144]), the one
  pallas_call on the grid (2,4), and then 91 host operations on the seven small result arrays.  Here:
  the buffer contents the region is entered with (the arguments after the five reshapes), the facts about
  the later host lines that the launch theorem asks for (each touches only unscoped buffers, allocates
  nothing, and writes neither an array of the pipeline nor an argument), each window's block at a grid
  point, the one branch condition of the body — the second grid coordinate is zero, i.e. the point is the
  first of its core's four — in closed form, and the frame claim's postcondition read off a frame run.
-/
import proofs.«134782_j77738908057903_2_alg».proof.Proof.Gen.Kernel.Launch
import proofs.«134782_j77738908057903_2_alg».proof.Proof.Gen.Kernel.Skeleton
import proofs.«134782_j77738908057903_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the five reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

set_option maxHeartbeats 40000000 in
/-- @main is the reshapes, the region, and the later host lines: it reduces to the region continued by those lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 40000000 in
/-- Each later line writes only its own result buffer, which is none of the twelve arrays the windows stage. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-- No reshape before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 40000000 in
/-- No later line writes argument 0. -/
theorem hostOps1_keeps_arg0 : (hostOps1 : List (HloOp τ sig (Elt F))).Forall fun op =>
    Proc.devRef .tc main_arg0 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- So argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [List.flatten_cons, List.flatten_nil, List.append_nil]; exact hostOps1_keeps_arg0)),
    Pipeline.withArrays_of_ne _ c (V0 m c) _ main_arg0 (by exact (by decide : ∀ w, Pipeline.arrRef spec0 w ≠ main_arg0))]
  exact V_main_arg0 m c

/-- No reshape before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 40000000 in
/-- No later line writes argument 1. -/
theorem hostOps1_keeps_arg1 : (hostOps1 : List (HloOp τ sig (Elt F))).Forall fun op =>
    Proc.devRef .tc main_arg1 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- So argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [List.flatten_cons, List.flatten_nil, List.append_nil]; exact hostOps1_keeps_arg1)),
    Pipeline.withArrays_of_ne _ c (V0 m c) _ main_arg1 (by exact (by decide : ∀ w, Pipeline.arrRef spec0 w ≠ main_arg1))]
  exact V_main_arg1 m c

/-- No reshape before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 40000000 in
/-- No later line writes argument 2. -/
theorem hostOps1_keeps_arg2 : (hostOps1 : List (HloOp τ sig (Elt F))).Forall fun op =>
    Proc.devRef .tc main_arg2 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- So argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [List.flatten_cons, List.flatten_nil, List.append_nil]; exact hostOps1_keeps_arg2)),
    Pipeline.withArrays_of_ne _ c (V0 m c) _ main_arg2 (by exact (by decide : ∀ w, Pipeline.arrRef spec0 w ≠ main_arg2))]
  exact V_main_arg2 m c

/-- No reshape before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 40000000 in
/-- No later line writes argument 3. -/
theorem hostOps1_keeps_arg3 : (hostOps1 : List (HloOp τ sig (Elt F))).Forall fun op =>
    Proc.devRef .tc main_arg3 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- So argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [List.flatten_cons, List.flatten_nil, List.append_nil]; exact hostOps1_keeps_arg3)),
    Pipeline.withArrays_of_ne _ c (V0 m c) _ main_arg3 (by exact (by decide : ∀ w, Pipeline.arrRef spec0 w ≠ main_arg3))]
  exact V_main_arg3 m c

/-- No reshape before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 40000000 in
/-- No later line writes argument 4. -/
theorem hostOps1_keeps_arg4 : (hostOps1 : List (HloOp τ sig (Elt F))).Forall fun op =>
    Proc.devRef .tc main_arg4 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- So argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [List.flatten_cons, List.flatten_nil, List.append_nil]; exact hostOps1_keeps_arg4)),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data whose array is the
    region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, for any proof data whose array is the
    region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The five arguments are staged by no window (the windows stage their reshaped copies), so a frame run's post gives
    each as the later lines leave it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (Pipeline.mem_restRefs_of main_arg0 (by decide) (by decide))).trans (W_main_arg0 m dats c)), (((h c).2 main_arg1 (Pipeline.mem_restRefs_of main_arg1 (by decide) (by decide))).trans (W_main_arg1 m dats c)), (((h c).2 main_arg2 (Pipeline.mem_restRefs_of main_arg2 (by decide) (by decide))).trans (W_main_arg2 m dats c)), (((h c).2 main_arg3 (Pipeline.mem_restRefs_of main_arg3 (by decide) (by decide))).trans (W_main_arg3 m dats c)), (((h c).2 main_arg4 (Pipeline.mem_restRefs_of main_arg4 (by decide) (by decide))).trans (W_main_arg4 m dats c))⟩) h

/-! ## The body's branch condition -/

/-- The body's one `scf.if`: the second grid coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 4): the first point of each core's row of four. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs at a point -/

/-- One staging buffer of output window 5, through which its contents are stated. -/
abbrev VO0_5 : View sig .tc .vmem S1x16x1 .f32 := (Memref.whole cc0_stg5_0 : Memref sig .tc .vmem S1x16x1 .f32).view
/-- One staging buffer of output window 6, through which its contents are stated. -/
abbrev VO0_6 : View sig .tc .vmem S1x16x1 .f32 := (Memref.whole cc0_stg6_0 : Memref sig .tc .vmem S1x16x1 .f32).view
/-- One staging buffer of output window 7, through which its contents are stated. -/
abbrev VO0_7 : View sig .tc .vmem S1x16x1 .f32 := (Memref.whole cc0_stg7_0 : Memref sig .tc .vmem S1x16x1 .f32).view
/-- One staging buffer of output window 8, through which its contents are stated. -/
abbrev VO0_8 : View sig .tc .vmem S1x16x1 .f32 := (Memref.whole cc0_stg8_0 : Memref sig .tc .vmem S1x16x1 .f32).view
/-- One staging buffer of output window 9, through which its contents are stated. -/
abbrev VO0_9 : View sig .tc .vmem S1x16x1 .f32 := (Memref.whole cc0_stg9_0 : Memref sig .tc .vmem S1x16x1 .f32).view
/-- One staging buffer of output window 10, through which its contents are stated. -/
abbrev VO0_10 : View sig .tc .vmem S1x16x1 .f32 := (Memref.whole cc0_stg10_0 : Memref sig .tc .vmem S1x16x1 .f32).view
/-- One staging buffer of output window 11, through which its contents are stated. -/
abbrev VO0_11 : View sig .tc .vmem S1x16x16 .f32 := (Memref.whole cc0_stg11_0 : Memref sig .tc .vmem S1x16x16 .f32).view

abbrev ms0_0 (t : Fin cfg0.N) : Memref sig .tc .vmem S16x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x32768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x32768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x32768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x32768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x16x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x16x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x16x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x16x16 .f32 := win0_11.stage (cfg0.slots t 11)
abbrev hs0_11 (t : Fin cfg0.N) : (ms0_11 t).IsWhole := hstage0_11 ((cfg0.slots t 11).cast nbuf0_11)

end Cert.Kernel.Acc

end
-- ==== Proof.Kernel.RunA.lean ====
/-
  The whole body of the reduction kernel run once, in the control case where the point is the first of its core's four (the second grid coordinate is zero): the seven accumulators are first overwritten with zeros, so what they held before does not matter.
  The statement: on whole staging buffers — the five inputs at their blocks, the seven outputs at anything — the body
  runs to a continuation that holds the inputs as they were and each output's buffer with a list of stored pieces
  written into it; the piece lists are found by the symbolic run itself.
-/
import proofs.«134782_j77738908057903_2_alg».proof.Proof.Kernel.Shared

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) :
    Σ' (L5 : List (View.Piece (Elt F) S1x16x1 .f32)) (L6 : List (View.Piece (Elt F) S1x16x1 .f32)) (L7 : List (View.Piece (Elt F) S1x16x1 .f32)) (L8 : List (View.Piece (Elt F) S1x16x1 .f32)) (L9 : List (View.Piece (Elt F) S1x16x1 .f32)) (L10 : List (View.Piece (Elt F) S1x16x1 .f32)), { L11 : List (View.Piece (Elt F) S1x16x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

end Cert.Kernel.Acc

end
-- ==== Proof.Kernel.RunB.lean ====
/-
  The whole body of the reduction kernel run once, in the control case where the point is not the first of its core's four: the seven accumulators are read at what the point before left in them.
  The statement: on whole staging buffers — the five inputs at their blocks, the seven outputs at given contents — the body
  runs to a continuation that holds the inputs as they were and each output's buffer with a list of stored pieces
  written into it; the piece lists are found by the symbolic run itself.
-/
import proofs.«134782_j77738908057903_2_alg».proof.Proof.Kernel.RunA

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) :
    Σ' (L5 : List (View.Piece (Elt F) S1x16x1 .f32)) (L6 : List (View.Piece (Elt F) S1x16x1 .f32)) (L7 : List (View.Piece (Elt F) S1x16x1 .f32)) (L8 : List (View.Piece (Elt F) S1x16x1 .f32)) (L9 : List (View.Piece (Elt F) S1x16x1 .f32)) (L10 : List (View.Piece (Elt F) S1x16x1 .f32)), { L11 : List (View.Piece (Elt F) S1x16x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xo6 ∗ owns (c : Thread nD τ) arg9 fullShare xo7 ∗ owns (c : Thread nD τ) arg10 fullShare xo8 ∗ owns (c : Thread nD τ) arg11 fullShare xo9 ∗ owns (c : Thread nD τ) arg12 fullShare xo10 ∗ owns (c : Thread nD τ) arg13 fullShare xo11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

end Cert.Kernel.Acc

end
-- ==== Proof.Kernel.Frame.lean ====
/-
  The frame of the program: it runs to the end, faults nowhere, and leaves its five arguments unchanged.

  The kernel keeps seven accumulators, one per output window, each a block of its core's slab of the output array
  (block index = the first grid coordinate).  At a point whose second coordinate is zero the body overwrites them with
  zeros and then adds this point's contribution; at the other points it reads what the point before left and adds.
  The pipeline writes an output's block back only after a core's fourth point, so between the points of one core the
  staging buffer still holds what the body left: that is what makes the recursion `outsAt0` below the contents of the
  outputs' buffers after each point.  With that as the proof data the body's two runs discharge the body obligation
  at every point, and the launch theorem for a region followed by host lines gives the run of @main.
-/
import proofs.«134782_j77738908057903_2_alg».proof.Proof.Kernel.RunB

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In the resetting case the stores into output 5 tile its block. -/
theorem cover0_A_5 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) (y : S1x16x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).1 S1x16x1.size (by sl_kernel_rfl) y

/-- What the resetting case leaves in output 5's buffer: its stored pieces read back. -/
def out0_A_5 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) : Vec F S1x16x1 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).1)

/-- In the accumulating case the stores into output 5 tile its block. -/
theorem cover0_B_5 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) (y : S1x16x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).1 S1x16x1.size (by sl_kernel_rfl) y

/-- What the accumulating case leaves in output 5's buffer, given what the seven buffers held. -/
def out0_B_5 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) : Vec F S1x16x1 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).1)

/-- In the resetting case the stores into output 6 tile its block. -/
theorem cover0_A_6 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) (y : S1x16x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.1 S1x16x1.size (by sl_kernel_rfl) y

/-- What the resetting case leaves in output 6's buffer: its stored pieces read back. -/
def out0_A_6 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) : Vec F S1x16x1 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.1)

/-- In the accumulating case the stores into output 6 tile its block. -/
theorem cover0_B_6 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) (y : S1x16x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.1 S1x16x1.size (by sl_kernel_rfl) y

/-- What the accumulating case leaves in output 6's buffer, given what the seven buffers held. -/
def out0_B_6 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) : Vec F S1x16x1 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.1)

/-- In the resetting case the stores into output 7 tile its block. -/
theorem cover0_A_7 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) (y : S1x16x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.1 S1x16x1.size (by sl_kernel_rfl) y

/-- What the resetting case leaves in output 7's buffer: its stored pieces read back. -/
def out0_A_7 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) : Vec F S1x16x1 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.1)

/-- In the accumulating case the stores into output 7 tile its block. -/
theorem cover0_B_7 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) (y : S1x16x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.1 S1x16x1.size (by sl_kernel_rfl) y

/-- What the accumulating case leaves in output 7's buffer, given what the seven buffers held. -/
def out0_B_7 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) : Vec F S1x16x1 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.1)

/-- In the resetting case the stores into output 8 tile its block. -/
theorem cover0_A_8 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) (y : S1x16x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.1 S1x16x1.size (by sl_kernel_rfl) y

/-- What the resetting case leaves in output 8's buffer: its stored pieces read back. -/
def out0_A_8 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) : Vec F S1x16x1 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.1)

/-- In the accumulating case the stores into output 8 tile its block. -/
theorem cover0_B_8 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) (y : S1x16x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.1 S1x16x1.size (by sl_kernel_rfl) y

/-- What the accumulating case leaves in output 8's buffer, given what the seven buffers held. -/
def out0_B_8 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) : Vec F S1x16x1 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.1)

/-- In the resetting case the stores into output 9 tile its block. -/
theorem cover0_A_9 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) (y : S1x16x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.1 S1x16x1.size (by sl_kernel_rfl) y

/-- What the resetting case leaves in output 9's buffer: its stored pieces read back. -/
def out0_A_9 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) : Vec F S1x16x1 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.1)

/-- In the accumulating case the stores into output 9 tile its block. -/
theorem cover0_B_9 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) (y : S1x16x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.2.1 S1x16x1.size (by sl_kernel_rfl) y

/-- What the accumulating case leaves in output 9's buffer, given what the seven buffers held. -/
def out0_B_9 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) : Vec F S1x16x1 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.2.1)

/-- In the resetting case the stores into output 10 tile its block. -/
theorem cover0_A_10 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) (y : S1x16x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.2.1 S1x16x1.size (by sl_kernel_rfl) y

/-- What the resetting case leaves in output 10's buffer: its stored pieces read back. -/
def out0_A_10 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) : Vec F S1x16x1 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.2.1)

/-- In the accumulating case the stores into output 10 tile its block. -/
theorem cover0_B_10 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) (y : S1x16x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.2.2.1 S1x16x1.size (by sl_kernel_rfl) y

/-- What the accumulating case leaves in output 10's buffer, given what the seven buffers held. -/
def out0_B_10 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) : Vec F S1x16x1 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.2.2.1)

/-- In the resetting case the stores into output 11 tile its block. -/
theorem cover0_A_11 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) (y : S1x16x16.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.2.2.1 S1x16x16.size (by sl_kernel_rfl) y

/-- What the resetting case leaves in output 11's buffer: its stored pieces read back. -/
def out0_A_11 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) : Vec F S1x16x16 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.2.2.1)

/-- In the accumulating case the stores into output 11 tile its block. -/
theorem cover0_B_11 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) (y : S1x16x16.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.2.2.2.1 S1x16x16.size (by sl_kernel_rfl) y

/-- What the accumulating case leaves in output 11's buffer, given what the seven buffers held. -/
def out0_B_11 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) : Vec F S1x16x16 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.2.2.2.1)

/-! ## What the outputs' buffers hold after each point -/

/-- The accumulation: after the body at position `n`, the seven outputs' staging buffers (in window order). -/
def outsAt0 (c : Dev nD) : (n : ℕ) → n < cfg0.N → Vec F S1x16x1 .f32 × Vec F S1x16x1 .f32 × Vec F S1x16x1 .f32 × Vec F S1x16x1 .f32 × Vec F S1x16x1 .f32 × Vec F S1x16x1 .f32 × Vec F S1x16x16 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩),
       out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩),
       out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩),
       out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩),
       out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩),
       out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩),
       out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩),
       out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩),
       out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩),
       out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩),
       out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩),
       out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩),
       out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2,
       out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2,
       out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2,
       out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2,
       out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2,
       out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2,
       out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2)

/-- At a point that resets. -/
theorem outsAt0_A (c : Dev nD) (t : Fin cfg0.N) (h0 : t.val % 4 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t),
       out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t),
       out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t),
       out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t),
       out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t),
       out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t),
       out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- At a point that accumulates: over what the point before left. -/
theorem outsAt0_B (c : Dev nD) (t : Fin cfg0.N) (h0 : ¬t.val % 4 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
       out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
       out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
       out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
       out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
       out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
       out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and each output's
    at its component of `outsAt0`; the invariant is the class's; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
    | ⟨9, _⟩ => (outsAt0 m c t.val t.isLt).2.2.2.2.1
    | ⟨10, _⟩ => (outsAt0 m c t.val t.isLt).2.2.2.2.2.1
    | ⟨11, _⟩ => (outsAt0 m c t.val t.isLt).2.2.2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]
theorem after0_9 (c : Dev nD) (t : Fin cfg0.N) : (dats m 0 c).after 9 t = (outsAt0 m c t.val t.isLt).2.2.2.2.1 := by dsimp only [dats]
theorem after0_10 (c : Dev nD) (t : Fin cfg0.N) : (dats m 0 c).after 10 t = (outsAt0 m c t.val t.isLt).2.2.2.2.2.1 := by dsimp only [dats]
theorem after0_11 (c : Dev nD) (t : Fin cfg0.N) : (dats m 0 c).after 11 t = (outsAt0 m c t.val t.isLt).2.2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At an accumulating point output 5's buffer holds what the body left at the point before: the point is not the
    first, the block was not written back in between (write-backs follow points ≡ 3 mod 4 only), the window is never idle
    and its blocks are whole. -/
theorem before0_5_B (c : Dev nD) (t : Fin cfg0.N) (h0 : ¬t.val % 4 = 0) (d) :
    (dats m 0 c).before 5 t d = (outsAt0 m c (t.val - 1) (Nat.lt_of_le_of_lt (Nat.sub_le _ _) t.isLt)).1 := by
  have hN : t.val < 8 := lt_of_lt_of_eq t.isLt (show cfg0.N = 8 from N_0)
  rw [Dat.before_out_kept _ 5 rfl t (by omega) (Bool.eq_false_iff.mpr fun h => by have := (flush0_5 _).mp h; dsimp only at this; omega)
    (fun _ => rfl) (fun _ _ => rfl)]
  dsimp only [dats]

/-- At an accumulating point output 6's buffer holds what the body left at the point before: the point is not the
    first, the block was not written back in between (write-backs follow points ≡ 3 mod 4 only), the window is never idle
    and its blocks are whole. -/
theorem before0_6_B (c : Dev nD) (t : Fin cfg0.N) (h0 : ¬t.val % 4 = 0) (d) :
    (dats m 0 c).before 6 t d = (outsAt0 m c (t.val - 1) (Nat.lt_of_le_of_lt (Nat.sub_le _ _) t.isLt)).2.1 := by
  have hN : t.val < 8 := lt_of_lt_of_eq t.isLt (show cfg0.N = 8 from N_0)
  rw [Dat.before_out_kept _ 6 rfl t (by omega) (Bool.eq_false_iff.mpr fun h => by have := (flush0_6 _).mp h; dsimp only at this; omega)
    (fun _ => rfl) (fun _ _ => rfl)]
  dsimp only [dats]

/-- At an accumulating point output 7's buffer holds what the body left at the point before: the point is not the
    first, the block was not written back in between (write-backs follow points ≡ 3 mod 4 only), the window is never idle
    and its blocks are whole. -/
theorem before0_7_B (c : Dev nD) (t : Fin cfg0.N) (h0 : ¬t.val % 4 = 0) (d) :
    (dats m 0 c).before 7 t d = (outsAt0 m c (t.val - 1) (Nat.lt_of_le_of_lt (Nat.sub_le _ _) t.isLt)).2.2.1 := by
  have hN : t.val < 8 := lt_of_lt_of_eq t.isLt (show cfg0.N = 8 from N_0)
  rw [Dat.before_out_kept _ 7 rfl t (by omega) (Bool.eq_false_iff.mpr fun h => by have := (flush0_7 _).mp h; dsimp only at this; omega)
    (fun _ => rfl) (fun _ _ => rfl)]
  dsimp only [dats]

/-- At an accumulating point output 8's buffer holds what the body left at the point before: the point is not the
    first, the block was not written back in between (write-backs follow points ≡ 3 mod 4 only), the window is never idle
    and its blocks are whole. -/
theorem before0_8_B (c : Dev nD) (t : Fin cfg0.N) (h0 : ¬t.val % 4 = 0) (d) :
    (dats m 0 c).before 8 t d = (outsAt0 m c (t.val - 1) (Nat.lt_of_le_of_lt (Nat.sub_le _ _) t.isLt)).2.2.2.1 := by
  have hN : t.val < 8 := lt_of_lt_of_eq t.isLt (show cfg0.N = 8 from N_0)
  rw [Dat.before_out_kept _ 8 rfl t (by omega) (Bool.eq_false_iff.mpr fun h => by have := (flush0_8 _).mp h; dsimp only at this; omega)
    (fun _ => rfl) (fun _ _ => rfl)]
  dsimp only [dats]

/-- At an accumulating point output 9's buffer holds what the body left at the point before: the point is not the
    first, the block was not written back in between (write-backs follow points ≡ 3 mod 4 only), the window is never idle
    and its blocks are whole. -/
theorem before0_9_B (c : Dev nD) (t : Fin cfg0.N) (h0 : ¬t.val % 4 = 0) (d) :
    (dats m 0 c).before 9 t d = (outsAt0 m c (t.val - 1) (Nat.lt_of_le_of_lt (Nat.sub_le _ _) t.isLt)).2.2.2.2.1 := by
  have hN : t.val < 8 := lt_of_lt_of_eq t.isLt (show cfg0.N = 8 from N_0)
  rw [Dat.before_out_kept _ 9 rfl t (by omega) (Bool.eq_false_iff.mpr fun h => by have := (flush0_9 _).mp h; dsimp only at this; omega)
    (fun _ => rfl) (fun _ _ => rfl)]
  dsimp only [dats]

/-- At an accumulating point output 10's buffer holds what the body left at the point before: the point is not the
    first, the block was not written back in between (write-backs follow points ≡ 3 mod 4 only), the window is never idle
    and its blocks are whole. -/
theorem before0_10_B (c : Dev nD) (t : Fin cfg0.N) (h0 : ¬t.val % 4 = 0) (d) :
    (dats m 0 c).before 10 t d = (outsAt0 m c (t.val - 1) (Nat.lt_of_le_of_lt (Nat.sub_le _ _) t.isLt)).2.2.2.2.2.1 := by
  have hN : t.val < 8 := lt_of_lt_of_eq t.isLt (show cfg0.N = 8 from N_0)
  rw [Dat.before_out_kept _ 10 rfl t (by omega) (Bool.eq_false_iff.mpr fun h => by have := (flush0_10 _).mp h; dsimp only at this; omega)
    (fun _ => rfl) (fun _ _ => rfl)]
  dsimp only [dats]

/-- At an accumulating point output 11's buffer holds what the body left at the point before: the point is not the
    first, the block was not written back in between (write-backs follow points ≡ 3 mod 4 only), the window is never idle
    and its blocks are whole. -/
theorem before0_11_B (c : Dev nD) (t : Fin cfg0.N) (h0 : ¬t.val % 4 = 0) (d) :
    (dats m 0 c).before 11 t d = (outsAt0 m c (t.val - 1) (Nat.lt_of_le_of_lt (Nat.sub_le _ _) t.isLt)).2.2.2.2.2.2 := by
  have hN : t.val < 8 := lt_of_lt_of_eq t.isLt (show cfg0.N = 8 from N_0)
  rw [Dat.before_out_kept _ 11 rfl t (by omega) (Bool.eq_false_iff.mpr fun h => by have := (flush0_11 _).mp h; dsimp only at this; omega)
    (fun _ => rfl) (fun _ _ => rfl)]
  dsimp only [dats]

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 8000000 in
/-- The body at any point: the inputs' buffers hold their blocks; the closed form of the branch condition says which
    case the point is in; at an accumulating point the outputs' buffers hold what the point before left; so that case's
    run applies, and what it leaves is this point's component of the accumulation. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  have hN : t.val < 8 := lt_of_lt_of_eq t.isLt (show cfg0.N = 8 from N_0)
  by_cases h0 : t.val % 4 = 0
  · rw [outsAt0_A m c t h0]
    unfold out0_A_5 out0_A_6 out0_A_7 out0_A_8 out0_A_9 out0_A_10 out0_A_11; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t)).2.2.2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iintro ⟨H0, H1, H2, H3, H4, ⟨%e5, H5⟩, ⟨%e6, H6⟩, ⟨%e7, H7⟩, ⟨%e8, H8⟩, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _ _ _ _ _ _ )
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _ )
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _ )
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ )
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ )
    isplitl [H10]
    · unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ )
    unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ )
  · rw [outsAt0_B m c t h0]
    simp only [before0_5_B m c t h0, before0_6_B m c t h0, before0_7_B m c t h0, before0_8_B m c t h0, before0_9_B m c t h0, before0_10_B m c t h0, before0_11_B m c t h0]
    unfold out0_B_5 out0_B_6 out0_B_7 out0_B_8 out0_B_9 out0_B_10 out0_B_11; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _ _ _ _ _ _ _ ).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H0, H1, H2, H3, H4, ⟨%e5, H5⟩, ⟨%e6, H6⟩, ⟨%e7, H7⟩, ⟨%e8, H8⟩, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _ _ _ _ _ _ _ _ _ _ _ _ )
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _ _ _ _ _ _ _ _ )
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _ _ _ _ _ _ _ )
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _ _ _ )
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _ _ )
    isplitl [H10]
    · unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ )
    unfold owns; iexists _; isplitr
    swap; · iexact H11
    ipureintro; exact View.read_writes_of_cover _ _ _ _ _ (cover0_B_11 c _ _ _ _ _ _ _ _ _ _ _ _ _ _ _ _ _ _ _ _ _ _ _ _ _ _ _ _ _ _ _ _ _ _ _ _ _ _ )

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 40000000 in
set_option backward.isDefEq.respectTransparency.types false in
/-- Every weakly fair execution of @main terminates, and in every final state each array of the pipeline holds what the
    library computes from the proof data and every other unscoped buffer what the later host lines leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

set_option maxHeartbeats 40000000 in
/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.Kernel.Acc

end
-- ==== Proof.KernelIdeal.Shared.lean ====
/-
  The part of the frame proof that both control cases of the reduction kernel share.

  @main is five reshapes of the arguments (each [16,1,512,512] array flattened to [16,262144]), the one
  pallas_call on the grid (2,4), and then 91 host operations on the seven small result arrays.  Here:
  the buffer contents the region is entered with (the arguments after the five reshapes), the facts about
  the later host lines that the launch theorem asks for (each touches only unscoped buffers, allocates
  nothing, and writes neither an array of the pipeline nor an argument), each window's block at a grid
  point, the one branch condition of the body — the second grid coordinate is zero, i.e. the point is the
  first of its core's four — in closed form, and the frame claim's postcondition read off a frame run.
-/
import proofs.«134782_j77738908057903_2_alg».proof.Proof.Gen.KernelIdeal.Launch
import proofs.«134782_j77738908057903_2_alg».proof.Proof.Gen.KernelIdeal.Skeleton
import proofs.«134782_j77738908057903_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the five reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

set_option maxHeartbeats 40000000 in
/-- @main is the reshapes, the region, and the later host lines: it reduces to the region continued by those lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 40000000 in
/-- Each later line writes only its own result buffer, which is none of the twelve arrays the windows stage. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-- No reshape before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 40000000 in
/-- No later line writes argument 0. -/
theorem hostOps1_keeps_arg0 : (hostOps1 : List (HloOp τ sig (Elt F))).Forall fun op =>
    Proc.devRef .tc main_arg0 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- So argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [List.flatten_cons, List.flatten_nil, List.append_nil]; exact hostOps1_keeps_arg0)),
    Pipeline.withArrays_of_ne _ c (V0 m c) _ main_arg0 (by exact (by decide : ∀ w, Pipeline.arrRef spec0 w ≠ main_arg0))]
  exact V_main_arg0 m c

/-- No reshape before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 40000000 in
/-- No later line writes argument 1. -/
theorem hostOps1_keeps_arg1 : (hostOps1 : List (HloOp τ sig (Elt F))).Forall fun op =>
    Proc.devRef .tc main_arg1 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- So argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [List.flatten_cons, List.flatten_nil, List.append_nil]; exact hostOps1_keeps_arg1)),
    Pipeline.withArrays_of_ne _ c (V0 m c) _ main_arg1 (by exact (by decide : ∀ w, Pipeline.arrRef spec0 w ≠ main_arg1))]
  exact V_main_arg1 m c

/-- No reshape before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 40000000 in
/-- No later line writes argument 2. -/
theorem hostOps1_keeps_arg2 : (hostOps1 : List (HloOp τ sig (Elt F))).Forall fun op =>
    Proc.devRef .tc main_arg2 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- So argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [List.flatten_cons, List.flatten_nil, List.append_nil]; exact hostOps1_keeps_arg2)),
    Pipeline.withArrays_of_ne _ c (V0 m c) _ main_arg2 (by exact (by decide : ∀ w, Pipeline.arrRef spec0 w ≠ main_arg2))]
  exact V_main_arg2 m c

/-- No reshape before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 40000000 in
/-- No later line writes argument 3. -/
theorem hostOps1_keeps_arg3 : (hostOps1 : List (HloOp τ sig (Elt F))).Forall fun op =>
    Proc.devRef .tc main_arg3 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- So argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [List.flatten_cons, List.flatten_nil, List.append_nil]; exact hostOps1_keeps_arg3)),
    Pipeline.withArrays_of_ne _ c (V0 m c) _ main_arg3 (by exact (by decide : ∀ w, Pipeline.arrRef spec0 w ≠ main_arg3))]
  exact V_main_arg3 m c

/-- No reshape before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 40000000 in
/-- No later line writes argument 4. -/
theorem hostOps1_keeps_arg4 : (hostOps1 : List (HloOp τ sig (Elt F))).Forall fun op =>
    Proc.devRef .tc main_arg4 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- So argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [List.flatten_cons, List.flatten_nil, List.append_nil]; exact hostOps1_keeps_arg4)),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data whose array is the
    region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, for any proof data whose array is the
    region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The five arguments are staged by no window (the windows stage their reshaped copies), so a frame run's post gives
    each as the later lines leave it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (Pipeline.mem_restRefs_of main_arg0 (by decide) (by decide))).trans (W_main_arg0 m dats c)), (((h c).2 main_arg1 (Pipeline.mem_restRefs_of main_arg1 (by decide) (by decide))).trans (W_main_arg1 m dats c)), (((h c).2 main_arg2 (Pipeline.mem_restRefs_of main_arg2 (by decide) (by decide))).trans (W_main_arg2 m dats c)), (((h c).2 main_arg3 (Pipeline.mem_restRefs_of main_arg3 (by decide) (by decide))).trans (W_main_arg3 m dats c)), (((h c).2 main_arg4 (Pipeline.mem_restRefs_of main_arg4 (by decide) (by decide))).trans (W_main_arg4 m dats c))⟩) h

/-! ## The body's branch condition -/

/-- The body's one `scf.if`: the second grid coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 4): the first point of each core's row of four. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs at a point -/

/-- One staging buffer of output window 5, through which its contents are stated. -/
abbrev VO0_5 : View sig .tc .vmem S1x16x1 .f32 := (Memref.whole cc0_stg5_0 : Memref sig .tc .vmem S1x16x1 .f32).view
/-- One staging buffer of output window 6, through which its contents are stated. -/
abbrev VO0_6 : View sig .tc .vmem S1x16x1 .f32 := (Memref.whole cc0_stg6_0 : Memref sig .tc .vmem S1x16x1 .f32).view
/-- One staging buffer of output window 7, through which its contents are stated. -/
abbrev VO0_7 : View sig .tc .vmem S1x16x1 .f32 := (Memref.whole cc0_stg7_0 : Memref sig .tc .vmem S1x16x1 .f32).view
/-- One staging buffer of output window 8, through which its contents are stated. -/
abbrev VO0_8 : View sig .tc .vmem S1x16x1 .f32 := (Memref.whole cc0_stg8_0 : Memref sig .tc .vmem S1x16x1 .f32).view
/-- One staging buffer of output window 9, through which its contents are stated. -/
abbrev VO0_9 : View sig .tc .vmem S1x16x1 .f32 := (Memref.whole cc0_stg9_0 : Memref sig .tc .vmem S1x16x1 .f32).view
/-- One staging buffer of output window 10, through which its contents are stated. -/
abbrev VO0_10 : View sig .tc .vmem S1x16x1 .f32 := (Memref.whole cc0_stg10_0 : Memref sig .tc .vmem S1x16x1 .f32).view
/-- One staging buffer of output window 11, through which its contents are stated. -/
abbrev VO0_11 : View sig .tc .vmem S1x16x16 .f32 := (Memref.whole cc0_stg11_0 : Memref sig .tc .vmem S1x16x16 .f32).view

abbrev ms0_0 (t : Fin cfg0.N) : Memref sig .tc .vmem S16x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x32768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x32768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x32768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x32768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x16x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x16x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x16x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x16x16 .f32 := win0_11.stage (cfg0.slots t 11)
abbrev hs0_11 (t : Fin cfg0.N) : (ms0_11 t).IsWhole := hstage0_11 ((cfg0.slots t 11).cast nbuf0_11)

end Cert.KernelIdeal.Acc

end
-- ==== Proof.KernelIdeal.RunA.lean ====
/-
  The whole body of the reduction kernel run once, in the control case where the point is the first of its core's four (the second grid coordinate is zero): the seven accumulators are first overwritten with zeros, so what they held before does not matter.
  The statement: on whole staging buffers — the five inputs at their blocks, the seven outputs at anything — the body
  runs to a continuation that holds the inputs as they were and each output's buffer with a list of stored pieces
  written into it; the piece lists are found by the symbolic run itself.
-/
import proofs.«134782_j77738908057903_2_alg».proof.Proof.KernelIdeal.Shared

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) :
    Σ' (L5 : List (View.Piece (Elt F) S1x16x1 .f32)) (L6 : List (View.Piece (Elt F) S1x16x1 .f32)) (L7 : List (View.Piece (Elt F) S1x16x1 .f32)) (L8 : List (View.Piece (Elt F) S1x16x1 .f32)) (L9 : List (View.Piece (Elt F) S1x16x1 .f32)) (L10 : List (View.Piece (Elt F) S1x16x1 .f32)), { L11 : List (View.Piece (Elt F) S1x16x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

end Cert.KernelIdeal.Acc

end
-- ==== Proof.KernelIdeal.RunB.lean ====
/-
  The whole body of the reduction kernel run once, in the control case where the point is not the first of its core's four: the seven accumulators are read at what the point before left in them.
  The statement: on whole staging buffers — the five inputs at their blocks, the seven outputs at given contents — the body
  runs to a continuation that holds the inputs as they were and each output's buffer with a list of stored pieces
  written into it; the piece lists are found by the symbolic run itself.
-/
import proofs.«134782_j77738908057903_2_alg».proof.Proof.KernelIdeal.RunA

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) :
    Σ' (L5 : List (View.Piece (Elt F) S1x16x1 .f32)) (L6 : List (View.Piece (Elt F) S1x16x1 .f32)) (L7 : List (View.Piece (Elt F) S1x16x1 .f32)) (L8 : List (View.Piece (Elt F) S1x16x1 .f32)) (L9 : List (View.Piece (Elt F) S1x16x1 .f32)) (L10 : List (View.Piece (Elt F) S1x16x1 .f32)), { L11 : List (View.Piece (Elt F) S1x16x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xo6 ∗ owns (c : Thread nD τ) arg9 fullShare xo7 ∗ owns (c : Thread nD τ) arg10 fullShare xo8 ∗ owns (c : Thread nD τ) arg11 fullShare xo9 ∗ owns (c : Thread nD τ) arg12 fullShare xo10 ∗ owns (c : Thread nD τ) arg13 fullShare xo11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

end Cert.KernelIdeal.Acc

end
-- ==== Proof.KernelIdeal.Frame.lean ====
/-
  The frame of the program: it runs to the end, faults nowhere, and leaves its five arguments unchanged.

  The kernel keeps seven accumulators, one per output window, each a block of its core's slab of the output array
  (block index = the first grid coordinate).  At a point whose second coordinate is zero the body overwrites them with
  zeros and then adds this point's contribution; at the other points it reads what the point before left and adds.
  The pipeline writes an output's block back only after a core's fourth point, so between the points of one core the
  staging buffer still holds what the body left: that is what makes the recursion `outsAt0` below the contents of the
  outputs' buffers after each point.  With that as the proof data the body's two runs discharge the body obligation
  at every point, and the launch theorem for a region followed by host lines gives the run of @main.
-/
import proofs.«134782_j77738908057903_2_alg».proof.Proof.KernelIdeal.RunB

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In the resetting case the stores into output 5 tile its block. -/
theorem cover0_A_5 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) (y : S1x16x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).1 S1x16x1.size (by sl_kernel_rfl) y

/-- What the resetting case leaves in output 5's buffer: its stored pieces read back. -/
def out0_A_5 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) : Vec F S1x16x1 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).1)

/-- In the accumulating case the stores into output 5 tile its block. -/
theorem cover0_B_5 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) (y : S1x16x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).1 S1x16x1.size (by sl_kernel_rfl) y

/-- What the accumulating case leaves in output 5's buffer, given what the seven buffers held. -/
def out0_B_5 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) : Vec F S1x16x1 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).1)

/-- In the resetting case the stores into output 6 tile its block. -/
theorem cover0_A_6 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) (y : S1x16x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.1 S1x16x1.size (by sl_kernel_rfl) y

/-- What the resetting case leaves in output 6's buffer: its stored pieces read back. -/
def out0_A_6 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) : Vec F S1x16x1 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.1)

/-- In the accumulating case the stores into output 6 tile its block. -/
theorem cover0_B_6 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) (y : S1x16x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.1 S1x16x1.size (by sl_kernel_rfl) y

/-- What the accumulating case leaves in output 6's buffer, given what the seven buffers held. -/
def out0_B_6 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) : Vec F S1x16x1 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.1)

/-- In the resetting case the stores into output 7 tile its block. -/
theorem cover0_A_7 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) (y : S1x16x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.1 S1x16x1.size (by sl_kernel_rfl) y

/-- What the resetting case leaves in output 7's buffer: its stored pieces read back. -/
def out0_A_7 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) : Vec F S1x16x1 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.1)

/-- In the accumulating case the stores into output 7 tile its block. -/
theorem cover0_B_7 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) (y : S1x16x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.1 S1x16x1.size (by sl_kernel_rfl) y

/-- What the accumulating case leaves in output 7's buffer, given what the seven buffers held. -/
def out0_B_7 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) : Vec F S1x16x1 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.1)

/-- In the resetting case the stores into output 8 tile its block. -/
theorem cover0_A_8 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) (y : S1x16x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.1 S1x16x1.size (by sl_kernel_rfl) y

/-- What the resetting case leaves in output 8's buffer: its stored pieces read back. -/
def out0_A_8 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) : Vec F S1x16x1 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.1)

/-- In the accumulating case the stores into output 8 tile its block. -/
theorem cover0_B_8 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) (y : S1x16x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.1 S1x16x1.size (by sl_kernel_rfl) y

/-- What the accumulating case leaves in output 8's buffer, given what the seven buffers held. -/
def out0_B_8 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) : Vec F S1x16x1 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.1)

/-- In the resetting case the stores into output 9 tile its block. -/
theorem cover0_A_9 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) (y : S1x16x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.1 S1x16x1.size (by sl_kernel_rfl) y

/-- What the resetting case leaves in output 9's buffer: its stored pieces read back. -/
def out0_A_9 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) : Vec F S1x16x1 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.1)

/-- In the accumulating case the stores into output 9 tile its block. -/
theorem cover0_B_9 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) (y : S1x16x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.2.1 S1x16x1.size (by sl_kernel_rfl) y

/-- What the accumulating case leaves in output 9's buffer, given what the seven buffers held. -/
def out0_B_9 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) : Vec F S1x16x1 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.2.1)

/-- In the resetting case the stores into output 10 tile its block. -/
theorem cover0_A_10 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) (y : S1x16x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.2.1 S1x16x1.size (by sl_kernel_rfl) y

/-- What the resetting case leaves in output 10's buffer: its stored pieces read back. -/
def out0_A_10 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) : Vec F S1x16x1 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.2.1)

/-- In the accumulating case the stores into output 10 tile its block. -/
theorem cover0_B_10 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) (y : S1x16x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.2.2.1 S1x16x1.size (by sl_kernel_rfl) y

/-- What the accumulating case leaves in output 10's buffer, given what the seven buffers held. -/
def out0_B_10 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) : Vec F S1x16x1 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.2.2.1)

/-- In the resetting case the stores into output 11 tile its block. -/
theorem cover0_A_11 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) (y : S1x16x16.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.2.2.1 S1x16x16.size (by sl_kernel_rfl) y

/-- What the resetting case leaves in output 11's buffer: its stored pieces read back. -/
def out0_A_11 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i)
    (x0 : Vec F S16x32768 .f32) (x1 : Vec F S16x32768 .f32) (x2 : Vec F S16x32768 .f32) (x3 : Vec F S16x32768 .f32) (x4 : Vec F S16x32768 .f32) : Vec F S1x16x16 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.2.2.2.2.2.1)

/-- In the accumulating case the stores into output 11 tile its block. -/
theorem cover0_B_11 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) (y : S1x16x16.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.2.2.2.1 S1x16x16.size (by sl_kernel_rfl) y

/-- What the accumulating case leaves in output 11's buffer, given what the seven buffers held. -/
def out0_B_11 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i)
    (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) : Vec F S1x16x16 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11).2.2.2.2.2.2.1)

/-! ## What the outputs' buffers hold after each point -/

/-- The accumulation: after the body at position `n`, the seven outputs' staging buffers (in window order). -/
def outsAt0 (c : Dev nD) : (n : ℕ) → n < cfg0.N → Vec F S1x16x1 .f32 × Vec F S1x16x1 .f32 × Vec F S1x16x1 .f32 × Vec F S1x16x1 .f32 × Vec F S1x16x1 .f32 × Vec F S1x16x1 .f32 × Vec F S1x16x16 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩),
       out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩),
       out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩),
       out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩),
       out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩),
       out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩),
       out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩),
       out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩),
       out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩),
       out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩),
       out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩),
       out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩),
       out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2,
       out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2,
       out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2,
       out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2,
       out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2,
       out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2,
       out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2)

/-- At a point that resets. -/
theorem outsAt0_A (c : Dev nD) (t : Fin cfg0.N) (h0 : t.val % 4 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t),
       out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t),
       out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t),
       out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t),
       out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t),
       out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t),
       out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- At a point that accumulates: over what the point before left. -/
theorem outsAt0_B (c : Dev nD) (t : Fin cfg0.N) (h0 : ¬t.val % 4 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
       out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
       out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
       out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
       out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
       out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
       out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and each output's
    at its component of `outsAt0`; the invariant is the class's; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
    | ⟨9, _⟩ => (outsAt0 m c t.val t.isLt).2.2.2.2.1
    | ⟨10, _⟩ => (outsAt0 m c t.val t.isLt).2.2.2.2.2.1
    | ⟨11, _⟩ => (outsAt0 m c t.val t.isLt).2.2.2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]
theorem after0_9 (c : Dev nD) (t : Fin cfg0.N) : (dats m 0 c).after 9 t = (outsAt0 m c t.val t.isLt).2.2.2.2.1 := by dsimp only [dats]
theorem after0_10 (c : Dev nD) (t : Fin cfg0.N) : (dats m 0 c).after 10 t = (outsAt0 m c t.val t.isLt).2.2.2.2.2.1 := by dsimp only [dats]
theorem after0_11 (c : Dev nD) (t : Fin cfg0.N) : (dats m 0 c).after 11 t = (outsAt0 m c t.val t.isLt).2.2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At an accumulating point output 5's buffer holds what the body left at the point before: the point is not the
    first, the block was not written back in between (write-backs follow points ≡ 3 mod 4 only), the window is never idle
    and its blocks are whole. -/
theorem before0_5_B (c : Dev nD) (t : Fin cfg0.N) (h0 : ¬t.val % 4 = 0) (d) :
    (dats m 0 c).before 5 t d = (outsAt0 m c (t.val - 1) (Nat.lt_of_le_of_lt (Nat.sub_le _ _) t.isLt)).1 := by
  have hN : t.val < 8 := lt_of_lt_of_eq t.isLt (show cfg0.N = 8 from N_0)
  rw [Dat.before_out_kept _ 5 rfl t (by omega) (Bool.eq_false_iff.mpr fun h => by have := (flush0_5 _).mp h; dsimp only at this; omega)
    (fun _ => rfl) (fun _ _ => rfl)]
  dsimp only [dats]

/-- At an accumulating point output 6's buffer holds what the body left at the point before: the point is not the
    first, the block was not written back in between (write-backs follow points ≡ 3 mod 4 only), the window is never idle
    and its blocks are whole. -/
theorem before0_6_B (c : Dev nD) (t : Fin cfg0.N) (h0 : ¬t.val % 4 = 0) (d) :
    (dats m 0 c).before 6 t d = (outsAt0 m c (t.val - 1) (Nat.lt_of_le_of_lt (Nat.sub_le _ _) t.isLt)).2.1 := by
  have hN : t.val < 8 := lt_of_lt_of_eq t.isLt (show cfg0.N = 8 from N_0)
  rw [Dat.before_out_kept _ 6 rfl t (by omega) (Bool.eq_false_iff.mpr fun h => by have := (flush0_6 _).mp h; dsimp only at this; omega)
    (fun _ => rfl) (fun _ _ => rfl)]
  dsimp only [dats]

/-- At an accumulating point output 7's buffer holds what the body left at the point before: the point is not the
    first, the block was not written back in between (write-backs follow points ≡ 3 mod 4 only), the window is never idle
    and its blocks are whole. -/
theorem before0_7_B (c : Dev nD) (t : Fin cfg0.N) (h0 : ¬t.val % 4 = 0) (d) :
    (dats m 0 c).before 7 t d = (outsAt0 m c (t.val - 1) (Nat.lt_of_le_of_lt (Nat.sub_le _ _) t.isLt)).2.2.1 := by
  have hN : t.val < 8 := lt_of_lt_of_eq t.isLt (show cfg0.N = 8 from N_0)
  rw [Dat.before_out_kept _ 7 rfl t (by omega) (Bool.eq_false_iff.mpr fun h => by have := (flush0_7 _).mp h; dsimp only at this; omega)
    (fun _ => rfl) (fun _ _ => rfl)]
  dsimp only [dats]

/-- At an accumulating point output 8's buffer holds what the body left at the point before: the point is not the
    first, the block was not written back in between (write-backs follow points ≡ 3 mod 4 only), the window is never idle
    and its blocks are whole. -/
theorem before0_8_B (c : Dev nD) (t : Fin cfg0.N) (h0 : ¬t.val % 4 = 0) (d) :
    (dats m 0 c).before 8 t d = (outsAt0 m c (t.val - 1) (Nat.lt_of_le_of_lt (Nat.sub_le _ _) t.isLt)).2.2.2.1 := by
  have hN : t.val < 8 := lt_of_lt_of_eq t.isLt (show cfg0.N = 8 from N_0)
  rw [Dat.before_out_kept _ 8 rfl t (by omega) (Bool.eq_false_iff.mpr fun h => by have := (flush0_8 _).mp h; dsimp only at this; omega)
    (fun _ => rfl) (fun _ _ => rfl)]
  dsimp only [dats]

/-- At an accumulating point output 9's buffer holds what the body left at the point before: the point is not the
    first, the block was not written back in between (write-backs follow points ≡ 3 mod 4 only), the window is never idle
    and its blocks are whole. -/
theorem before0_9_B (c : Dev nD) (t : Fin cfg0.N) (h0 : ¬t.val % 4 = 0) (d) :
    (dats m 0 c).before 9 t d = (outsAt0 m c (t.val - 1) (Nat.lt_of_le_of_lt (Nat.sub_le _ _) t.isLt)).2.2.2.2.1 := by
  have hN : t.val < 8 := lt_of_lt_of_eq t.isLt (show cfg0.N = 8 from N_0)
  rw [Dat.before_out_kept _ 9 rfl t (by omega) (Bool.eq_false_iff.mpr fun h => by have := (flush0_9 _).mp h; dsimp only at this; omega)
    (fun _ => rfl) (fun _ _ => rfl)]
  dsimp only [dats]

/-- At an accumulating point output 10's buffer holds what the body left at the point before: the point is not the
    first, the block was not written back in between (write-backs follow points ≡ 3 mod 4 only), the window is never idle
    and its blocks are whole. -/
theorem before0_10_B (c : Dev nD) (t : Fin cfg0.N) (h0 : ¬t.val % 4 = 0) (d) :
    (dats m 0 c).before 10 t d = (outsAt0 m c (t.val - 1) (Nat.lt_of_le_of_lt (Nat.sub_le _ _) t.isLt)).2.2.2.2.2.1 := by
  have hN : t.val < 8 := lt_of_lt_of_eq t.isLt (show cfg0.N = 8 from N_0)
  rw [Dat.before_out_kept _ 10 rfl t (by omega) (Bool.eq_false_iff.mpr fun h => by have := (flush0_10 _).mp h; dsimp only at this; omega)
    (fun _ => rfl) (fun _ _ => rfl)]
  dsimp only [dats]

/-- At an accumulating point output 11's buffer holds what the body left at the point before: the point is not the
    first, the block was not written back in between (write-backs follow points ≡ 3 mod 4 only), the window is never idle
    and its blocks are whole. -/
theorem before0_11_B (c : Dev nD) (t : Fin cfg0.N) (h0 : ¬t.val % 4 = 0) (d) :
    (dats m 0 c).before 11 t d = (outsAt0 m c (t.val - 1) (Nat.lt_of_le_of_lt (Nat.sub_le _ _) t.isLt)).2.2.2.2.2.2 := by
  have hN : t.val < 8 := lt_of_lt_of_eq t.isLt (show cfg0.N = 8 from N_0)
  rw [Dat.before_out_kept _ 11 rfl t (by omega) (Bool.eq_false_iff.mpr fun h => by have := (flush0_11 _).mp h; dsimp only at this; omega)
    (fun _ => rfl) (fun _ _ => rfl)]
  dsimp only [dats]

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 8000000 in
/-- The body at any point: the inputs' buffers hold their blocks; the closed form of the branch condition says which
    case the point is in; at an accumulating point the outputs' buffers hold what the point before left; so that case's
    run applies, and what it leaves is this point's component of the accumulation. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  have hN : t.val < 8 := lt_of_lt_of_eq t.isLt (show cfg0.N = 8 from N_0)
  by_cases h0 : t.val % 4 = 0
  · rw [outsAt0_A m c t h0]
    unfold out0_A_5 out0_A_6 out0_A_7 out0_A_8 out0_A_9 out0_A_10 out0_A_11; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t)).2.2.2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iintro ⟨H0, H1, H2, H3, H4, ⟨%e5, H5⟩, ⟨%e6, H6⟩, ⟨%e7, H7⟩, ⟨%e8, H8⟩, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _ _ _ _ _ _ )
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _ )
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _ )
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ )
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ )
    isplitl [H10]
    · unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ )
    unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ )
  · rw [outsAt0_B m c t h0]
    simp only [before0_5_B m c t h0, before0_6_B m c t h0, before0_7_B m c t h0, before0_8_B m c t h0, before0_9_B m c t h0, before0_10_B m c t h0, before0_11_B m c t h0]
    unfold out0_B_5 out0_B_6 out0_B_7 out0_B_8 out0_B_9 out0_B_10 out0_B_11; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _ _ _ _ _ _ _ ).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H0, H1, H2, H3, H4, ⟨%e5, H5⟩, ⟨%e6, H6⟩, ⟨%e7, H7⟩, ⟨%e8, H8⟩, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _ _ _ _ _ _ _ _ _ _ _ _ )
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _ _ _ _ _ _ _ _ )
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _ _ _ _ _ _ _ )
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _ _ _ )
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _ _ )
    isplitl [H10]
    · unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ )
    unfold owns; iexists _; isplitr
    swap; · iexact H11
    ipureintro; exact View.read_writes_of_cover _ _ _ _ _ (cover0_B_11 c _ _ _ _ _ _ _ _ _ _ _ _ _ _ _ _ _ _ _ _ _ _ _ _ _ _ _ _ _ _ _ _ _ _ _ _ _ _ )

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 40000000 in
set_option backward.isDefEq.respectTransparency.types false in
/-- Every weakly fair execution of @main terminates, and in every final state each array of the pipeline holds what the
    library computes from the proof data and every other unscoped buffer what the later host lines leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

set_option maxHeartbeats 40000000 in
/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Acc

end
-- ==== Proof.KernelIdeal.CaseVal.lean ====
/-
  What each control case of the kernel body leaves in each of the seven accumulators, as a payload of the point's input
  blocks: in the accumulating case the old contents plus this point's contribution; in the resetting case the same with
  the zero block in place of the old contents (the body stores zeros first and reads them back).
-/
import proofs.«134782_j77738908057903_2_alg».proof.Proof.KernelIdeal.Frame
import Idealize.ShloMosaic.Lib.Pipeline.Value
import Idealize.ShloMosaic.Lib.Tactic

set_option maxRecDepth 16384

noncomputable section

namespace Cert.KernelIdeal.CaseVal

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.Acc

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem out_B_5 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i) (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) :
    out0_B_5 c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11 = k0_pay13 x0 xo5 := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11)]
  unfold kernelRun0_B
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x32768) hz2, View.ld_unit_zero (S := S1x16x1) hz3, View.ld_unit_zero (S := S1x16x16) hz3]

theorem out_A_5 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i) (x0 : Vec F S16x32768 .f32) (x1 : Vec F S16x32768 .f32) (x2 : Vec F S16x32768 .f32) (x3 : Vec F S16x32768 .f32) (x4 : Vec F S16x32768 .f32) :
    out0_A_5 c i arg2 harg2 arg3 harg3 arg4 harg4 arg5 harg5 arg6 harg6 arg7 harg7 arg8 harg8 arg9 harg9 arg10 harg10 arg11 harg11 arg12 harg12 arg13 harg13 hc0 x0 x1 x2 x3 x4 = k0_pay13 x0 (k0_pay3 (F := F)) := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 arg12 harg12 arg13 harg13 hc0 x0 x1 x2 x3 x4)]
  unfold kernelRun0_A
  dsimp only
  sl_unfold_words
  rw [View.canon_cons_unit_zero (S := S1x16x1) hz3, View.readCov_unit_zero (S := S1x16x1) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x32768) hz2, View.ld_unit_zero (S := S1x16x1) hz3, View.ld_unit_zero (S := S1x16x16) hz3]

theorem out_B_6 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i) (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) :
    out0_B_6 c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11 = k0_pay14 x1 xo6 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11)]
  unfold kernelRun0_B
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x32768) hz2, View.ld_unit_zero (S := S1x16x1) hz3, View.ld_unit_zero (S := S1x16x16) hz3]

theorem out_A_6 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i) (x0 : Vec F S16x32768 .f32) (x1 : Vec F S16x32768 .f32) (x2 : Vec F S16x32768 .f32) (x3 : Vec F S16x32768 .f32) (x4 : Vec F S16x32768 .f32) :
    out0_A_6 c i arg2 harg2 arg3 harg3 arg4 harg4 arg5 harg5 arg6 harg6 arg7 harg7 arg8 harg8 arg9 harg9 arg10 harg10 arg11 harg11 arg12 harg12 arg13 harg13 hc0 x0 x1 x2 x3 x4 = k0_pay14 x1 (k0_pay4 (F := F)) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 hc0 x0 x1 x2 x3 x4)]
  unfold kernelRun0_A
  dsimp only
  sl_unfold_words
  rw [View.canon_cons_unit_zero (S := S1x16x1) hz3, View.readCov_unit_zero (S := S1x16x1) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x32768) hz2, View.ld_unit_zero (S := S1x16x1) hz3, View.ld_unit_zero (S := S1x16x16) hz3]

theorem out_B_7 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i) (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) :
    out0_B_7 c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11 = k0_pay16 (k0_pay15 x0 x1 xo7) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11)]
  unfold kernelRun0_B
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x32768) hz2, View.ld_unit_zero (S := S1x16x1) hz3, View.ld_unit_zero (S := S1x16x16) hz3]

theorem out_A_7 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i) (x0 : Vec F S16x32768 .f32) (x1 : Vec F S16x32768 .f32) (x2 : Vec F S16x32768 .f32) (x3 : Vec F S16x32768 .f32) (x4 : Vec F S16x32768 .f32) :
    out0_A_7 c i arg2 harg2 arg3 harg3 arg4 harg4 arg5 harg5 arg6 harg6 arg7 harg7 arg8 harg8 arg9 harg9 arg10 harg10 arg11 harg11 arg12 harg12 arg13 harg13 hc0 x0 x1 x2 x3 x4 = k0_pay16 (k0_pay15 x0 x1 (k0_pay5 (F := F))) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 hc0 x0 x1 x2 x3 x4)]
  unfold kernelRun0_A
  dsimp only
  sl_unfold_words
  rw [View.canon_cons_unit_zero (S := S1x16x1) hz3, View.readCov_unit_zero (S := S1x16x1) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x32768) hz2, View.ld_unit_zero (S := S1x16x1) hz3, View.ld_unit_zero (S := S1x16x16) hz3]

theorem out_B_8 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i) (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) :
    out0_B_8 c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11 = k0_pay20 x2 xo8 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11)]
  unfold kernelRun0_B
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x32768) hz2, View.ld_unit_zero (S := S1x16x1) hz3, View.ld_unit_zero (S := S1x16x16) hz3]

theorem out_A_8 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i) (x0 : Vec F S16x32768 .f32) (x1 : Vec F S16x32768 .f32) (x2 : Vec F S16x32768 .f32) (x3 : Vec F S16x32768 .f32) (x4 : Vec F S16x32768 .f32) :
    out0_A_8 c i arg2 harg2 arg3 harg3 arg4 harg4 arg5 harg5 arg6 harg6 arg7 harg7 arg8 harg8 arg9 harg9 arg10 harg10 arg11 harg11 arg12 harg12 arg13 harg13 hc0 x0 x1 x2 x3 x4 = k0_pay20 x2 (k0_pay6 (F := F)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 hc0 x0 x1 x2 x3 x4)]
  unfold kernelRun0_A
  dsimp only
  sl_unfold_words
  rw [View.canon_cons_unit_zero (S := S1x16x1) hz3, View.readCov_unit_zero (S := S1x16x1) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x32768) hz2, View.ld_unit_zero (S := S1x16x1) hz3, View.ld_unit_zero (S := S1x16x16) hz3]

theorem out_B_9 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i) (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11 = k0_pay1 (k0_pay18 x3) xo9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11)]
  unfold kernelRun0_B
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x32768) hz2, View.ld_unit_zero (S := S1x16x1) hz3, View.ld_unit_zero (S := S1x16x16) hz3]

theorem out_A_9 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i) (x0 : Vec F S16x32768 .f32) (x1 : Vec F S16x32768 .f32) (x2 : Vec F S16x32768 .f32) (x3 : Vec F S16x32768 .f32) (x4 : Vec F S16x32768 .f32) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 = k0_pay1 (k0_pay18 x3) (k0_pay7 (F := F)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4)]
  unfold kernelRun0_A
  dsimp only
  sl_unfold_words
  rw [View.canon_cons_unit_zero (S := S1x16x1) hz3, View.readCov_unit_zero (S := S1x16x1) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x32768) hz2, View.ld_unit_zero (S := S1x16x1) hz3, View.ld_unit_zero (S := S1x16x16) hz3]

theorem out_B_10 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i) (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) :
    out0_B_10 c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11 = k0_pay19 x2 x3 x4 xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11)]
  unfold kernelRun0_B
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x32768) hz2, View.ld_unit_zero (S := S1x16x1) hz3, View.ld_unit_zero (S := S1x16x16) hz3]

theorem out_A_10 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i) (x0 : Vec F S16x32768 .f32) (x1 : Vec F S16x32768 .f32) (x2 : Vec F S16x32768 .f32) (x3 : Vec F S16x32768 .f32) (x4 : Vec F S16x32768 .f32) :
    out0_A_10 c i arg2 harg2 arg3 harg3 arg4 harg4 arg5 harg5 arg6 harg6 arg7 harg7 arg8 harg8 arg9 harg9 arg10 harg10 arg11 harg11 arg12 harg12 arg13 harg13 hc0 x0 x1 x2 x3 x4 = k0_pay19 x2 x3 x4 (k0_pay8 (F := F)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 x0 x1 x2 x3 x4)]
  unfold kernelRun0_A
  dsimp only
  sl_unfold_words
  rw [View.canon_cons_unit_zero (S := S1x16x1) hz3, View.readCov_unit_zero (S := S1x16x1) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x32768) hz2, View.ld_unit_zero (S := S1x16x1) hz3, View.ld_unit_zero (S := S1x16x16) hz3]

theorem out_B_11 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : ¬cond0_0 i) (x0 : Vec F S16x32768 .f32) (x1 : Vec F S16x32768 .f32) (x2 : Vec F S16x32768 .f32) (x3 : Vec F S16x32768 .f32) (x4 : Vec F S16x32768 .f32) (xo5 : Vec F S1x16x1 .f32) (xo6 : Vec F S1x16x1 .f32) (xo7 : Vec F S1x16x1 .f32) (xo8 : Vec F S1x16x1 .f32) (xo9 : Vec F S1x16x1 .f32) (xo10 : Vec F S1x16x1 .f32) (xo11 : Vec F S1x16x16 .f32) :
    out0_B_11 c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11 = k0_pay2 (k0_pay17 x2) (k0_pay18 x3) xo11 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 hc0 x0 x1 x2 x3 x4 xo5 xo6 xo7 xo8 xo9 xo10 xo11)]
  unfold kernelRun0_B
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x32768) hz2, View.ld_unit_zero (S := S1x16x1) hz3, View.ld_unit_zero (S := S1x16x16) hz3]

theorem out_A_11 (c : Dev nD) (i : grid0.Coords) (arg2 : Memref sig .tc .vmem S16x32768 .f32) (harg2 : arg2.IsWhole) (arg3 : Memref sig .tc .vmem S16x32768 .f32) (harg3 : arg3.IsWhole) (arg4 : Memref sig .tc .vmem S16x32768 .f32) (harg4 : arg4.IsWhole) (arg5 : Memref sig .tc .vmem S16x32768 .f32) (harg5 : arg5.IsWhole) (arg6 : Memref sig .tc .vmem S16x32768 .f32) (harg6 : arg6.IsWhole) (arg7 : Memref sig .tc .vmem S1x16x1 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x1 .f32) (harg10 : arg10.IsWhole) (arg11 : Memref sig .tc .vmem S1x16x1 .f32) (harg11 : arg11.IsWhole) (arg12 : Memref sig .tc .vmem S1x16x1 .f32) (harg12 : arg12.IsWhole) (arg13 : Memref sig .tc .vmem S1x16x16 .f32) (harg13 : arg13.IsWhole) (hc0 : cond0_0 i) (x0 : Vec F S16x32768 .f32) (x1 : Vec F S16x32768 .f32) (x2 : Vec F S16x32768 .f32) (x3 : Vec F S16x32768 .f32) (x4 : Vec F S16x32768 .f32) :
    out0_A_11 c i arg2 harg2 arg3 harg3 arg4 harg4 arg5 harg5 arg6 harg6 arg7 harg7 arg8 harg8 arg9 harg9 arg10 harg10 arg11 harg11 arg12 harg12 arg13 harg13 hc0 x0 x1 x2 x3 x4 = k0_pay2 (k0_pay17 x2) (k0_pay18 x3) (k0_pay10 (k0_pay9 (F := F))) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 hc0 x0 x1 x2 x3 x4)]
  unfold kernelRun0_A
  dsimp only
  sl_unfold_words
  rw [View.canon_cons_unit_zero (S := S1x16x16) hz3, View.readCov_unit_zero (S := S1x16x16) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x32768) hz2, View.ld_unit_zero (S := S1x16x1) hz3, View.ld_unit_zero (S := S1x16x16) hz3]

end Cert.KernelIdeal.CaseVal

end
-- ==== Proof.LossSpec.lean ====
/-
  The seven reduced quantities of the loss, as plain sums on the extended reals.

  Each of the five inputs is read as a matrix with 16 rows (the images) and 262144 columns (the pixels of an image in
  row-major order).  With s the logistic function 1 / (1 + e^(-x)):
    * over all entries: the sum of s(pred), the sum of gt, and the sum of s(pred) * gt (the three sums of the dice term);
    * per row: the sum of s(in1)^2, the sum of s(in2)^2, and the sum of (mask * (s(in1) - s(in2)))^2;
    * per pair of rows (b1, b2): the sum over the columns of s(in1)[b1, n] * s(in2)[b2, n] (the Gram matrix).
  Addition on the extended reals is commutative and associative, so such a sum may be regrouped freely: over the two
  halves of the columns, over eight tiles of 32768 columns, or over all 16 * 262144 entries at once.
-/
import Idealize.ShloMosaic.PureOps.Ideal
import Mathlib.Algebra.BigOperators.Fin
import Mathlib.Algebra.BigOperators.Group.Finset.Basic

noncomputable section

namespace Cert.LossSpec

open Idealize.ShloMosaic

/-- The logistic function on the extended reals. -/
def sg (x : EReal) : EReal := Ideal.logistic x

/-- The shape of an argument: 16 images of one channel of 512 × 512 pixels. -/
abbrev SArg : Shape := ⟨4, ![16, 1, 512, 512]⟩

/-- Pixel `n` of image `b` as an index of an argument: row `n / 512`, column `n % 512` of the one channel. -/
def unflat (b : Fin 16) (n : Fin 262144) : SArg.Idx := fun a => match a with
  | ⟨0, _⟩ => ⟨b.val, b.isLt⟩
  | ⟨1, _⟩ => ⟨0, Nat.one_pos⟩
  | ⟨2, _⟩ => ⟨n.val / 512, by have := n.isLt; show n.val / 512 < 512; omega⟩
  | ⟨3, _⟩ => ⟨n.val % 512, by show n.val % 512 < 512; omega⟩

/-- An argument read as a matrix of 16 rows (images) and 262144 columns (pixels, row-major). -/
def rows (x : SArg.Idx → EReal) (b : Fin 16) (n : Fin 262144) : EReal := x (unflat b n)

variable (A0 A1 A2 A3 A4 : Fin 16 → Fin 262144 → EReal)

/-- The sum of s(pred) over all entries. -/
def pSum : EReal := ∑ b : Fin 16, ∑ n : Fin 262144, sg (A0 b n)
/-- The sum of gt over all entries. -/
def gSum : EReal := ∑ b : Fin 16, ∑ n : Fin 262144, A1 b n
/-- The sum of s(pred) * gt over all entries. -/
def pgSum : EReal := ∑ b : Fin 16, ∑ n : Fin 262144, sg (A0 b n) * A1 b n
/-- Per image, the sum of s(in1)^2. -/
def s1sq (b : Fin 16) : EReal := ∑ n : Fin 262144, sg (A2 b n) * sg (A2 b n)
/-- Per image, the sum of s(in2)^2. -/
def s2sq (b : Fin 16) : EReal := ∑ n : Fin 262144, sg (A3 b n) * sg (A3 b n)
/-- Per image, the sum of (mask * (s(in1) - s(in2)))^2. -/
def mdsq (b : Fin 16) : EReal :=
  ∑ n : Fin 262144, (A4 b n * (sg (A2 b n) - sg (A3 b n))) * (A4 b n * (sg (A2 b n) - sg (A3 b n)))
/-- The Gram matrix of s(in1) against s(in2). -/
def cross (b1 b2 : Fin 16) : EReal := ∑ n : Fin 262144, sg (A2 b1 n) * sg (A3 b2 n)

/-! ## Regrouping a sum over the columns into tiles -/

/-- Column `n` is column `j` of tile `k` when the columns are cut into `T` tiles of `L`. -/
def tileEquiv (T L : Nat) : Fin T × Fin L ≃ Fin (T * L) := finProdFinEquiv

theorem tileEquiv_val (T L : Nat) (k : Fin T) (j : Fin L) : ((tileEquiv T L) (k, j)).val = j.val + L * k.val := rfl

/-- A sum over `T * L` columns is the sum over the tiles of the sums within each tile. -/
theorem sum_tiles {M : Type} [AddCommMonoid M] (T L : Nat) (f : Fin (T * L) → M) :
    ∑ n : Fin (T * L), f n = ∑ k : Fin T, ∑ j : Fin L, f (tileEquiv T L (k, j)) := by
  rw [← (tileEquiv T L).sum_comp f, Fintype.sum_prod_type]

end Cert.LossSpec

end
-- ==== Proof.KernelIdeal.Pay.lean ====
/-
  What the kernel body stores at one grid point, read at an index, on the extended reals.

  A point's block of an input is a 16 × 32768 matrix (16 images, one tile of 32768 pixels).  Each of the six vector
  accumulators (a [1,16,1] block: one number per image) is stored as its old value plus the sum along the tile of
  a pointwise expression of the blocks, and the matrix accumulator (a [1,16,16] block) as its old value plus the product
  of the s(in1) block with the transposed s(in2) block.  A change of float format (the rounding to bf16 in front of
  the product) is the identity on the extended reals, the layout casts between [16], [16,1] and [1,16,1] and between
  [16,16] and [1,16,16] keep row-major position, and a lane sum into a zero accumulator is the plain sum.
-/
import proofs.«134782_j77738908057903_2_alg».proof.Proof.Gen.KernelIdeal.Skeleton
import proofs.«134782_j77738908057903_2_alg».proof.Proof.LossSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.LossSpec

/-- A vector of 16 cast to a 16 × 1 column reads the vector at the row. -/
theorem col_apply {α : Type} (v : S16.Idx → α) (h : S16.ShapeCasts S16x1) (b : Fin 16) (u : Fin 1) :
    shapeCast S16x1 v h (ix2 b u) = v (ix1 b) :=
  shapeCast_apply v h _ _ (by
    have hu : u.val = 0 := by omega
    rw [Shape.rowMajor_val_one, Shape.rowMajor_val_two]
    show b.val = b.val * 1 + u.val
    omega)

/-- The index the lane reduction visits: row `b`, lane `k`. -/
theorem lift_row (h : S16x32768.Reduces [1] S16) (b : Fin 16) (k : Fin (S16x32768.size 1)) :
    h.lift (ix1 b) k = ix2 b (⟨k.val, k.isLt⟩ : Fin 32768) := by
  funext c; apply Fin.ext
  fin_cases c <;> rfl

/-- A lane sum into a zero accumulator is the sum along the row. -/
theorem lane_sum (src : FVec Ideal S16x32768 .f32) (h : S16x32768.Reduces [1] S16) (hφ : FKind.Formats .f32)
    (hacc : (0x00000000#32 : BitVec 32) = FKind.add.neutral .f32 hφ) (b : Fin 16) :
    multiReduction .add [1] S16 src 0x00000000#32 h hφ hacc (ix1 b) = ∑ k : Fin 32768, src (ix2 b k) := by
  refine (Ideal.multiReduction_add_single src 0x00000000#32 h hφ hacc (ix1 b)).trans ?_
  show ∑ k : Fin 32768, src (h.lift (ix1 b) k) = _
  exact Finset.sum_congr rfl fun k _ => congrArg src (lift_row h b k)

/-- The pattern of the six vector accumulators: the old value plus the lane sum of `src`, through the layout casts. -/
theorem acc_lane (acc : Vec Ideal S1x16x1 .f32) (src : FVec Ideal S16x32768 .f32) (h : S16x32768.Reduces [1] S16) (hφ : FKind.Formats .f32)
    (hacc : (0x00000000#32 : BitVec 32) = FKind.add.neutral .f32 hφ) (h1 : S1x16x1.ShapeCasts S16x1) (h2 : S16.ShapeCasts S16x1)
    (h3 : S16x1.ShapeCasts S1x16x1) (b : Fin 16) :
    shapeCast S1x16x1 (addf (shapeCast S16x1 acc h1) (shapeCast S16x1 (multiReduction .add [1] S16 src 0x00000000#32 h hφ hacc) h2)) h3
        (ix3 (0 : Fin 1) b (0 : Fin 1))
      = acc (ix3 (0 : Fin 1) b (0 : Fin 1)) + ∑ k : Fin 32768, src (ix2 b k) := by
  refine (shapeCast_ab_1ab_apply _ h3 (0 : Fin 1) b (0 : Fin 1)).trans ?_
  show shapeCast S16x1 acc h1 (ix2 b (0 : Fin 1)) + shapeCast S16x1 _ h2 (ix2 b (0 : Fin 1)) = _
  rw [shapeCast_1ab_ab_apply acc h1 b (0 : Fin 1), col_apply _ h2 b (0 : Fin 1), lane_sum src h hφ hacc b]

variable (x y z : Vec Ideal S16x32768 .f32) (acc : Vec Ideal S1x16x1 .f32) (b : Fin 16)

theorem pay11_apply (j : Fin 32768) : k0_pay11 (F := Ideal) x (ix2 b j) = sg (x (ix2 b j)) := by
  unfold k0_pay11; rw [shapeCast_self]; rfl

theorem pay12_eq : k0_pay12 (F := Ideal) y = y := by
  unfold k0_pay12; exact shapeCast_self _ _

theorem pay17_apply (j : Fin 32768) : k0_pay17 (F := Ideal) x (ix2 b j) = sg (x (ix2 b j)) := by
  unfold k0_pay17; rw [shapeCast_self]; rfl

theorem pay18_apply (j : Fin 32768) : k0_pay18 (F := Ideal) x (ix2 b j) = sg (x (ix2 b j)) := by
  unfold k0_pay18; rw [shapeCast_self]; rfl

/-- The accumulator of the sum of s(pred). -/
theorem pay13_apply : k0_pay13 (F := Ideal) x acc (ix3 (0 : Fin 1) b (0 : Fin 1))
    = acc (ix3 (0 : Fin 1) b (0 : Fin 1)) + ∑ k : Fin 32768, sg (x (ix2 b k)) := by
  unfold k0_pay13
  refine (acc_lane acc _ _ _ _ _ _ _ b).trans ?_
  exact congrArg (_ + ·) (Finset.sum_congr rfl fun k _ => pay11_apply x b k)

/-- The accumulator of the sum of gt. -/
theorem pay14_apply : k0_pay14 (F := Ideal) y acc (ix3 (0 : Fin 1) b (0 : Fin 1))
    = acc (ix3 (0 : Fin 1) b (0 : Fin 1)) + ∑ k : Fin 32768, y (ix2 b k) := by
  unfold k0_pay14
  refine (acc_lane acc _ _ _ _ _ _ _ b).trans ?_
  rw [pay12_eq]

/-- The accumulator of the sum of s(pred) * gt. -/
theorem pay16_apply : k0_pay16 (F := Ideal) (k0_pay15 (F := Ideal) x y acc) (ix3 (0 : Fin 1) b (0 : Fin 1))
    = acc (ix3 (0 : Fin 1) b (0 : Fin 1)) + ∑ k : Fin 32768, sg (x (ix2 b k)) * y (ix2 b k) := by
  unfold k0_pay16 k0_pay15
  refine (acc_lane acc _ _ _ _ _ _ _ b).trans ?_
  refine congrArg (_ + ·) (Finset.sum_congr rfl fun k _ => ?_)
  show k0_pay11 (F := Ideal) x (ix2 b k) * k0_pay12 (F := Ideal) y (ix2 b k) = _
  rw [pay11_apply, pay12_eq]

/-- The accumulator of the sum of s(in1)^2. -/
theorem pay20_apply : k0_pay20 (F := Ideal) x acc (ix3 (0 : Fin 1) b (0 : Fin 1))
    = acc (ix3 (0 : Fin 1) b (0 : Fin 1)) + ∑ k : Fin 32768, sg (x (ix2 b k)) * sg (x (ix2 b k)) := by
  unfold k0_pay20
  refine (acc_lane acc _ _ _ _ _ _ _ b).trans ?_
  refine congrArg (_ + ·) (Finset.sum_congr rfl fun k _ => ?_)
  show k0_pay17 (F := Ideal) x (ix2 b k) * k0_pay17 (F := Ideal) x (ix2 b k) = _
  rw [pay17_apply]

/-- The accumulator of the sum of s(in2)^2. -/
theorem pay1_apply : k0_pay1 (F := Ideal) (k0_pay18 (F := Ideal) y) acc (ix3 (0 : Fin 1) b (0 : Fin 1))
    = acc (ix3 (0 : Fin 1) b (0 : Fin 1)) + ∑ k : Fin 32768, sg (y (ix2 b k)) * sg (y (ix2 b k)) := by
  unfold k0_pay1
  refine (acc_lane acc _ _ _ _ _ _ _ b).trans ?_
  refine congrArg (_ + ·) (Finset.sum_congr rfl fun k _ => ?_)
  show k0_pay18 (F := Ideal) y (ix2 b k) * k0_pay18 (F := Ideal) y (ix2 b k) = _
  rw [pay18_apply]

/-- The accumulator of the sum of (mask * (s(in1) - s(in2)))^2. -/
theorem pay19_apply : k0_pay19 (F := Ideal) x y z acc (ix3 (0 : Fin 1) b (0 : Fin 1))
    = acc (ix3 (0 : Fin 1) b (0 : Fin 1))
      + ∑ k : Fin 32768, (z (ix2 b k) * (sg (x (ix2 b k)) - sg (y (ix2 b k)))) * (z (ix2 b k) * (sg (x (ix2 b k)) - sg (y (ix2 b k)))) := by
  unfold k0_pay19
  refine (acc_lane acc _ _ _ _ _ _ _ b).trans ?_
  refine congrArg (_ + ·) (Finset.sum_congr rfl fun k _ => ?_)
  show (shapeCast S16x32768 z _ (ix2 b k) * (k0_pay17 (F := Ideal) x (ix2 b k) - k0_pay18 (F := Ideal) y (ix2 b k)))
      * (shapeCast S16x32768 z _ (ix2 b k) * (k0_pay17 (F := Ideal) x (ix2 b k) - k0_pay18 (F := Ideal) y (ix2 b k))) = _
  rw [shapeCast_self, pay17_apply, pay18_apply]

/-! ## The matrix accumulator -/

theorem lhs_0 (i : S16x16.Idx) (q : dot_S16x32768_S16x32768_S16x16_1_1_0_0_n_n.contr.Idx) : (dot_S16x32768_S16x32768_S16x16_1_1_0_0_n_n.lhsIdx i q 0).val = (i 0).val := by
  unfold DotDims.lhsIdx
  rw [dif_neg (show ¬(0 : Fin S16x32768.rank) ∈ dot_S16x32768_S16x32768_S16x16_1_1_0_0_n_n.lhsBatch by decide), dif_pos (show (0 : Fin S16x32768.rank) ∈ dot_S16x32768_S16x32768_S16x16_1_1_0_0_n_n.lhsNonContracting by decide)]
  rfl
theorem lhs_1 (i : S16x16.Idx) (q : dot_S16x32768_S16x32768_S16x16_1_1_0_0_n_n.contr.Idx) : (dot_S16x32768_S16x32768_S16x16_1_1_0_0_n_n.lhsIdx i q 1).val = (q ⟨0, by decide⟩).val :=
  dot_S16x32768_S16x32768_S16x16_1_1_0_0_n_n.lhsIdx_val_of_single rfl i q
theorem rhs_0 (i : S16x16.Idx) (q : dot_S16x32768_S16x32768_S16x16_1_1_0_0_n_n.contr.Idx) : (dot_S16x32768_S16x32768_S16x16_1_1_0_0_n_n.rhsIdx i q 0).val = (i 1).val := by
  unfold DotDims.rhsIdx
  rw [dif_neg (show ¬(0 : Fin S16x32768.rank) ∈ dot_S16x32768_S16x32768_S16x16_1_1_0_0_n_n.rhsBatch by decide), dif_pos (show (0 : Fin S16x32768.rank) ∈ dot_S16x32768_S16x32768_S16x16_1_1_0_0_n_n.rhsNonContracting by decide)]
  rfl
theorem rhs_1 (i : S16x16.Idx) (q : dot_S16x32768_S16x32768_S16x16_1_1_0_0_n_n.contr.Idx) : (dot_S16x32768_S16x32768_S16x16_1_1_0_0_n_n.rhsIdx i q 1).val = (q ⟨0, by decide⟩).val :=
  dot_S16x32768_S16x32768_S16x16_1_1_0_0_n_n.rhsIdx_val_of_single rfl i q

/-- The product of a 16 × 32768 block with the transpose of another, into a zero accumulator: entry (b1, b2) is the sum
    along the tile of the products of row b1 of the first with row b2 of the second. -/
theorem gram_apply (l r : FVec Ideal S16x32768 .bf16) (b1 b2 : Fin 16) :
    FloatOps.matmul dot_S16x32768_S16x32768_S16x16_1_1_0_0_n_n none l r (constant S16x16 .f32 0x00000000#32) (ix2 b1 b2)
      = ∑ k : Fin 32768, l (ix2 b1 k) * r (ix2 b2 k) := by
  rw [Ideal.matmul_constant_zero_apply, ← Equiv.sum_comp (ValueIdx.contrEquiv1 dot_S16x32768_S16x32768_S16x16_1_1_0_0_n_n 32768 rfl rfl).symm]
  refine Finset.sum_congr rfl fun k _ => ?_
  have hk := ValueIdx.contrEquiv1_symm_val dot_S16x32768_S16x32768_S16x16_1_1_0_0_n_n 32768 rfl rfl k
  have el : dot_S16x32768_S16x32768_S16x16_1_1_0_0_n_n.lhsIdx (ix2 b1 b2) ((ValueIdx.contrEquiv1 dot_S16x32768_S16x32768_S16x16_1_1_0_0_n_n 32768 rfl rfl).symm k) = ix2 b1 k := funext fun a => Fin.ext (by
    match a with
    | ⟨0, _⟩ => exact lhs_0 _ _
    | ⟨1, _⟩ => exact (lhs_1 _ _).trans hk)
  have er : dot_S16x32768_S16x32768_S16x16_1_1_0_0_n_n.rhsIdx (ix2 b1 b2) ((ValueIdx.contrEquiv1 dot_S16x32768_S16x32768_S16x16_1_1_0_0_n_n 32768 rfl rfl).symm k) = ix2 b2 k := funext fun a => Fin.ext (by
    match a with
    | ⟨0, _⟩ => exact rhs_0 _ _
    | ⟨1, _⟩ => exact (rhs_1 _ _).trans hk)
  rw [el, er]

/-- The accumulator of the Gram matrix. -/
theorem pay2_apply (accM : Vec Ideal S1x16x16 .f32) (b1 b2 : Fin 16) :
    k0_pay2 (F := Ideal) (k0_pay17 (F := Ideal) x) (k0_pay18 (F := Ideal) y) accM (ix3 (0 : Fin 1) b1 b2)
      = accM (ix3 (0 : Fin 1) b1 b2) + ∑ k : Fin 32768, sg (x (ix2 b1 k)) * sg (y (ix2 b2 k)) := by
  unfold k0_pay2
  refine (shapeCast_ab_1ab_apply _ _ (0 : Fin 1) b1 b2).trans ?_
  refine (addf_apply _ _ _).trans ?_
  rw [shapeCast_1ab_ab_apply accM _ b1 b2]
  refine congrArg (_ + ·) ?_
  refine (gram_apply _ _ b1 b2).trans (Finset.sum_congr rfl fun k _ => ?_)
  show k0_pay17 (F := Ideal) x (ix2 b1 k) * k0_pay18 (F := Ideal) y (ix2 b2 k) = _
  rw [pay17_apply, pay18_apply]

/-! ## The zero blocks a resetting point stores first -/

theorem zero_f32 : (Scalar.ofBits (F := Ideal) .f32 0x00000000#32 : Ideal .f32) = 0 := Ideal.ofBits_zero_f32

theorem pay3_apply (b : Fin 16) : k0_pay3 (F := Ideal) (ix3 (0 : Fin 1) b (0 : Fin 1)) = 0 := by
  unfold k0_pay3; exact (shapeCast_ab_1ab_apply _ _ (0 : Fin 1) b (0 : Fin 1)).trans zero_f32
theorem pay4_apply (b : Fin 16) : k0_pay4 (F := Ideal) (ix3 (0 : Fin 1) b (0 : Fin 1)) = 0 := by
  unfold k0_pay4; exact (shapeCast_ab_1ab_apply _ _ (0 : Fin 1) b (0 : Fin 1)).trans zero_f32
theorem pay5_apply (b : Fin 16) : k0_pay5 (F := Ideal) (ix3 (0 : Fin 1) b (0 : Fin 1)) = 0 := by
  unfold k0_pay5; exact (shapeCast_ab_1ab_apply _ _ (0 : Fin 1) b (0 : Fin 1)).trans zero_f32
theorem pay6_apply (b : Fin 16) : k0_pay6 (F := Ideal) (ix3 (0 : Fin 1) b (0 : Fin 1)) = 0 := by
  unfold k0_pay6; exact (shapeCast_ab_1ab_apply _ _ (0 : Fin 1) b (0 : Fin 1)).trans zero_f32
theorem pay7_apply (b : Fin 16) : k0_pay7 (F := Ideal) (ix3 (0 : Fin 1) b (0 : Fin 1)) = 0 := by
  unfold k0_pay7; exact (shapeCast_ab_1ab_apply _ _ (0 : Fin 1) b (0 : Fin 1)).trans zero_f32
theorem pay8_apply (b : Fin 16) : k0_pay8 (F := Ideal) (ix3 (0 : Fin 1) b (0 : Fin 1)) = 0 := by
  unfold k0_pay8; exact (shapeCast_ab_1ab_apply _ _ (0 : Fin 1) b (0 : Fin 1)).trans zero_f32
theorem pay10_apply (b1 b2 : Fin 16) : k0_pay10 (F := Ideal) (k0_pay9 (F := Ideal)) (ix3 (0 : Fin 1) b1 b2) = 0 := by
  unfold k0_pay10 k0_pay9; exact (shapeCast_ab_1ab_apply _ _ (0 : Fin 1) b1 b2).trans zero_f32

end Cert.KernelIdeal.Pay

end
-- ==== Proof.KernelIdeal.AccVal.lean ====
/-
  The accumulators, point by point.  At grid position n (core n / 4, tile n) each vector accumulator holds, for image b,
  the running sum of the contributions of the points of its core so far, each contribution a sum along the point's tile of
  32768 pixels; the matrix accumulator likewise for each pair of images.  The running sum restarts from zero at the
  positions divisible by 4: `accv`.  By induction on the position, through what each control case leaves (a payload of
  the blocks) and the payloads read at an index.
-/
import proofs.«134782_j77738908057903_2_alg».proof.Proof.KernelIdeal.CaseVal
import proofs.«134782_j77738908057903_2_alg».proof.Proof.KernelIdeal.Pay

set_option maxRecDepth 16384

noncomputable section

namespace Cert.KernelIdeal.AccVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Acc Cert.KernelIdeal.CaseVal Cert.KernelIdeal.Pay Cert.LossSpec

variable (m : (ℓ : Loc nD τ sig) → Buf (Elt Ideal) ℓ) (c : Dev nD)

/-- A running sum that restarts from zero at the positions divisible by 4 (a core's first point). -/
def accv (f : (n : ℕ) → n < cfg0.N → EReal) : (n : ℕ) → n < cfg0.N → EReal
  | 0, h => 0 + f 0 h
  | n + 1, h => if (n + 1) % 4 = 0 then 0 + f (n + 1) h else accv f n (Nat.lt_of_succ_lt h) + f (n + 1) h

theorem accv_reset (f : (n : ℕ) → n < cfg0.N → EReal) (n : ℕ) (h : n < cfg0.N) (h0 : n % 4 = 0) : accv f n h = 0 + f n h := by
  cases n with
  | zero => rfl
  | succ n => rw [accv, if_pos h0]

theorem accv_step (f : (n : ℕ) → n < cfg0.N → EReal) (n : ℕ) (h : n + 1 < cfg0.N) (h0 : ¬(n + 1) % 4 = 0) :
    accv f (n + 1) h = accv f n (Nat.lt_of_succ_lt h) + f (n + 1) h := by
  rw [accv, if_neg h0]

/-- Point n's contribution to accumulator 5, for image b. -/
def ctr5 (n : ℕ) (h : n < cfg0.N) (b : Fin 16) : EReal := ∑ j : Fin 32768, sg ((iblk m c 0 ⟨n, h⟩ : S16x32768.Idx → EReal) (ix2 b j))

theorem acc5 : ∀ (n : ℕ) (h : n < cfg0.N) (b : Fin 16),
    ((outsAt0 m c n h).1 : Vec Ideal S1x16x1 .f32) (ix3 (0 : Fin 1) b (0 : Fin 1)) = accv (fun n h => ctr5 m c n h b) n h
  | 0, h, b => by
    have e1 : (outsAt0 m c 0 h).1 = k0_pay13 (iblk m c 0 ⟨0, h⟩ : Vec Ideal S16x32768 .f32) (k0_pay3 (F := Ideal)) := by
      have e := congrArg (fun p => p.1) (outsAt0_A m c ⟨0, h⟩ rfl)
      dsimp only at e
      exact e.trans (out_A_5 (F := Ideal) ..)
    rw [e1]
    refine (pay13_apply (iblk m c 0 ⟨0, h⟩ : Vec Ideal S16x32768 .f32) (k0_pay3 (F := Ideal)) b).trans ?_
    rw [pay3_apply b]; rfl
  | n + 1, h, b => by
    by_cases h0 : (n + 1) % 4 = 0
    · have e1 : (outsAt0 m c (n + 1) h).1 = k0_pay13 (iblk m c 0 ⟨n + 1, h⟩ : Vec Ideal S16x32768 .f32) (k0_pay3 (F := Ideal)) := by
        have e := congrArg (fun p => p.1) (outsAt0_A m c ⟨n + 1, h⟩ h0)
        dsimp only at e
        exact e.trans (out_A_5 (F := Ideal) ..)
      rw [e1, accv_reset _ _ _ h0]
      refine (pay13_apply (iblk m c 0 ⟨n + 1, h⟩ : Vec Ideal S16x32768 .f32) (k0_pay3 (F := Ideal)) b).trans ?_
      rw [pay3_apply b]; rfl
    · have e1 : (outsAt0 m c (n + 1) h).1 = k0_pay13 (iblk m c 0 ⟨n + 1, h⟩ : Vec Ideal S16x32768 .f32) ((outsAt0 m c n (Nat.lt_of_succ_lt h)).1) := by
        have e := congrArg (fun p => p.1) (outsAt0_B m c ⟨n + 1, h⟩ h0)
        dsimp only at e
        exact e.trans (out_B_5 (F := Ideal) ..)
      rw [e1, accv_step _ _ _ h0]
      refine (pay13_apply (iblk m c 0 ⟨n + 1, h⟩ : Vec Ideal S16x32768 .f32) ((outsAt0 m c n (Nat.lt_of_succ_lt h)).1) b).trans ?_
      rw [acc5 n _ b]; rfl

/-- Point n's contribution to accumulator 6, for image b. -/
def ctr6 (n : ℕ) (h : n < cfg0.N) (b : Fin 16) : EReal := ∑ j : Fin 32768, (iblk m c 1 ⟨n, h⟩ : S16x32768.Idx → EReal) (ix2 b j)

theorem acc6 : ∀ (n : ℕ) (h : n < cfg0.N) (b : Fin 16),
    ((outsAt0 m c n h).2.1 : Vec Ideal S1x16x1 .f32) (ix3 (0 : Fin 1) b (0 : Fin 1)) = accv (fun n h => ctr6 m c n h b) n h
  | 0, h, b => by
    have e1 : (outsAt0 m c 0 h).2.1 = k0_pay14 (iblk m c 1 ⟨0, h⟩ : Vec Ideal S16x32768 .f32) (k0_pay4 (F := Ideal)) := by
      have e := congrArg (fun p => p.2.1) (outsAt0_A m c ⟨0, h⟩ rfl)
      dsimp only at e
      exact e.trans (out_A_6 (F := Ideal) ..)
    rw [e1]
    refine (pay14_apply (iblk m c 1 ⟨0, h⟩ : Vec Ideal S16x32768 .f32) (k0_pay4 (F := Ideal)) b).trans ?_
    rw [pay4_apply b]; rfl
  | n + 1, h, b => by
    by_cases h0 : (n + 1) % 4 = 0
    · have e1 : (outsAt0 m c (n + 1) h).2.1 = k0_pay14 (iblk m c 1 ⟨n + 1, h⟩ : Vec Ideal S16x32768 .f32) (k0_pay4 (F := Ideal)) := by
        have e := congrArg (fun p => p.2.1) (outsAt0_A m c ⟨n + 1, h⟩ h0)
        dsimp only at e
        exact e.trans (out_A_6 (F := Ideal) ..)
      rw [e1, accv_reset _ _ _ h0]
      refine (pay14_apply (iblk m c 1 ⟨n + 1, h⟩ : Vec Ideal S16x32768 .f32) (k0_pay4 (F := Ideal)) b).trans ?_
      rw [pay4_apply b]; rfl
    · have e1 : (outsAt0 m c (n + 1) h).2.1 = k0_pay14 (iblk m c 1 ⟨n + 1, h⟩ : Vec Ideal S16x32768 .f32) ((outsAt0 m c n (Nat.lt_of_succ_lt h)).2.1) := by
        have e := congrArg (fun p => p.2.1) (outsAt0_B m c ⟨n + 1, h⟩ h0)
        dsimp only at e
        exact e.trans (out_B_6 (F := Ideal) ..)
      rw [e1, accv_step _ _ _ h0]
      refine (pay14_apply (iblk m c 1 ⟨n + 1, h⟩ : Vec Ideal S16x32768 .f32) ((outsAt0 m c n (Nat.lt_of_succ_lt h)).2.1) b).trans ?_
      rw [acc6 n _ b]; rfl

/-- Point n's contribution to accumulator 7, for image b. -/
def ctr7 (n : ℕ) (h : n < cfg0.N) (b : Fin 16) : EReal := ∑ j : Fin 32768, sg ((iblk m c 0 ⟨n, h⟩ : S16x32768.Idx → EReal) (ix2 b j)) * (iblk m c 1 ⟨n, h⟩ : S16x32768.Idx → EReal) (ix2 b j)

theorem acc7 : ∀ (n : ℕ) (h : n < cfg0.N) (b : Fin 16),
    ((outsAt0 m c n h).2.2.1 : Vec Ideal S1x16x1 .f32) (ix3 (0 : Fin 1) b (0 : Fin 1)) = accv (fun n h => ctr7 m c n h b) n h
  | 0, h, b => by
    have e1 : (outsAt0 m c 0 h).2.2.1 = k0_pay16 (k0_pay15 (iblk m c 0 ⟨0, h⟩ : Vec Ideal S16x32768 .f32) (iblk m c 1 ⟨0, h⟩ : Vec Ideal S16x32768 .f32) (k0_pay5 (F := Ideal))) := by
      have e := congrArg (fun p => p.2.2.1) (outsAt0_A m c ⟨0, h⟩ rfl)
      dsimp only at e
      exact e.trans (out_A_7 (F := Ideal) ..)
    rw [e1]
    refine (pay16_apply (iblk m c 0 ⟨0, h⟩ : Vec Ideal S16x32768 .f32) (iblk m c 1 ⟨0, h⟩ : Vec Ideal S16x32768 .f32) (k0_pay5 (F := Ideal)) b).trans ?_
    rw [pay5_apply b]; rfl
  | n + 1, h, b => by
    by_cases h0 : (n + 1) % 4 = 0
    · have e1 : (outsAt0 m c (n + 1) h).2.2.1 = k0_pay16 (k0_pay15 (iblk m c 0 ⟨n + 1, h⟩ : Vec Ideal S16x32768 .f32) (iblk m c 1 ⟨n + 1, h⟩ : Vec Ideal S16x32768 .f32) (k0_pay5 (F := Ideal))) := by
        have e := congrArg (fun p => p.2.2.1) (outsAt0_A m c ⟨n + 1, h⟩ h0)
        dsimp only at e
        exact e.trans (out_A_7 (F := Ideal) ..)
      rw [e1, accv_reset _ _ _ h0]
      refine (pay16_apply (iblk m c 0 ⟨n + 1, h⟩ : Vec Ideal S16x32768 .f32) (iblk m c 1 ⟨n + 1, h⟩ : Vec Ideal S16x32768 .f32) (k0_pay5 (F := Ideal)) b).trans ?_
      rw [pay5_apply b]; rfl
    · have e1 : (outsAt0 m c (n + 1) h).2.2.1 = k0_pay16 (k0_pay15 (iblk m c 0 ⟨n + 1, h⟩ : Vec Ideal S16x32768 .f32) (iblk m c 1 ⟨n + 1, h⟩ : Vec Ideal S16x32768 .f32) ((outsAt0 m c n (Nat.lt_of_succ_lt h)).2.2.1)) := by
        have e := congrArg (fun p => p.2.2.1) (outsAt0_B m c ⟨n + 1, h⟩ h0)
        dsimp only at e
        exact e.trans (out_B_7 (F := Ideal) ..)
      rw [e1, accv_step _ _ _ h0]
      refine (pay16_apply (iblk m c 0 ⟨n + 1, h⟩ : Vec Ideal S16x32768 .f32) (iblk m c 1 ⟨n + 1, h⟩ : Vec Ideal S16x32768 .f32) ((outsAt0 m c n (Nat.lt_of_succ_lt h)).2.2.1) b).trans ?_
      rw [acc7 n _ b]; rfl

/-- Point n's contribution to accumulator 8, for image b. -/
def ctr8 (n : ℕ) (h : n < cfg0.N) (b : Fin 16) : EReal := ∑ j : Fin 32768, sg ((iblk m c 2 ⟨n, h⟩ : S16x32768.Idx → EReal) (ix2 b j)) * sg ((iblk m c 2 ⟨n, h⟩ : S16x32768.Idx → EReal) (ix2 b j))

theorem acc8 : ∀ (n : ℕ) (h : n < cfg0.N) (b : Fin 16),
    ((outsAt0 m c n h).2.2.2.1 : Vec Ideal S1x16x1 .f32) (ix3 (0 : Fin 1) b (0 : Fin 1)) = accv (fun n h => ctr8 m c n h b) n h
  | 0, h, b => by
    have e1 : (outsAt0 m c 0 h).2.2.2.1 = k0_pay20 (iblk m c 2 ⟨0, h⟩ : Vec Ideal S16x32768 .f32) (k0_pay6 (F := Ideal)) := by
      have e := congrArg (fun p => p.2.2.2.1) (outsAt0_A m c ⟨0, h⟩ rfl)
      dsimp only at e
      exact e.trans (out_A_8 (F := Ideal) ..)
    rw [e1]
    refine (pay20_apply (iblk m c 2 ⟨0, h⟩ : Vec Ideal S16x32768 .f32) (k0_pay6 (F := Ideal)) b).trans ?_
    rw [pay6_apply b]; rfl
  | n + 1, h, b => by
    by_cases h0 : (n + 1) % 4 = 0
    · have e1 : (outsAt0 m c (n + 1) h).2.2.2.1 = k0_pay20 (iblk m c 2 ⟨n + 1, h⟩ : Vec Ideal S16x32768 .f32) (k0_pay6 (F := Ideal)) := by
        have e := congrArg (fun p => p.2.2.2.1) (outsAt0_A m c ⟨n + 1, h⟩ h0)
        dsimp only at e
        exact e.trans (out_A_8 (F := Ideal) ..)
      rw [e1, accv_reset _ _ _ h0]
      refine (pay20_apply (iblk m c 2 ⟨n + 1, h⟩ : Vec Ideal S16x32768 .f32) (k0_pay6 (F := Ideal)) b).trans ?_
      rw [pay6_apply b]; rfl
    · have e1 : (outsAt0 m c (n + 1) h).2.2.2.1 = k0_pay20 (iblk m c 2 ⟨n + 1, h⟩ : Vec Ideal S16x32768 .f32) ((outsAt0 m c n (Nat.lt_of_succ_lt h)).2.2.2.1) := by
        have e := congrArg (fun p => p.2.2.2.1) (outsAt0_B m c ⟨n + 1, h⟩ h0)
        dsimp only at e
        exact e.trans (out_B_8 (F := Ideal) ..)
      rw [e1, accv_step _ _ _ h0]
      refine (pay20_apply (iblk m c 2 ⟨n + 1, h⟩ : Vec Ideal S16x32768 .f32) ((outsAt0 m c n (Nat.lt_of_succ_lt h)).2.2.2.1) b).trans ?_
      rw [acc8 n _ b]; rfl

/-- Point n's contribution to accumulator 9, for image b. -/
def ctr9 (n : ℕ) (h : n < cfg0.N) (b : Fin 16) : EReal := ∑ j : Fin 32768, sg ((iblk m c 3 ⟨n, h⟩ : S16x32768.Idx → EReal) (ix2 b j)) * sg ((iblk m c 3 ⟨n, h⟩ : S16x32768.Idx → EReal) (ix2 b j))

theorem acc9 : ∀ (n : ℕ) (h : n < cfg0.N) (b : Fin 16),
    ((outsAt0 m c n h).2.2.2.2.1 : Vec Ideal S1x16x1 .f32) (ix3 (0 : Fin 1) b (0 : Fin 1)) = accv (fun n h => ctr9 m c n h b) n h
  | 0, h, b => by
    have e1 : (outsAt0 m c 0 h).2.2.2.2.1 = k0_pay1 (k0_pay18 (iblk m c 3 ⟨0, h⟩ : Vec Ideal S16x32768 .f32)) (k0_pay7 (F := Ideal)) := by
      have e := congrArg (fun p => p.2.2.2.2.1) (outsAt0_A m c ⟨0, h⟩ rfl)
      dsimp only at e
      exact e.trans (out_A_9 (F := Ideal) ..)
    rw [e1]
    refine (pay1_apply (iblk m c 3 ⟨0, h⟩ : Vec Ideal S16x32768 .f32) (k0_pay7 (F := Ideal)) b).trans ?_
    rw [pay7_apply b]; rfl
  | n + 1, h, b => by
    by_cases h0 : (n + 1) % 4 = 0
    · have e1 : (outsAt0 m c (n + 1) h).2.2.2.2.1 = k0_pay1 (k0_pay18 (iblk m c 3 ⟨n + 1, h⟩ : Vec Ideal S16x32768 .f32)) (k0_pay7 (F := Ideal)) := by
        have e := congrArg (fun p => p.2.2.2.2.1) (outsAt0_A m c ⟨n + 1, h⟩ h0)
        dsimp only at e
        exact e.trans (out_A_9 (F := Ideal) ..)
      rw [e1, accv_reset _ _ _ h0]
      refine (pay1_apply (iblk m c 3 ⟨n + 1, h⟩ : Vec Ideal S16x32768 .f32) (k0_pay7 (F := Ideal)) b).trans ?_
      rw [pay7_apply b]; rfl
    · have e1 : (outsAt0 m c (n + 1) h).2.2.2.2.1 = k0_pay1 (k0_pay18 (iblk m c 3 ⟨n + 1, h⟩ : Vec Ideal S16x32768 .f32)) ((outsAt0 m c n (Nat.lt_of_succ_lt h)).2.2.2.2.1) := by
        have e := congrArg (fun p => p.2.2.2.2.1) (outsAt0_B m c ⟨n + 1, h⟩ h0)
        dsimp only at e
        exact e.trans (out_B_9 (F := Ideal) ..)
      rw [e1, accv_step _ _ _ h0]
      refine (pay1_apply (iblk m c 3 ⟨n + 1, h⟩ : Vec Ideal S16x32768 .f32) ((outsAt0 m c n (Nat.lt_of_succ_lt h)).2.2.2.2.1) b).trans ?_
      rw [acc9 n _ b]; rfl

/-- The mask's block at position n, as a matrix of extended reals. -/
def msk (n : ℕ) (h : n < cfg0.N) : S16x32768.Idx → EReal := iblk m c 4 ⟨n, h⟩

/-- Point n's contribution to accumulator 10, for image b. -/
def ctr10 (n : ℕ) (h : n < cfg0.N) (b : Fin 16) : EReal := ∑ j : Fin 32768, (msk m c n h (ix2 b j) * (sg ((iblk m c 2 ⟨n, h⟩ : S16x32768.Idx → EReal) (ix2 b j)) - sg ((iblk m c 3 ⟨n, h⟩ : S16x32768.Idx → EReal) (ix2 b j)))) * (msk m c n h (ix2 b j) * (sg ((iblk m c 2 ⟨n, h⟩ : S16x32768.Idx → EReal) (ix2 b j)) - sg ((iblk m c 3 ⟨n, h⟩ : S16x32768.Idx → EReal) (ix2 b j))))

theorem acc10 : ∀ (n : ℕ) (h : n < cfg0.N) (b : Fin 16),
    ((outsAt0 m c n h).2.2.2.2.2.1 : Vec Ideal S1x16x1 .f32) (ix3 (0 : Fin 1) b (0 : Fin 1)) = accv (fun n h => ctr10 m c n h b) n h
  | 0, h, b => by
    have e1 : (outsAt0 m c 0 h).2.2.2.2.2.1 = k0_pay19 (iblk m c 2 ⟨0, h⟩ : Vec Ideal S16x32768 .f32) (iblk m c 3 ⟨0, h⟩ : Vec Ideal S16x32768 .f32) (iblk m c 4 ⟨0, h⟩ : Vec Ideal S16x32768 .f32) (k0_pay8 (F := Ideal)) := by
      have e := congrArg (fun p => p.2.2.2.2.2.1) (outsAt0_A m c ⟨0, h⟩ rfl)
      dsimp only at e
      exact e.trans (out_A_10 (F := Ideal) ..)
    rw [e1]
    refine (pay19_apply (iblk m c 2 ⟨0, h⟩ : Vec Ideal S16x32768 .f32) (iblk m c 3 ⟨0, h⟩ : Vec Ideal S16x32768 .f32) (iblk m c 4 ⟨0, h⟩ : Vec Ideal S16x32768 .f32) (k0_pay8 (F := Ideal)) b).trans ?_
    rw [pay8_apply b]; rfl
  | n + 1, h, b => by
    by_cases h0 : (n + 1) % 4 = 0
    · have e1 : (outsAt0 m c (n + 1) h).2.2.2.2.2.1 = k0_pay19 (iblk m c 2 ⟨n + 1, h⟩ : Vec Ideal S16x32768 .f32) (iblk m c 3 ⟨n + 1, h⟩ : Vec Ideal S16x32768 .f32) (iblk m c 4 ⟨n + 1, h⟩ : Vec Ideal S16x32768 .f32) (k0_pay8 (F := Ideal)) := by
        have e := congrArg (fun p => p.2.2.2.2.2.1) (outsAt0_A m c ⟨n + 1, h⟩ h0)
        dsimp only at e
        exact e.trans (out_A_10 (F := Ideal) ..)
      rw [e1, accv_reset _ _ _ h0]
      refine (pay19_apply (iblk m c 2 ⟨n + 1, h⟩ : Vec Ideal S16x32768 .f32) (iblk m c 3 ⟨n + 1, h⟩ : Vec Ideal S16x32768 .f32) (iblk m c 4 ⟨n + 1, h⟩ : Vec Ideal S16x32768 .f32) (k0_pay8 (F := Ideal)) b).trans ?_
      rw [pay8_apply b]; rfl
    · have e1 : (outsAt0 m c (n + 1) h).2.2.2.2.2.1 = k0_pay19 (iblk m c 2 ⟨n + 1, h⟩ : Vec Ideal S16x32768 .f32) (iblk m c 3 ⟨n + 1, h⟩ : Vec Ideal S16x32768 .f32) (iblk m c 4 ⟨n + 1, h⟩ : Vec Ideal S16x32768 .f32) ((outsAt0 m c n (Nat.lt_of_succ_lt h)).2.2.2.2.2.1) := by
        have e := congrArg (fun p => p.2.2.2.2.2.1) (outsAt0_B m c ⟨n + 1, h⟩ h0)
        dsimp only at e
        exact e.trans (out_B_10 (F := Ideal) ..)
      rw [e1, accv_step _ _ _ h0]
      refine (pay19_apply (iblk m c 2 ⟨n + 1, h⟩ : Vec Ideal S16x32768 .f32) (iblk m c 3 ⟨n + 1, h⟩ : Vec Ideal S16x32768 .f32) (iblk m c 4 ⟨n + 1, h⟩ : Vec Ideal S16x32768 .f32) ((outsAt0 m c n (Nat.lt_of_succ_lt h)).2.2.2.2.2.1) b).trans ?_
      rw [acc10 n _ b]; rfl

/-- Point n's contribution to the matrix accumulator, for the pair of images (b1, b2). -/
def ctr11 (n : ℕ) (h : n < cfg0.N) (b1 b2 : Fin 16) : EReal := ∑ j : Fin 32768, sg ((iblk m c 2 ⟨n, h⟩ : S16x32768.Idx → EReal) (ix2 b1 j)) * sg ((iblk m c 3 ⟨n, h⟩ : S16x32768.Idx → EReal) (ix2 b2 j))

theorem acc11 : ∀ (n : ℕ) (h : n < cfg0.N) (b1 b2 : Fin 16),
    ((outsAt0 m c n h).2.2.2.2.2.2 : Vec Ideal S1x16x16 .f32) (ix3 (0 : Fin 1) b1 b2) = accv (fun n h => ctr11 m c n h b1 b2) n h
  | 0, h, b1, b2 => by
    have e1 : (outsAt0 m c 0 h).2.2.2.2.2.2 = k0_pay2 (k0_pay17 (iblk m c 2 ⟨0, h⟩ : Vec Ideal S16x32768 .f32)) (k0_pay18 (iblk m c 3 ⟨0, h⟩ : Vec Ideal S16x32768 .f32)) (k0_pay10 (F := Ideal) (k0_pay9 (F := Ideal))) := by
      have e := congrArg (fun p => p.2.2.2.2.2.2) (outsAt0_A m c ⟨0, h⟩ rfl)
      dsimp only at e
      exact e.trans (out_A_11 (F := Ideal) ..)
    rw [e1]
    refine (pay2_apply (iblk m c 2 ⟨0, h⟩ : Vec Ideal S16x32768 .f32) (iblk m c 3 ⟨0, h⟩ : Vec Ideal S16x32768 .f32) (k0_pay10 (F := Ideal) (k0_pay9 (F := Ideal))) b1 b2).trans ?_
    rw [pay10_apply b1 b2]; rfl
  | n + 1, h, b1, b2 => by
    by_cases h0 : (n + 1) % 4 = 0
    · have e1 : (outsAt0 m c (n + 1) h).2.2.2.2.2.2 = k0_pay2 (k0_pay17 (iblk m c 2 ⟨n + 1, h⟩ : Vec Ideal S16x32768 .f32)) (k0_pay18 (iblk m c 3 ⟨n + 1, h⟩ : Vec Ideal S16x32768 .f32)) (k0_pay10 (F := Ideal) (k0_pay9 (F := Ideal))) := by
        have e := congrArg (fun p => p.2.2.2.2.2.2) (outsAt0_A m c ⟨n + 1, h⟩ h0)
        dsimp only at e
        exact e.trans (out_A_11 (F := Ideal) ..)
      rw [e1, accv_reset _ _ _ h0]
      refine (pay2_apply (iblk m c 2 ⟨n + 1, h⟩ : Vec Ideal S16x32768 .f32) (iblk m c 3 ⟨n + 1, h⟩ : Vec Ideal S16x32768 .f32) (k0_pay10 (F := Ideal) (k0_pay9 (F := Ideal))) b1 b2).trans ?_
      rw [pay10_apply b1 b2]; rfl
    · have e1 : (outsAt0 m c (n + 1) h).2.2.2.2.2.2 = k0_pay2 (k0_pay17 (iblk m c 2 ⟨n + 1, h⟩ : Vec Ideal S16x32768 .f32)) (k0_pay18 (iblk m c 3 ⟨n + 1, h⟩ : Vec Ideal S16x32768 .f32)) ((outsAt0 m c n (Nat.lt_of_succ_lt h)).2.2.2.2.2.2) := by
        have e := congrArg (fun p => p.2.2.2.2.2.2) (outsAt0_B m c ⟨n + 1, h⟩ h0)
        dsimp only at e
        exact e.trans (out_B_11 (F := Ideal) ..)
      rw [e1, accv_step _ _ _ h0]
      refine (pay2_apply (iblk m c 2 ⟨n + 1, h⟩ : Vec Ideal S16x32768 .f32) (iblk m c 3 ⟨n + 1, h⟩ : Vec Ideal S16x32768 .f32) ((outsAt0 m c n (Nat.lt_of_succ_lt h)).2.2.2.2.2.2) b1 b2).trans ?_
      rw [acc11 n _ b1 b2]; rfl

end Cert.KernelIdeal.AccVal

end
-- ==== Proof.KernelIdeal.Final.lean ====
/-
  The seven result arrays after the region.  Output array w has two blocks, one per core; core c0's block is written back
  once, after the core's fourth point (position 4 * c0 + 3), and holds the accumulator's value there.  So entry
  (c0, b, 0) of a vector result is the running sum at position 4 * c0 + 3 for image b, and entry (c0, b1, b2) of the matrix
  result likewise for the pair (b1, b2); the two blocks tile the array.
-/
import proofs.«134782_j77738908057903_2_alg».proof.Proof.KernelIdeal.AccVal
import Idealize.ShloMosaic.Lib.Pipeline.Value

set_option maxRecDepth 16384

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Acc Cert.KernelIdeal.AccVal Cert.LossSpec

variable (m : (ℓ : Loc nD τ sig) → Buf (Elt Ideal) ℓ) (c : Dev nD)

theorem accv_congr (f : (n : ℕ) → n < cfg0.N → EReal) {n n' : ℕ} (h : n < cfg0.N) (h' : n' < cfg0.N) (e : n = n') :
    accv f n h = accv f n' h' := by subst e; rfl

/-- The last position of core k. -/
theorem last_lt (k : ℕ) (hk : k < 2) : 4 * k + 3 < cfg0.N := by have h8 : cfg0.N = 8 := N_0; omega

/-- An index of a [1,16,1] block is (0, b, 0). -/
theorem vec_idx (j : S1x16x1.Idx) : ∃ b : Fin 16, j = ix3 (0 : Fin 1) b (0 : Fin 1) := ⟨⟨(j 1).val, (j 1).isLt⟩, by
  funext a; apply Fin.ext
  match a with
  | ⟨0, _⟩ => show (j 0).val = 0; have : (j 0).val < 1 := (j 0).isLt; omega
  | ⟨1, _⟩ => rfl
  | ⟨2, _⟩ => show (j 2).val = 0; have : (j 2).val < 1 := (j 2).isLt; omega⟩

/-- An index of a [1,16,16] block is (0, b1, b2). -/
theorem mat_idx (j : S1x16x16.Idx) : ∃ b1 b2 : Fin 16, j = ix3 (0 : Fin 1) b1 b2 := ⟨⟨(j 1).val, (j 1).isLt⟩, ⟨(j 2).val, (j 2).isLt⟩, by
  funext a; apply Fin.ext
  match a with
  | ⟨0, _⟩ => show (j 0).val = 0; have : (j 0).val < 1 := (j 0).isLt; omega
  | ⟨1, _⟩ => rfl
  | ⟨2, _⟩ => rfl⟩

/-! ## Result 0 -/

theorem idx5 : ∀ t : Fin cfg0.N, win0_5.index t (0 : Fin 3) = t.val / 4 ∧ win0_5.index t (1 : Fin 3) = 0 ∧ win0_5.index t (2 : Fin 3) = 0 :=
  (by decide +kernel : ∀ t : Fin grid0.N, win0_5.index t (0 : Fin 3) = t.val / 4 ∧ win0_5.index t (1 : Fin 3) = 0 ∧ win0_5.index t (2 : Fin 3) = 0)

/-- What result 0 ends holding. -/
def G5 : S2x16x1.Idx → EReal := fun i =>
  accv (fun n h => ctr5 m c n h ⟨(i 1).val, (i 1).isLt⟩) (4 * (i 0).val + 3) (last_lt _ (i 0).isLt)

theorem flushed5_eq (t : Fin cfg0.N) (hf : (cfg0.win 5).flush t = true) :
    (dats m 0 c).flushed 5 t = ((cfg0.win 5).blk t).view.read (Elt Ideal) (G5 m c) := by
  have h3 : t.val % 4 = 3 := (flush0_5 t).mp hf
  have h8 : cfg0.N = 8 := N_0
  have ht : t.val < 8 := lt_of_lt_of_eq t.isLt h8
  show (cfg0.win 5).cut (grid0.coords t) ((dats m 0 c).after 5 t) = _
  rw [after0_5]
  obtain ⟨e0, e1, e2⟩ := idx5 t
  funext j
  obtain ⟨b, rfl⟩ := vec_idx j
  show ((outsAt0 m c t.val t.isLt).1 : Vec Ideal S1x16x1 .f32) (ix3 (0 : Fin 1) b (0 : Fin 1)) = G5 m c (((cfg0.win 5).blk t).view.emb (ix3 (0 : Fin 1) b (0 : Fin 1)))
  rw [acc5 m c t.val t.isLt b]
  unfold G5
  have hb : (⟨((((cfg0.win 5).blk t).view.emb (ix3 (0 : Fin 1) b (0 : Fin 1))) 1).val, ((((cfg0.win 5).blk t).view.emb (ix3 (0 : Fin 1) b (0 : Fin 1))) 1).isLt⟩ : Fin 16) = b :=
    Fin.ext (by show win0_5.index t (1 : Fin 3) * 16 + 1 * b.val = b.val; rw [e1]; omega)
  have hn : t.val = 4 * ((((cfg0.win 5).blk t).view.emb (ix3 (0 : Fin 1) b (0 : Fin 1))) 0).val + 3 := by
    show t.val = 4 * (win0_5.index t (0 : Fin 3) * 1 + 1 * 0) + 3; rw [e0]; omega
  dsimp only
  rw [hb]
  exact accv_congr _ _ _ hn

theorem mem_blk5 (t : Fin cfg0.N) (i : S2x16x1.Idx) :
    i ∈ ((cfg0.win 5).blk t).view.set ↔ ∀ a : Fin 3, win0_5.index t a * S1x16x1.size a ≤ (i a).val ∧ (i a).val < win0_5.index t a * S1x16x1.size a + S1x16x1.size a := by
  show i ∈ ((View.whole main_v5_0).slice (win0_5.rect t)).set ↔ _
  rw [View.set_slice_whole, Rect.mem_set_unit]
  exact Iff.rfl

theorem cover5 (i : S2x16x1.Idx) : ∃ t : Fin cfg0.N, (cfg0.win 5).flush t = true ∧ i ∈ ((cfg0.win 5).blk t).view.set := by
  have h8 : cfg0.N = 8 := N_0
  have hi0 : (i 0).val < 2 := (i 0).isLt
  have hi1 : (i 1).val < 16 := (i 1).isLt
  have hi2 : (i 2).val < 1 := (i 2).isLt
  have hlt : 4 * (i 0).val + 3 < cfg0.N := by omega
  refine ⟨⟨4 * (i 0).val + 3, hlt⟩, (flush0_5 _).mpr (by show (4 * (i 0).val + 3) % 4 = 3; omega), ?_⟩
  rw [mem_blk5]
  obtain ⟨e0, e1, e2⟩ := idx5 ⟨4 * (i 0).val + 3, hlt⟩
  intro a
  match a with
  | ⟨0, _⟩ =>
    show win0_5.index ⟨4 * (i 0).val + 3, hlt⟩ (0 : Fin 3) * 1 ≤ (i 0).val ∧ (i 0).val < win0_5.index ⟨4 * (i 0).val + 3, hlt⟩ (0 : Fin 3) * 1 + 1
    rw [e0]; show (4 * (i 0).val + 3) / 4 * 1 ≤ (i 0).val ∧ (i 0).val < (4 * (i 0).val + 3) / 4 * 1 + 1; omega
  | ⟨1, _⟩ =>
    show win0_5.index ⟨4 * (i 0).val + 3, hlt⟩ (1 : Fin 3) * 16 ≤ (i 1).val ∧ (i 1).val < win0_5.index ⟨4 * (i 0).val + 3, hlt⟩ (1 : Fin 3) * 16 + 16
    rw [e1]; omega
  | ⟨2, _⟩ =>
    show win0_5.index ⟨4 * (i 0).val + 3, hlt⟩ (2 : Fin 3) * 1 ≤ (i 2).val ∧ (i 2).val < win0_5.index ⟨4 * (i 0).val + 3, hlt⟩ (2 : Fin 3) * 1 + 1
    rw [e2]; omega

/-- Result 0 after the region. -/
theorem final5 : (dats m 0 c).arrAt 5 cfg0.N = G5 m c :=
  (dats m 0 c).arrAt_eq_of_cover 5 (G5 m c) (flushed5_eq m c) cover5

/-! ## Result 1 -/

theorem idx6 : ∀ t : Fin cfg0.N, win0_6.index t (0 : Fin 3) = t.val / 4 ∧ win0_6.index t (1 : Fin 3) = 0 ∧ win0_6.index t (2 : Fin 3) = 0 :=
  (by decide +kernel : ∀ t : Fin grid0.N, win0_6.index t (0 : Fin 3) = t.val / 4 ∧ win0_6.index t (1 : Fin 3) = 0 ∧ win0_6.index t (2 : Fin 3) = 0)

/-- What result 1 ends holding. -/
def G6 : S2x16x1.Idx → EReal := fun i =>
  accv (fun n h => ctr6 m c n h ⟨(i 1).val, (i 1).isLt⟩) (4 * (i 0).val + 3) (last_lt _ (i 0).isLt)

theorem flushed6_eq (t : Fin cfg0.N) (hf : (cfg0.win 6).flush t = true) :
    (dats m 0 c).flushed 6 t = ((cfg0.win 6).blk t).view.read (Elt Ideal) (G6 m c) := by
  have h3 : t.val % 4 = 3 := (flush0_6 t).mp hf
  have h8 : cfg0.N = 8 := N_0
  have ht : t.val < 8 := lt_of_lt_of_eq t.isLt h8
  show (cfg0.win 6).cut (grid0.coords t) ((dats m 0 c).after 6 t) = _
  rw [after0_6]
  obtain ⟨e0, e1, e2⟩ := idx6 t
  funext j
  obtain ⟨b, rfl⟩ := vec_idx j
  show ((outsAt0 m c t.val t.isLt).2.1 : Vec Ideal S1x16x1 .f32) (ix3 (0 : Fin 1) b (0 : Fin 1)) = G6 m c (((cfg0.win 6).blk t).view.emb (ix3 (0 : Fin 1) b (0 : Fin 1)))
  rw [acc6 m c t.val t.isLt b]
  unfold G6
  have hb : (⟨((((cfg0.win 6).blk t).view.emb (ix3 (0 : Fin 1) b (0 : Fin 1))) 1).val, ((((cfg0.win 6).blk t).view.emb (ix3 (0 : Fin 1) b (0 : Fin 1))) 1).isLt⟩ : Fin 16) = b :=
    Fin.ext (by show win0_6.index t (1 : Fin 3) * 16 + 1 * b.val = b.val; rw [e1]; omega)
  have hn : t.val = 4 * ((((cfg0.win 6).blk t).view.emb (ix3 (0 : Fin 1) b (0 : Fin 1))) 0).val + 3 := by
    show t.val = 4 * (win0_6.index t (0 : Fin 3) * 1 + 1 * 0) + 3; rw [e0]; omega
  dsimp only
  rw [hb]
  exact accv_congr _ _ _ hn

theorem mem_blk6 (t : Fin cfg0.N) (i : S2x16x1.Idx) :
    i ∈ ((cfg0.win 6).blk t).view.set ↔ ∀ a : Fin 3, win0_6.index t a * S1x16x1.size a ≤ (i a).val ∧ (i a).val < win0_6.index t a * S1x16x1.size a + S1x16x1.size a := by
  show i ∈ ((View.whole main_v5_1).slice (win0_6.rect t)).set ↔ _
  rw [View.set_slice_whole, Rect.mem_set_unit]
  exact Iff.rfl

theorem cover6 (i : S2x16x1.Idx) : ∃ t : Fin cfg0.N, (cfg0.win 6).flush t = true ∧ i ∈ ((cfg0.win 6).blk t).view.set := by
  have h8 : cfg0.N = 8 := N_0
  have hi0 : (i 0).val < 2 := (i 0).isLt
  have hi1 : (i 1).val < 16 := (i 1).isLt
  have hi2 : (i 2).val < 1 := (i 2).isLt
  have hlt : 4 * (i 0).val + 3 < cfg0.N := by omega
  refine ⟨⟨4 * (i 0).val + 3, hlt⟩, (flush0_6 _).mpr (by show (4 * (i 0).val + 3) % 4 = 3; omega), ?_⟩
  rw [mem_blk6]
  obtain ⟨e0, e1, e2⟩ := idx6 ⟨4 * (i 0).val + 3, hlt⟩
  intro a
  match a with
  | ⟨0, _⟩ =>
    show win0_6.index ⟨4 * (i 0).val + 3, hlt⟩ (0 : Fin 3) * 1 ≤ (i 0).val ∧ (i 0).val < win0_6.index ⟨4 * (i 0).val + 3, hlt⟩ (0 : Fin 3) * 1 + 1
    rw [e0]; show (4 * (i 0).val + 3) / 4 * 1 ≤ (i 0).val ∧ (i 0).val < (4 * (i 0).val + 3) / 4 * 1 + 1; omega
  | ⟨1, _⟩ =>
    show win0_6.index ⟨4 * (i 0).val + 3, hlt⟩ (1 : Fin 3) * 16 ≤ (i 1).val ∧ (i 1).val < win0_6.index ⟨4 * (i 0).val + 3, hlt⟩ (1 : Fin 3) * 16 + 16
    rw [e1]; omega
  | ⟨2, _⟩ =>
    show win0_6.index ⟨4 * (i 0).val + 3, hlt⟩ (2 : Fin 3) * 1 ≤ (i 2).val ∧ (i 2).val < win0_6.index ⟨4 * (i 0).val + 3, hlt⟩ (2 : Fin 3) * 1 + 1
    rw [e2]; omega

/-- Result 1 after the region. -/
theorem final6 : (dats m 0 c).arrAt 6 cfg0.N = G6 m c :=
  (dats m 0 c).arrAt_eq_of_cover 6 (G6 m c) (flushed6_eq m c) cover6

/-! ## Result 2 -/

theorem idx7 : ∀ t : Fin cfg0.N, win0_7.index t (0 : Fin 3) = t.val / 4 ∧ win0_7.index t (1 : Fin 3) = 0 ∧ win0_7.index t (2 : Fin 3) = 0 :=
  (by decide +kernel : ∀ t : Fin grid0.N, win0_7.index t (0 : Fin 3) = t.val / 4 ∧ win0_7.index t (1 : Fin 3) = 0 ∧ win0_7.index t (2 : Fin 3) = 0)

/-- What result 2 ends holding. -/
def G7 : S2x16x1.Idx → EReal := fun i =>
  accv (fun n h => ctr7 m c n h ⟨(i 1).val, (i 1).isLt⟩) (4 * (i 0).val + 3) (last_lt _ (i 0).isLt)

theorem flushed7_eq (t : Fin cfg0.N) (hf : (cfg0.win 7).flush t = true) :
    (dats m 0 c).flushed 7 t = ((cfg0.win 7).blk t).view.read (Elt Ideal) (G7 m c) := by
  have h3 : t.val % 4 = 3 := (flush0_7 t).mp hf
  have h8 : cfg0.N = 8 := N_0
  have ht : t.val < 8 := lt_of_lt_of_eq t.isLt h8
  show (cfg0.win 7).cut (grid0.coords t) ((dats m 0 c).after 7 t) = _
  rw [after0_7]
  obtain ⟨e0, e1, e2⟩ := idx7 t
  funext j
  obtain ⟨b, rfl⟩ := vec_idx j
  show ((outsAt0 m c t.val t.isLt).2.2.1 : Vec Ideal S1x16x1 .f32) (ix3 (0 : Fin 1) b (0 : Fin 1)) = G7 m c (((cfg0.win 7).blk t).view.emb (ix3 (0 : Fin 1) b (0 : Fin 1)))
  rw [acc7 m c t.val t.isLt b]
  unfold G7
  have hb : (⟨((((cfg0.win 7).blk t).view.emb (ix3 (0 : Fin 1) b (0 : Fin 1))) 1).val, ((((cfg0.win 7).blk t).view.emb (ix3 (0 : Fin 1) b (0 : Fin 1))) 1).isLt⟩ : Fin 16) = b :=
    Fin.ext (by show win0_7.index t (1 : Fin 3) * 16 + 1 * b.val = b.val; rw [e1]; omega)
  have hn : t.val = 4 * ((((cfg0.win 7).blk t).view.emb (ix3 (0 : Fin 1) b (0 : Fin 1))) 0).val + 3 := by
    show t.val = 4 * (win0_7.index t (0 : Fin 3) * 1 + 1 * 0) + 3; rw [e0]; omega
  dsimp only
  rw [hb]
  exact accv_congr _ _ _ hn

theorem mem_blk7 (t : Fin cfg0.N) (i : S2x16x1.Idx) :
    i ∈ ((cfg0.win 7).blk t).view.set ↔ ∀ a : Fin 3, win0_7.index t a * S1x16x1.size a ≤ (i a).val ∧ (i a).val < win0_7.index t a * S1x16x1.size a + S1x16x1.size a := by
  show i ∈ ((View.whole main_v5_2).slice (win0_7.rect t)).set ↔ _
  rw [View.set_slice_whole, Rect.mem_set_unit]
  exact Iff.rfl

theorem cover7 (i : S2x16x1.Idx) : ∃ t : Fin cfg0.N, (cfg0.win 7).flush t = true ∧ i ∈ ((cfg0.win 7).blk t).view.set := by
  have h8 : cfg0.N = 8 := N_0
  have hi0 : (i 0).val < 2 := (i 0).isLt
  have hi1 : (i 1).val < 16 := (i 1).isLt
  have hi2 : (i 2).val < 1 := (i 2).isLt
  have hlt : 4 * (i 0).val + 3 < cfg0.N := by omega
  refine ⟨⟨4 * (i 0).val + 3, hlt⟩, (flush0_7 _).mpr (by show (4 * (i 0).val + 3) % 4 = 3; omega), ?_⟩
  rw [mem_blk7]
  obtain ⟨e0, e1, e2⟩ := idx7 ⟨4 * (i 0).val + 3, hlt⟩
  intro a
  match a with
  | ⟨0, _⟩ =>
    show win0_7.index ⟨4 * (i 0).val + 3, hlt⟩ (0 : Fin 3) * 1 ≤ (i 0).val ∧ (i 0).val < win0_7.index ⟨4 * (i 0).val + 3, hlt⟩ (0 : Fin 3) * 1 + 1
    rw [e0]; show (4 * (i 0).val + 3) / 4 * 1 ≤ (i 0).val ∧ (i 0).val < (4 * (i 0).val + 3) / 4 * 1 + 1; omega
  | ⟨1, _⟩ =>
    show win0_7.index ⟨4 * (i 0).val + 3, hlt⟩ (1 : Fin 3) * 16 ≤ (i 1).val ∧ (i 1).val < win0_7.index ⟨4 * (i 0).val + 3, hlt⟩ (1 : Fin 3) * 16 + 16
    rw [e1]; omega
  | ⟨2, _⟩ =>
    show win0_7.index ⟨4 * (i 0).val + 3, hlt⟩ (2 : Fin 3) * 1 ≤ (i 2).val ∧ (i 2).val < win0_7.index ⟨4 * (i 0).val + 3, hlt⟩ (2 : Fin 3) * 1 + 1
    rw [e2]; omega

/-- Result 2 after the region. -/
theorem final7 : (dats m 0 c).arrAt 7 cfg0.N = G7 m c :=
  (dats m 0 c).arrAt_eq_of_cover 7 (G7 m c) (flushed7_eq m c) cover7

/-! ## Result 3 -/

theorem idx8 : ∀ t : Fin cfg0.N, win0_8.index t (0 : Fin 3) = t.val / 4 ∧ win0_8.index t (1 : Fin 3) = 0 ∧ win0_8.index t (2 : Fin 3) = 0 :=
  (by decide +kernel : ∀ t : Fin grid0.N, win0_8.index t (0 : Fin 3) = t.val / 4 ∧ win0_8.index t (1 : Fin 3) = 0 ∧ win0_8.index t (2 : Fin 3) = 0)

/-- What result 3 ends holding. -/
def G8 : S2x16x1.Idx → EReal := fun i =>
  accv (fun n h => ctr8 m c n h ⟨(i 1).val, (i 1).isLt⟩) (4 * (i 0).val + 3) (last_lt _ (i 0).isLt)

theorem flushed8_eq (t : Fin cfg0.N) (hf : (cfg0.win 8).flush t = true) :
    (dats m 0 c).flushed 8 t = ((cfg0.win 8).blk t).view.read (Elt Ideal) (G8 m c) := by
  have h3 : t.val % 4 = 3 := (flush0_8 t).mp hf
  have h8 : cfg0.N = 8 := N_0
  have ht : t.val < 8 := lt_of_lt_of_eq t.isLt h8
  show (cfg0.win 8).cut (grid0.coords t) ((dats m 0 c).after 8 t) = _
  rw [after0_8]
  obtain ⟨e0, e1, e2⟩ := idx8 t
  funext j
  obtain ⟨b, rfl⟩ := vec_idx j
  show ((outsAt0 m c t.val t.isLt).2.2.2.1 : Vec Ideal S1x16x1 .f32) (ix3 (0 : Fin 1) b (0 : Fin 1)) = G8 m c (((cfg0.win 8).blk t).view.emb (ix3 (0 : Fin 1) b (0 : Fin 1)))
  rw [acc8 m c t.val t.isLt b]
  unfold G8
  have hb : (⟨((((cfg0.win 8).blk t).view.emb (ix3 (0 : Fin 1) b (0 : Fin 1))) 1).val, ((((cfg0.win 8).blk t).view.emb (ix3 (0 : Fin 1) b (0 : Fin 1))) 1).isLt⟩ : Fin 16) = b :=
    Fin.ext (by show win0_8.index t (1 : Fin 3) * 16 + 1 * b.val = b.val; rw [e1]; omega)
  have hn : t.val = 4 * ((((cfg0.win 8).blk t).view.emb (ix3 (0 : Fin 1) b (0 : Fin 1))) 0).val + 3 := by
    show t.val = 4 * (win0_8.index t (0 : Fin 3) * 1 + 1 * 0) + 3; rw [e0]; omega
  dsimp only
  rw [hb]
  exact accv_congr _ _ _ hn

theorem mem_blk8 (t : Fin cfg0.N) (i : S2x16x1.Idx) :
    i ∈ ((cfg0.win 8).blk t).view.set ↔ ∀ a : Fin 3, win0_8.index t a * S1x16x1.size a ≤ (i a).val ∧ (i a).val < win0_8.index t a * S1x16x1.size a + S1x16x1.size a := by
  show i ∈ ((View.whole main_v5_3).slice (win0_8.rect t)).set ↔ _
  rw [View.set_slice_whole, Rect.mem_set_unit]
  exact Iff.rfl

theorem cover8 (i : S2x16x1.Idx) : ∃ t : Fin cfg0.N, (cfg0.win 8).flush t = true ∧ i ∈ ((cfg0.win 8).blk t).view.set := by
  have h8 : cfg0.N = 8 := N_0
  have hi0 : (i 0).val < 2 := (i 0).isLt
  have hi1 : (i 1).val < 16 := (i 1).isLt
  have hi2 : (i 2).val < 1 := (i 2).isLt
  have hlt : 4 * (i 0).val + 3 < cfg0.N := by omega
  refine ⟨⟨4 * (i 0).val + 3, hlt⟩, (flush0_8 _).mpr (by show (4 * (i 0).val + 3) % 4 = 3; omega), ?_⟩
  rw [mem_blk8]
  obtain ⟨e0, e1, e2⟩ := idx8 ⟨4 * (i 0).val + 3, hlt⟩
  intro a
  match a with
  | ⟨0, _⟩ =>
    show win0_8.index ⟨4 * (i 0).val + 3, hlt⟩ (0 : Fin 3) * 1 ≤ (i 0).val ∧ (i 0).val < win0_8.index ⟨4 * (i 0).val + 3, hlt⟩ (0 : Fin 3) * 1 + 1
    rw [e0]; show (4 * (i 0).val + 3) / 4 * 1 ≤ (i 0).val ∧ (i 0).val < (4 * (i 0).val + 3) / 4 * 1 + 1; omega
  | ⟨1, _⟩ =>
    show win0_8.index ⟨4 * (i 0).val + 3, hlt⟩ (1 : Fin 3) * 16 ≤ (i 1).val ∧ (i 1).val < win0_8.index ⟨4 * (i 0).val + 3, hlt⟩ (1 : Fin 3) * 16 + 16
    rw [e1]; omega
  | ⟨2, _⟩ =>
    show win0_8.index ⟨4 * (i 0).val + 3, hlt⟩ (2 : Fin 3) * 1 ≤ (i 2).val ∧ (i 2).val < win0_8.index ⟨4 * (i 0).val + 3, hlt⟩ (2 : Fin 3) * 1 + 1
    rw [e2]; omega

/-- Result 3 after the region. -/
theorem final8 : (dats m 0 c).arrAt 8 cfg0.N = G8 m c :=
  (dats m 0 c).arrAt_eq_of_cover 8 (G8 m c) (flushed8_eq m c) cover8

/-! ## Result 4 -/

theorem idx9 : ∀ t : Fin cfg0.N, win0_9.index t (0 : Fin 3) = t.val / 4 ∧ win0_9.index t (1 : Fin 3) = 0 ∧ win0_9.index t (2 : Fin 3) = 0 :=
  (by decide +kernel : ∀ t : Fin grid0.N, win0_9.index t (0 : Fin 3) = t.val / 4 ∧ win0_9.index t (1 : Fin 3) = 0 ∧ win0_9.index t (2 : Fin 3) = 0)

/-- What result 4 ends holding. -/
def G9 : S2x16x1.Idx → EReal := fun i =>
  accv (fun n h => ctr9 m c n h ⟨(i 1).val, (i 1).isLt⟩) (4 * (i 0).val + 3) (last_lt _ (i 0).isLt)

theorem flushed9_eq (t : Fin cfg0.N) (hf : (cfg0.win 9).flush t = true) :
    (dats m 0 c).flushed 9 t = ((cfg0.win 9).blk t).view.read (Elt Ideal) (G9 m c) := by
  have h3 : t.val % 4 = 3 := (flush0_9 t).mp hf
  have h8 : cfg0.N = 8 := N_0
  have ht : t.val < 8 := lt_of_lt_of_eq t.isLt h8
  show (cfg0.win 9).cut (grid0.coords t) ((dats m 0 c).after 9 t) = _
  rw [after0_9]
  obtain ⟨e0, e1, e2⟩ := idx9 t
  funext j
  obtain ⟨b, rfl⟩ := vec_idx j
  show ((outsAt0 m c t.val t.isLt).2.2.2.2.1 : Vec Ideal S1x16x1 .f32) (ix3 (0 : Fin 1) b (0 : Fin 1)) = G9 m c (((cfg0.win 9).blk t).view.emb (ix3 (0 : Fin 1) b (0 : Fin 1)))
  rw [acc9 m c t.val t.isLt b]
  unfold G9
  have hb : (⟨((((cfg0.win 9).blk t).view.emb (ix3 (0 : Fin 1) b (0 : Fin 1))) 1).val, ((((cfg0.win 9).blk t).view.emb (ix3 (0 : Fin 1) b (0 : Fin 1))) 1).isLt⟩ : Fin 16) = b :=
    Fin.ext (by show win0_9.index t (1 : Fin 3) * 16 + 1 * b.val = b.val; rw [e1]; omega)
  have hn : t.val = 4 * ((((cfg0.win 9).blk t).view.emb (ix3 (0 : Fin 1) b (0 : Fin 1))) 0).val + 3 := by
    show t.val = 4 * (win0_9.index t (0 : Fin 3) * 1 + 1 * 0) + 3; rw [e0]; omega
  dsimp only
  rw [hb]
  exact accv_congr _ _ _ hn

theorem mem_blk9 (t : Fin cfg0.N) (i : S2x16x1.Idx) :
    i ∈ ((cfg0.win 9).blk t).view.set ↔ ∀ a : Fin 3, win0_9.index t a * S1x16x1.size a ≤ (i a).val ∧ (i a).val < win0_9.index t a * S1x16x1.size a + S1x16x1.size a := by
  show i ∈ ((View.whole main_v5_4).slice (win0_9.rect t)).set ↔ _
  rw [View.set_slice_whole, Rect.mem_set_unit]
  exact Iff.rfl

theorem cover9 (i : S2x16x1.Idx) : ∃ t : Fin cfg0.N, (cfg0.win 9).flush t = true ∧ i ∈ ((cfg0.win 9).blk t).view.set := by
  have h8 : cfg0.N = 8 := N_0
  have hi0 : (i 0).val < 2 := (i 0).isLt
  have hi1 : (i 1).val < 16 := (i 1).isLt
  have hi2 : (i 2).val < 1 := (i 2).isLt
  have hlt : 4 * (i 0).val + 3 < cfg0.N := by omega
  refine ⟨⟨4 * (i 0).val + 3, hlt⟩, (flush0_9 _).mpr (by show (4 * (i 0).val + 3) % 4 = 3; omega), ?_⟩
  rw [mem_blk9]
  obtain ⟨e0, e1, e2⟩ := idx9 ⟨4 * (i 0).val + 3, hlt⟩
  intro a
  match a with
  | ⟨0, _⟩ =>
    show win0_9.index ⟨4 * (i 0).val + 3, hlt⟩ (0 : Fin 3) * 1 ≤ (i 0).val ∧ (i 0).val < win0_9.index ⟨4 * (i 0).val + 3, hlt⟩ (0 : Fin 3) * 1 + 1
    rw [e0]; show (4 * (i 0).val + 3) / 4 * 1 ≤ (i 0).val ∧ (i 0).val < (4 * (i 0).val + 3) / 4 * 1 + 1; omega
  | ⟨1, _⟩ =>
    show win0_9.index ⟨4 * (i 0).val + 3, hlt⟩ (1 : Fin 3) * 16 ≤ (i 1).val ∧ (i 1).val < win0_9.index ⟨4 * (i 0).val + 3, hlt⟩ (1 : Fin 3) * 16 + 16
    rw [e1]; omega
  | ⟨2, _⟩ =>
    show win0_9.index ⟨4 * (i 0).val + 3, hlt⟩ (2 : Fin 3) * 1 ≤ (i 2).val ∧ (i 2).val < win0_9.index ⟨4 * (i 0).val + 3, hlt⟩ (2 : Fin 3) * 1 + 1
    rw [e2]; omega

/-- Result 4 after the region. -/
theorem final9 : (dats m 0 c).arrAt 9 cfg0.N = G9 m c :=
  (dats m 0 c).arrAt_eq_of_cover 9 (G9 m c) (flushed9_eq m c) cover9

/-! ## Result 5 -/

theorem idx10 : ∀ t : Fin cfg0.N, win0_10.index t (0 : Fin 3) = t.val / 4 ∧ win0_10.index t (1 : Fin 3) = 0 ∧ win0_10.index t (2 : Fin 3) = 0 :=
  (by decide +kernel : ∀ t : Fin grid0.N, win0_10.index t (0 : Fin 3) = t.val / 4 ∧ win0_10.index t (1 : Fin 3) = 0 ∧ win0_10.index t (2 : Fin 3) = 0)

/-- What result 5 ends holding. -/
def G10 : S2x16x1.Idx → EReal := fun i =>
  accv (fun n h => ctr10 m c n h ⟨(i 1).val, (i 1).isLt⟩) (4 * (i 0).val + 3) (last_lt _ (i 0).isLt)

theorem flushed10_eq (t : Fin cfg0.N) (hf : (cfg0.win 10).flush t = true) :
    (dats m 0 c).flushed 10 t = ((cfg0.win 10).blk t).view.read (Elt Ideal) (G10 m c) := by
  have h3 : t.val % 4 = 3 := (flush0_10 t).mp hf
  have h8 : cfg0.N = 8 := N_0
  have ht : t.val < 8 := lt_of_lt_of_eq t.isLt h8
  show (cfg0.win 10).cut (grid0.coords t) ((dats m 0 c).after 10 t) = _
  rw [after0_10]
  obtain ⟨e0, e1, e2⟩ := idx10 t
  funext j
  obtain ⟨b, rfl⟩ := vec_idx j
  show ((outsAt0 m c t.val t.isLt).2.2.2.2.2.1 : Vec Ideal S1x16x1 .f32) (ix3 (0 : Fin 1) b (0 : Fin 1)) = G10 m c (((cfg0.win 10).blk t).view.emb (ix3 (0 : Fin 1) b (0 : Fin 1)))
  rw [acc10 m c t.val t.isLt b]
  unfold G10
  have hb : (⟨((((cfg0.win 10).blk t).view.emb (ix3 (0 : Fin 1) b (0 : Fin 1))) 1).val, ((((cfg0.win 10).blk t).view.emb (ix3 (0 : Fin 1) b (0 : Fin 1))) 1).isLt⟩ : Fin 16) = b :=
    Fin.ext (by show win0_10.index t (1 : Fin 3) * 16 + 1 * b.val = b.val; rw [e1]; omega)
  have hn : t.val = 4 * ((((cfg0.win 10).blk t).view.emb (ix3 (0 : Fin 1) b (0 : Fin 1))) 0).val + 3 := by
    show t.val = 4 * (win0_10.index t (0 : Fin 3) * 1 + 1 * 0) + 3; rw [e0]; omega
  dsimp only
  rw [hb]
  exact accv_congr _ _ _ hn

theorem mem_blk10 (t : Fin cfg0.N) (i : S2x16x1.Idx) :
    i ∈ ((cfg0.win 10).blk t).view.set ↔ ∀ a : Fin 3, win0_10.index t a * S1x16x1.size a ≤ (i a).val ∧ (i a).val < win0_10.index t a * S1x16x1.size a + S1x16x1.size a := by
  show i ∈ ((View.whole main_v5_5).slice (win0_10.rect t)).set ↔ _
  rw [View.set_slice_whole, Rect.mem_set_unit]
  exact Iff.rfl

theorem cover10 (i : S2x16x1.Idx) : ∃ t : Fin cfg0.N, (cfg0.win 10).flush t = true ∧ i ∈ ((cfg0.win 10).blk t).view.set := by
  have h8 : cfg0.N = 8 := N_0
  have hi0 : (i 0).val < 2 := (i 0).isLt
  have hi1 : (i 1).val < 16 := (i 1).isLt
  have hi2 : (i 2).val < 1 := (i 2).isLt
  have hlt : 4 * (i 0).val + 3 < cfg0.N := by omega
  refine ⟨⟨4 * (i 0).val + 3, hlt⟩, (flush0_10 _).mpr (by show (4 * (i 0).val + 3) % 4 = 3; omega), ?_⟩
  rw [mem_blk10]
  obtain ⟨e0, e1, e2⟩ := idx10 ⟨4 * (i 0).val + 3, hlt⟩
  intro a
  match a with
  | ⟨0, _⟩ =>
    show win0_10.index ⟨4 * (i 0).val + 3, hlt⟩ (0 : Fin 3) * 1 ≤ (i 0).val ∧ (i 0).val < win0_10.index ⟨4 * (i 0).val + 3, hlt⟩ (0 : Fin 3) * 1 + 1
    rw [e0]; show (4 * (i 0).val + 3) / 4 * 1 ≤ (i 0).val ∧ (i 0).val < (4 * (i 0).val + 3) / 4 * 1 + 1; omega
  | ⟨1, _⟩ =>
    show win0_10.index ⟨4 * (i 0).val + 3, hlt⟩ (1 : Fin 3) * 16 ≤ (i 1).val ∧ (i 1).val < win0_10.index ⟨4 * (i 0).val + 3, hlt⟩ (1 : Fin 3) * 16 + 16
    rw [e1]; omega
  | ⟨2, _⟩ =>
    show win0_10.index ⟨4 * (i 0).val + 3, hlt⟩ (2 : Fin 3) * 1 ≤ (i 2).val ∧ (i 2).val < win0_10.index ⟨4 * (i 0).val + 3, hlt⟩ (2 : Fin 3) * 1 + 1
    rw [e2]; omega

/-- Result 5 after the region. -/
theorem final10 : (dats m 0 c).arrAt 10 cfg0.N = G10 m c :=
  (dats m 0 c).arrAt_eq_of_cover 10 (G10 m c) (flushed10_eq m c) cover10

/-! ## Result 6: the matrix -/

theorem idx11 : ∀ t : Fin cfg0.N, win0_11.index t (0 : Fin 3) = t.val / 4 ∧ win0_11.index t (1 : Fin 3) = 0 ∧ win0_11.index t (2 : Fin 3) = 0 :=
  (by decide +kernel : ∀ t : Fin grid0.N, win0_11.index t (0 : Fin 3) = t.val / 4 ∧ win0_11.index t (1 : Fin 3) = 0 ∧ win0_11.index t (2 : Fin 3) = 0)

/-- What result 6 ends holding. -/
def G11 : S2x16x16.Idx → EReal := fun i =>
  accv (fun n h => ctr11 m c n h ⟨(i 1).val, (i 1).isLt⟩ ⟨(i 2).val, (i 2).isLt⟩) (4 * (i 0).val + 3) (last_lt _ (i 0).isLt)

theorem flushed11_eq (t : Fin cfg0.N) (hf : (cfg0.win 11).flush t = true) :
    (dats m 0 c).flushed 11 t = ((cfg0.win 11).blk t).view.read (Elt Ideal) (G11 m c) := by
  have h3 : t.val % 4 = 3 := (flush0_11 t).mp hf
  have h8 : cfg0.N = 8 := N_0
  have ht : t.val < 8 := lt_of_lt_of_eq t.isLt h8
  show (cfg0.win 11).cut (grid0.coords t) ((dats m 0 c).after 11 t) = _
  rw [after0_11]
  obtain ⟨e0, e1, e2⟩ := idx11 t
  funext j
  obtain ⟨b1, b2, rfl⟩ := mat_idx j
  show ((outsAt0 m c t.val t.isLt).2.2.2.2.2.2 : Vec Ideal S1x16x16 .f32) (ix3 (0 : Fin 1) b1 b2) = G11 m c (((cfg0.win 11).blk t).view.emb (ix3 (0 : Fin 1) b1 b2))
  rw [acc11 m c t.val t.isLt b1 b2]
  unfold G11
  have hb1 : (⟨((((cfg0.win 11).blk t).view.emb (ix3 (0 : Fin 1) b1 b2)) 1).val, ((((cfg0.win 11).blk t).view.emb (ix3 (0 : Fin 1) b1 b2)) 1).isLt⟩ : Fin 16) = b1 :=
    Fin.ext (by show win0_11.index t (1 : Fin 3) * 16 + 1 * b1.val = b1.val; rw [e1]; omega)
  have hb2 : (⟨((((cfg0.win 11).blk t).view.emb (ix3 (0 : Fin 1) b1 b2)) 2).val, ((((cfg0.win 11).blk t).view.emb (ix3 (0 : Fin 1) b1 b2)) 2).isLt⟩ : Fin 16) = b2 :=
    Fin.ext (by show win0_11.index t (2 : Fin 3) * 16 + 1 * b2.val = b2.val; rw [e2]; omega)
  have hn : t.val = 4 * ((((cfg0.win 11).blk t).view.emb (ix3 (0 : Fin 1) b1 b2)) 0).val + 3 := by
    show t.val = 4 * (win0_11.index t (0 : Fin 3) * 1 + 1 * 0) + 3; rw [e0]; omega
  dsimp only
  rw [hb1, hb2]
  exact accv_congr _ _ _ hn

theorem mem_blk11 (t : Fin cfg0.N) (i : S2x16x16.Idx) :
    i ∈ ((cfg0.win 11).blk t).view.set ↔ ∀ a : Fin 3, win0_11.index t a * S1x16x16.size a ≤ (i a).val ∧ (i a).val < win0_11.index t a * S1x16x16.size a + S1x16x16.size a := by
  show i ∈ ((View.whole main_v5_6).slice (win0_11.rect t)).set ↔ _
  rw [View.set_slice_whole, Rect.mem_set_unit]
  exact Iff.rfl

theorem cover11 (i : S2x16x16.Idx) : ∃ t : Fin cfg0.N, (cfg0.win 11).flush t = true ∧ i ∈ ((cfg0.win 11).blk t).view.set := by
  have h8 : cfg0.N = 8 := N_0
  have hi0 : (i 0).val < 2 := (i 0).isLt
  have hi1 : (i 1).val < 16 := (i 1).isLt
  have hi2 : (i 2).val < 16 := (i 2).isLt
  have hlt : 4 * (i 0).val + 3 < cfg0.N := by omega
  refine ⟨⟨4 * (i 0).val + 3, hlt⟩, (flush0_11 _).mpr (by show (4 * (i 0).val + 3) % 4 = 3; omega), ?_⟩
  rw [mem_blk11]
  obtain ⟨e0, e1, e2⟩ := idx11 ⟨4 * (i 0).val + 3, hlt⟩
  intro a
  match a with
  | ⟨0, _⟩ =>
    show win0_11.index ⟨4 * (i 0).val + 3, hlt⟩ (0 : Fin 3) * 1 ≤ (i 0).val ∧ (i 0).val < win0_11.index ⟨4 * (i 0).val + 3, hlt⟩ (0 : Fin 3) * 1 + 1
    rw [e0]; show (4 * (i 0).val + 3) / 4 * 1 ≤ (i 0).val ∧ (i 0).val < (4 * (i 0).val + 3) / 4 * 1 + 1; omega
  | ⟨1, _⟩ =>
    show win0_11.index ⟨4 * (i 0).val + 3, hlt⟩ (1 : Fin 3) * 16 ≤ (i 1).val ∧ (i 1).val < win0_11.index ⟨4 * (i 0).val + 3, hlt⟩ (1 : Fin 3) * 16 + 16
    rw [e1]; omega
  | ⟨2, _⟩ =>
    show win0_11.index ⟨4 * (i 0).val + 3, hlt⟩ (2 : Fin 3) * 16 ≤ (i 2).val ∧ (i 2).val < win0_11.index ⟨4 * (i 0).val + 3, hlt⟩ (2 : Fin 3) * 16 + 16
    rw [e2]; omega

/-- Result 6 after the region. -/
theorem final11 : (dats m 0 c).arrAt 11 cfg0.N = G11 m c :=
  (dats m 0 c).arrAt_eq_of_cover 11 (G11 m c) (flushed11_eq m c) cover11

end Cert.KernelIdeal.Final

end
-- ==== Proof.KernelIdeal.HostSums.lean ====
/-
  The host operations around the kernel, read at an index on the extended reals.

  After the kernel, each of its seven result arrays holds two partial blocks, one per core; the host adds the two
  (a sum over the leading axis of size 2), and for the three total sums adds the sixteen per-image entries as well.
  Before the kernel, each argument is flattened to 16 rows of 262144 pixels, and an input window's block at grid
  point t is columns 32768 t … 32768 t + 32767 of that matrix.
-/
import proofs.«134782_j77738908057903_2_alg».proof.Proof.KernelIdeal.Shared
import proofs.«134782_j77738908057903_2_alg».proof.Proof.LossSpec
import Idealize.ShloMosaic.Lib.Pipeline.Value
import Idealize.ShloMosaic.Lib.ValueIdx
import Idealize.ShloMosaic.PureOps.Ideal.Laws

noncomputable section

namespace Cert.KernelIdeal.HostSums

open Cert.KernelIdeal Cert.KernelIdeal.Gen Cert.KernelIdeal.Acc Cert.LossSpec Idealize.ShloMosaic Idealize.ShloMosaic.ValueIdx

/-! ## The host's sums of the per-core partial blocks -/

/-- The sum over the two cores of a [2,16,1] array, at an entry of the [16,1] result. -/
theorem core_sum (G : (⟨S2x16x1, .f32⟩ : BufTy).Contents (Elt Ideal)) :
    Host.reduceAdd G (constant (F := Ideal) S_ .f32 0x00000000#32) reducesTo_S2x16x1_S16x1_d0 h_S_
      = fun i => ∑ c0 : Fin 2, G (ix3 c0 (⟨(i 0).val, (i 0).isLt⟩ : Fin 16) (0 : Fin 1)) := by
  funext i
  simp only [Host.reduceAdd, Ideal.hostReduceAdd_def]
  rw [Ideal.hostReduceAdd_single reducesTo_S2x16x1_S16x1_d0 (by decide)]
  show Ideal.ofBits .f32 0x00000000#32 + _ = _
  rw [Ideal.ofBits_zero_f32, zero_add]
  refine Finset.sum_congr rfl fun k _ => ?_
  have h1 : (i 1).val < 1 := (i 1).isLt
  exact congrArg G (funext fun a => Fin.ext (by
    match a with
    | ⟨0, _⟩ => rfl
    | ⟨1, _⟩ => rfl
    | ⟨2, _⟩ => exact Nat.lt_one_iff.mp h1))

/-- The sum over the two cores of a [2,16,16] array, at an entry of the [16,16] result. -/
theorem mat_sum (GM : (⟨S2x16x16, .f32⟩ : BufTy).Contents (Elt Ideal)) :
    Host.reduceAdd GM (constant (F := Ideal) S_ .f32 0x00000000#32) reducesTo_S2x16x16_S16x16_d0 h_S_
      = fun i => ∑ c0 : Fin 2, GM (ix3 c0 (⟨(i 0).val, (i 0).isLt⟩ : Fin 16) (⟨(i 1).val, (i 1).isLt⟩ : Fin 16)) := by
  funext i
  simp only [Host.reduceAdd, Ideal.hostReduceAdd_def]
  rw [Ideal.hostReduceAdd_single reducesTo_S2x16x16_S16x16_d0 (by decide)]
  show Ideal.ofBits .f32 0x00000000#32 + _ = _
  rw [Ideal.ofBits_zero_f32, zero_add]
  refine Finset.sum_congr rfl fun k _ => ?_
  exact congrArg GM (funext fun a => Fin.ext (by
    match a with
    | ⟨0, _⟩ => rfl
    | ⟨1, _⟩ => rfl
    | ⟨2, _⟩ => rfl))

/-- The same sum after the [16,1] result is reshaped to [16]. -/
theorem row_sum (G : (⟨S2x16x1, .f32⟩ : BufTy).Contents (Elt Ideal)) :
    shapeCast S16 (Host.reduceAdd G (constant (F := Ideal) S_ .f32 0x00000000#32) reducesTo_S2x16x1_S16x1_d0 h_S_)
        shapeCasts_S16x1_S16
      = fun i => ∑ c0 : Fin 2, G (ix3 c0 (⟨(i 0).val, (i 0).isLt⟩ : Fin 16) (0 : Fin 1)) := by
  funext i
  rw [core_sum]
  refine (shapeCast_apply _ shapeCasts_S16x1_S16 i (ix2 (⟨(i 0).val, (i 0).isLt⟩ : Fin 16) (0 : Fin 1)) ?_).trans rfl
  rewrite [Shape.rowMajor_val_two, Shape.rowMajor_val_one]
  show (i 0).val * 1 + 0 = (i 0).val
  omega

/-- The sum over the sixteen images of the sum over the two cores. -/
theorem total_sum (G : (⟨S2x16x1, .f32⟩ : BufTy).Contents (Elt Ideal)) :
    Host.reduceAdd (Host.reduceAdd G (constant (F := Ideal) S_ .f32 0x00000000#32) reducesTo_S2x16x1_S16x1_d0 h_S_)
        (constant (F := Ideal) S_ .f32 0x00000000#32) reducesTo_S16x1_S_d0_1 h_S_
      = fun _ => ∑ b : Fin 16, ∑ c0 : Fin 2, G (ix3 c0 b (0 : Fin 1)) := by
  funext i
  rw [core_sum]
  simp only [Host.reduceAdd, Ideal.hostReduceAdd_def]
  rw [Ideal.hostReduceAdd_total reducesTo_S16x1_S_d0_1 (fun b => b.elim0)]
  show Ideal.ofBits .f32 0x00000000#32 + _ = _
  rw [Ideal.ofBits_zero_f32, zero_add, sum_idx2]
  refine Finset.sum_congr rfl fun b _ => ?_
  rw [Fin.sum_univ_one]

/-! ## An input window's block is a tile of the flattened argument -/

open Idealize.ShloMosaic.TcCoe

/-- Entry (b, n) of an argument flattened to [16, 262144] is pixel n of image b. -/
theorem reshape_at (x : (⟨S16x1x512x512, .f32⟩ : BufTy).Contents (Elt Ideal)) (j : S16x262144.Idx) :
    shapeCast S16x262144 x shapeCasts_S16x1x512x512_S16x262144 j
      = rows x ⟨(j 0).val, (j 0).isLt⟩ ⟨(j 1).val, (j 1).isLt⟩ := by
  have h0 : (j 0).val < 16 := (j 0).isLt
  have h1 : (j 1).val < 262144 := (j 1).isLt
  refine (shapeCast_apply x shapeCasts_S16x1x512x512_S16x262144 j
    (unflat ⟨(j 0).val, (j 0).isLt⟩ ⟨(j 1).val, (j 1).isLt⟩) ?_).trans rfl
  rewrite [Shape.rowMajor_val_four, Shape.rowMajor_val_two]
  show (((j 0).val * 1 + 0) * 512 + (j 1).val / 512) * 512 + (j 1).val % 512 = (j 0).val * 262144 + (j 1).val
  omega

/-- Two entries of the matrix of pixels with equal row and column numbers are the same entry. -/
theorem rows_congr (x : SArg.Idx → EReal) {b b' : Fin 16} {n n' : Fin 262144} (hb : b.val = b'.val)
    (hn : n.val = n'.val) : rows x b n = rows x b' n' := by
  rw [Fin.ext hb, Fin.ext hn]

variable (m : (ℓ : Loc nD τ sig) → Buf (Elt Ideal) ℓ)

/-- Window 0's block index at grid point t is (0, t). -/
theorem win_index0 : ∀ t : Fin grid0.N, win0_0.index t 0 = 0 ∧ win0_0.index t 1 = t.val := by
  decide +kernel

/-- The array window 0 reads is argument 0 flattened to [16, 262144]. -/
theorem V_v0 (c : Dev nD) :
    (V m c main_v0 : S16x262144.Idx → EReal)
      = shapeCast S16x262144 (m ((c : Thread nD τ).loc main_arg0)) shapeCasts_S16x1x512x512_S16x262144 := by
  dsimp only [V, V0]
  simp only [hostOps0, List.flatten_cons, List.flatten_nil, List.append_nil, List.cons_append, List.nil_append]
  after_results
  rfl

/-- Window 0's block at grid point t is columns 32768 t … 32768 t + 32767 of argument 0 read as 16 rows of pixels. -/
theorem blk0 (c : Dev nD) (t : Fin cfg0.N) (b : Fin 16) (j : Fin 32768) :
    (iblk m c 0 t : S16x32768.Idx → EReal) (ix2 b j)
      = rows (m ((c : Thread nD τ).loc main_arg0)) b
          ⟨t.val * 32768 + j.val, by have := t.isLt; have h8 : cfg0.N = 8 := N_0; omega⟩ := by
  unfold iblk
  rw [View.read_apply]
  show V m c main_v0 _ = _
  rw [V_v0, reshape_at]
  refine rows_congr _ ?_ ?_
  · show win0_0.index t 0 * 16 + 1 * b.val = b.val
    rw [(win_index0 t).1]; omega
  · show win0_0.index t 1 * 32768 + 1 * j.val = t.val * 32768 + j.val
    rw [(win_index0 t).2]; omega

/-- Window 1's block index at grid point t is (0, t). -/
theorem win_index1 : ∀ t : Fin grid0.N, win0_1.index t 0 = 0 ∧ win0_1.index t 1 = t.val := by
  decide +kernel

/-- The array window 1 reads is argument 1 flattened to [16, 262144]. -/
theorem V_v1 (c : Dev nD) :
    (V m c main_v1 : S16x262144.Idx → EReal)
      = shapeCast S16x262144 (m ((c : Thread nD τ).loc main_arg1)) shapeCasts_S16x1x512x512_S16x262144 := by
  dsimp only [V, V0]
  simp only [hostOps0, List.flatten_cons, List.flatten_nil, List.append_nil, List.cons_append, List.nil_append]
  after_results
  rfl

/-- Window 1's block at grid point t is columns 32768 t … 32768 t + 32767 of argument 1 read as 16 rows of pixels. -/
theorem blk1 (c : Dev nD) (t : Fin cfg0.N) (b : Fin 16) (j : Fin 32768) :
    (iblk m c 1 t : S16x32768.Idx → EReal) (ix2 b j)
      = rows (m ((c : Thread nD τ).loc main_arg1)) b
          ⟨t.val * 32768 + j.val, by have := t.isLt; have h8 : cfg0.N = 8 := N_0; omega⟩ := by
  unfold iblk
  rw [View.read_apply]
  show V m c main_v1 _ = _
  rw [V_v1, reshape_at]
  refine rows_congr _ ?_ ?_
  · show win0_1.index t 0 * 16 + 1 * b.val = b.val
    rw [(win_index1 t).1]; omega
  · show win0_1.index t 1 * 32768 + 1 * j.val = t.val * 32768 + j.val
    rw [(win_index1 t).2]; omega

/-- Window 2's block index at grid point t is (0, t). -/
theorem win_index2 : ∀ t : Fin grid0.N, win0_2.index t 0 = 0 ∧ win0_2.index t 1 = t.val := by
  decide +kernel

/-- The array window 2 reads is argument 2 flattened to [16, 262144]. -/
theorem V_v2 (c : Dev nD) :
    (V m c main_v2 : S16x262144.Idx → EReal)
      = shapeCast S16x262144 (m ((c : Thread nD τ).loc main_arg2)) shapeCasts_S16x1x512x512_S16x262144 := by
  dsimp only [V, V0]
  simp only [hostOps0, List.flatten_cons, List.flatten_nil, List.append_nil, List.cons_append, List.nil_append]
  after_results
  rfl

/-- Window 2's block at grid point t is columns 32768 t … 32768 t + 32767 of argument 2 read as 16 rows of pixels. -/
theorem blk2 (c : Dev nD) (t : Fin cfg0.N) (b : Fin 16) (j : Fin 32768) :
    (iblk m c 2 t : S16x32768.Idx → EReal) (ix2 b j)
      = rows (m ((c : Thread nD τ).loc main_arg2)) b
          ⟨t.val * 32768 + j.val, by have := t.isLt; have h8 : cfg0.N = 8 := N_0; omega⟩ := by
  unfold iblk
  rw [View.read_apply]
  show V m c main_v2 _ = _
  rw [V_v2, reshape_at]
  refine rows_congr _ ?_ ?_
  · show win0_2.index t 0 * 16 + 1 * b.val = b.val
    rw [(win_index2 t).1]; omega
  · show win0_2.index t 1 * 32768 + 1 * j.val = t.val * 32768 + j.val
    rw [(win_index2 t).2]; omega

/-- Window 3's block index at grid point t is (0, t). -/
theorem win_index3 : ∀ t : Fin grid0.N, win0_3.index t 0 = 0 ∧ win0_3.index t 1 = t.val := by
  decide +kernel

/-- The array window 3 reads is argument 3 flattened to [16, 262144]. -/
theorem V_v3 (c : Dev nD) :
    (V m c main_v3 : S16x262144.Idx → EReal)
      = shapeCast S16x262144 (m ((c : Thread nD τ).loc main_arg3)) shapeCasts_S16x1x512x512_S16x262144 := by
  dsimp only [V, V0]
  simp only [hostOps0, List.flatten_cons, List.flatten_nil, List.append_nil, List.cons_append, List.nil_append]
  after_results
  rfl

/-- Window 3's block at grid point t is columns 32768 t … 32768 t + 32767 of argument 3 read as 16 rows of pixels. -/
theorem blk3 (c : Dev nD) (t : Fin cfg0.N) (b : Fin 16) (j : Fin 32768) :
    (iblk m c 3 t : S16x32768.Idx → EReal) (ix2 b j)
      = rows (m ((c : Thread nD τ).loc main_arg3)) b
          ⟨t.val * 32768 + j.val, by have := t.isLt; have h8 : cfg0.N = 8 := N_0; omega⟩ := by
  unfold iblk
  rw [View.read_apply]
  show V m c main_v3 _ = _
  rw [V_v3, reshape_at]
  refine rows_congr _ ?_ ?_
  · show win0_3.index t 0 * 16 + 1 * b.val = b.val
    rw [(win_index3 t).1]; omega
  · show win0_3.index t 1 * 32768 + 1 * j.val = t.val * 32768 + j.val
    rw [(win_index3 t).2]; omega

/-- Window 4's block index at grid point t is (0, t). -/
theorem win_index4 : ∀ t : Fin grid0.N, win0_4.index t 0 = 0 ∧ win0_4.index t 1 = t.val := by
  decide +kernel

/-- The array window 4 reads is argument 4 flattened to [16, 262144]. -/
theorem V_v4 (c : Dev nD) :
    (V m c main_v4 : S16x262144.Idx → EReal)
      = shapeCast S16x262144 (m ((c : Thread nD τ).loc main_arg4)) shapeCasts_S16x1x512x512_S16x262144 := by
  dsimp only [V, V0]
  simp only [hostOps0, List.flatten_cons, List.flatten_nil, List.append_nil, List.cons_append, List.nil_append]
  after_results
  rfl

/-- Window 4's block at grid point t is columns 32768 t … 32768 t + 32767 of argument 4 read as 16 rows of pixels. -/
theorem blk4 (c : Dev nD) (t : Fin cfg0.N) (b : Fin 16) (j : Fin 32768) :
    (iblk m c 4 t : S16x32768.Idx → EReal) (ix2 b j)
      = rows (m ((c : Thread nD τ).loc main_arg4)) b
          ⟨t.val * 32768 + j.val, by have := t.isLt; have h8 : cfg0.N = 8 := N_0; omega⟩ := by
  unfold iblk
  rw [View.read_apply]
  show V m c main_v4 _ = _
  rw [V_v4, reshape_at]
  refine rows_congr _ ?_ ?_
  · show win0_4.index t 0 * 16 + 1 * b.val = b.val
    rw [(win_index4 t).1]; omega
  · show win0_4.index t 1 * 32768 + 1 * j.val = t.val * 32768 + j.val
    rw [(win_index4 t).2]; omega

end Cert.KernelIdeal.HostSums

end
-- ==== Proof.LossRegroup.lean ====
/-
  Two regroupings of finite sums on the extended reals.

  Addition on the extended reals is commutative and associative with neutral element 0.  So two chains of four
  additions, each started from 0, added together, are the sum of the eight terms; and a sum over 262144 columns is
  the sum over eight tiles of 32768 columns of the sums within each tile.
-/
import proofs.«134782_j77738908057903_2_alg».proof.Proof.LossSpec
import Mathlib.Algebra.BigOperators.Fin

noncomputable section

namespace Cert.LossRegroup

open Cert.LossSpec

/-- Two chains of four additions from 0, one over the first four terms and one over the last four, add up to the
    sum of all eight. -/
theorem chains_eq_sum (f : Fin 8 → EReal) :
    (((0 + f 0) + f 1) + f 2) + f 3 + ((((0 + f 4) + f 5) + f 6) + f 7) = ∑ t : Fin 8, f t := by
  rw [Fin.sum_univ_eight]
  simp only [zero_add, add_assoc]

/-- The sum over eight tiles of 32768 columns of the sums within each tile is the sum over all 262144 columns. -/
theorem sum_tiles8 (g : Fin 262144 → EReal) :
    ∑ t : Fin 8, ∑ j : Fin 32768,
        g ⟨t.val * 32768 + j.val, by have := t.isLt; have := j.isLt; omega⟩
      = ∑ n : Fin 262144, g n := by
  refine ((sum_tiles 8 32768 g).trans ?_).symm
  refine Finset.sum_congr rfl fun t _ => Finset.sum_congr rfl fun j _ => congrArg g (Fin.ext ?_)
  show j.val + 32768 * t.val = t.val * 32768 + j.val
  omega

end Cert.LossRegroup

end
-- ==== Proof.KernelIdeal.KSums.lean ====
/-
  The two cores' partial results add up to the specification's sums.  A result's entry for image b at core c0 is the
  running sum over the core's four tiles; adding the two cores gives the sum over all eight tiles, each a sum over the
  tile's 32768 pixels of an expression of the arguments at pixel (tile * 32768 + j), and the eight tiles are all 262144
  pixels of the image.
-/
import proofs.«134782_j77738908057903_2_alg».proof.Proof.KernelIdeal.Final
import proofs.«134782_j77738908057903_2_alg».proof.Proof.KernelIdeal.HostSums
import proofs.«134782_j77738908057903_2_alg».proof.Proof.LossRegroup

set_option maxRecDepth 16384

noncomputable section

namespace Cert.KernelIdeal.KSums

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Acc Cert.KernelIdeal.AccVal Cert.KernelIdeal.Final Cert.KernelIdeal.HostSums Cert.LossSpec Cert.LossRegroup

variable (m : (ℓ : Loc nD τ sig) → Buf (Elt Ideal) ℓ) (c : Dev nD)

theorem lt8 (t : Fin 8) : t.val < cfg0.N := by have h8 : cfg0.N = 8 := N_0; have := t.isLt; omega

/-- The running sums at the two cores' last positions add up to the sum over all eight positions. -/
theorem cores_eq_sum (f : (n : ℕ) → n < cfg0.N → EReal) (h3 : 3 < cfg0.N) (h7 : 7 < cfg0.N) :
    accv f 3 h3 + accv f 7 h7 = ∑ t : Fin 8, f t.val (lt8 t) := by
  have e3 : accv f 3 h3 = (((0 + f 0 (lt8 0)) + f 1 (lt8 1)) + f 2 (lt8 2)) + f 3 (lt8 3) := rfl
  have e7 : accv f 7 h7 = (((0 + f 4 (lt8 4)) + f 5 (lt8 5)) + f 6 (lt8 6)) + f 7 (lt8 7) := rfl
  rw [e3, e7]
  exact chains_eq_sum (fun t => f t.val (lt8 t))

/-- When position n contributes the sum of g over tile n, the two cores together give the sum of g over all pixels. -/
theorem cores_total (g : Fin 262144 → EReal) (f : (n : ℕ) → n < cfg0.N → EReal)
    (hf : ∀ (t : Fin 8), f t.val (lt8 t) = ∑ j : Fin 32768, g ⟨t.val * 32768 + j.val, by have := t.isLt; have := j.isLt; omega⟩)
    (h3 : 3 < cfg0.N) (h7 : 7 < cfg0.N) : accv f 3 h3 + accv f 7 h7 = ∑ n : Fin 262144, g n := by
  rw [cores_eq_sum f h3 h7, ← sum_tiles8 g]
  exact Finset.sum_congr rfl fun t _ => hf t

/-- Result 0: the two cores' entries for image b add up to the sum over the image's pixels. -/
theorem pair5 (b : Fin 16) :
    ∑ c0 : Fin 2, G5 m c (ix3 c0 b (0 : Fin 1)) = ∑ n : Fin 262144, (fun n => sg (rows (m ((c : Thread nD τ).loc main_arg0)) b n)) n := by
  rw [Fin.sum_univ_two]
  refine cores_total (fun n => sg (rows (m ((c : Thread nD τ).loc main_arg0)) b n)) (fun n h => ctr5 m c n h b) (fun t => ?_) _ _
  unfold ctr5
  refine Finset.sum_congr rfl fun j _ => ?_
  rw [blk0 m c]

/-- Result 1: the two cores' entries for image b add up to the sum over the image's pixels. -/
theorem pair6 (b : Fin 16) :
    ∑ c0 : Fin 2, G6 m c (ix3 c0 b (0 : Fin 1)) = ∑ n : Fin 262144, (fun n => rows (m ((c : Thread nD τ).loc main_arg1)) b n) n := by
  rw [Fin.sum_univ_two]
  refine cores_total (fun n => rows (m ((c : Thread nD τ).loc main_arg1)) b n) (fun n h => ctr6 m c n h b) (fun t => ?_) _ _
  unfold ctr6
  refine Finset.sum_congr rfl fun j _ => ?_
  rw [blk1 m c]

/-- Result 2: the two cores' entries for image b add up to the sum over the image's pixels. -/
theorem pair7 (b : Fin 16) :
    ∑ c0 : Fin 2, G7 m c (ix3 c0 b (0 : Fin 1)) = ∑ n : Fin 262144, (fun n => sg (rows (m ((c : Thread nD τ).loc main_arg0)) b n) * rows (m ((c : Thread nD τ).loc main_arg1)) b n) n := by
  rw [Fin.sum_univ_two]
  refine cores_total (fun n => sg (rows (m ((c : Thread nD τ).loc main_arg0)) b n) * rows (m ((c : Thread nD τ).loc main_arg1)) b n) (fun n h => ctr7 m c n h b) (fun t => ?_) _ _
  unfold ctr7
  refine Finset.sum_congr rfl fun j _ => ?_
  rw [blk0 m c, blk1 m c]

/-- Result 3: the two cores' entries for image b add up to the sum over the image's pixels. -/
theorem pair8 (b : Fin 16) :
    ∑ c0 : Fin 2, G8 m c (ix3 c0 b (0 : Fin 1)) = ∑ n : Fin 262144, (fun n => sg (rows (m ((c : Thread nD τ).loc main_arg2)) b n) * sg (rows (m ((c : Thread nD τ).loc main_arg2)) b n)) n := by
  rw [Fin.sum_univ_two]
  refine cores_total (fun n => sg (rows (m ((c : Thread nD τ).loc main_arg2)) b n) * sg (rows (m ((c : Thread nD τ).loc main_arg2)) b n)) (fun n h => ctr8 m c n h b) (fun t => ?_) _ _
  unfold ctr8
  refine Finset.sum_congr rfl fun j _ => ?_
  rw [blk2 m c]

/-- Result 4: the two cores' entries for image b add up to the sum over the image's pixels. -/
theorem pair9 (b : Fin 16) :
    ∑ c0 : Fin 2, G9 m c (ix3 c0 b (0 : Fin 1)) = ∑ n : Fin 262144, (fun n => sg (rows (m ((c : Thread nD τ).loc main_arg3)) b n) * sg (rows (m ((c : Thread nD τ).loc main_arg3)) b n)) n := by
  rw [Fin.sum_univ_two]
  refine cores_total (fun n => sg (rows (m ((c : Thread nD τ).loc main_arg3)) b n) * sg (rows (m ((c : Thread nD τ).loc main_arg3)) b n)) (fun n h => ctr9 m c n h b) (fun t => ?_) _ _
  unfold ctr9
  refine Finset.sum_congr rfl fun j _ => ?_
  rw [blk3 m c]

/-- Result 5: the two cores' entries for image b add up to the sum over the image's pixels. -/
theorem pair10 (b : Fin 16) :
    ∑ c0 : Fin 2, G10 m c (ix3 c0 b (0 : Fin 1)) = ∑ n : Fin 262144, (fun n => (rows (m ((c : Thread nD τ).loc main_arg4)) b n * (sg (rows (m ((c : Thread nD τ).loc main_arg2)) b n) - sg (rows (m ((c : Thread nD τ).loc main_arg3)) b n))) * (rows (m ((c : Thread nD τ).loc main_arg4)) b n * (sg (rows (m ((c : Thread nD τ).loc main_arg2)) b n) - sg (rows (m ((c : Thread nD τ).loc main_arg3)) b n)))) n := by
  rw [Fin.sum_univ_two]
  refine cores_total (fun n => (rows (m ((c : Thread nD τ).loc main_arg4)) b n * (sg (rows (m ((c : Thread nD τ).loc main_arg2)) b n) - sg (rows (m ((c : Thread nD τ).loc main_arg3)) b n))) * (rows (m ((c : Thread nD τ).loc main_arg4)) b n * (sg (rows (m ((c : Thread nD τ).loc main_arg2)) b n) - sg (rows (m ((c : Thread nD τ).loc main_arg3)) b n)))) (fun n h => ctr10 m c n h b) (fun t => ?_) _ _
  unfold ctr10 msk
  refine Finset.sum_congr rfl fun j _ => ?_
  rw [blk4 m c, blk2 m c, blk3 m c]

/-- Result 6: the two cores' entries for the pair (b1, b2) add up to the Gram sum. -/
theorem pair11 (b1 b2 : Fin 16) :
    ∑ c0 : Fin 2, G11 m c (ix3 c0 b1 b2) = ∑ n : Fin 262144, (fun n => sg (rows (m ((c : Thread nD τ).loc main_arg2)) b1 n) * sg (rows (m ((c : Thread nD τ).loc main_arg3)) b2 n)) n := by
  rw [Fin.sum_univ_two]
  refine cores_total (fun n => sg (rows (m ((c : Thread nD τ).loc main_arg2)) b1 n) * sg (rows (m ((c : Thread nD τ).loc main_arg3)) b2 n)) (fun n h => ctr11 m c n h b1 b2) (fun t => ?_) _ _
  unfold ctr11
  refine Finset.sum_congr rfl fun j _ => ?_
  rw [blk2 m c, blk3 m c]

end Cert.KernelIdeal.KSums

end
-- ==== Proof.KernelIdeal.KQuant.lean ====
/-
  The seven quantities the later host lines compute from the result arrays are the specification's sums of the arguments:
  the three totals (over both cores, all images and all pixels), the three per-image sums, and the Gram matrix.
-/
import proofs.«134782_j77738908057903_2_alg».proof.Proof.KernelIdeal.KSums

set_option maxRecDepth 16384

noncomputable section

namespace Cert.KernelIdeal.KQuant

open Idealize.ShloMosaic Idealize.ShloMosaic.TcCoe Idealize.SL.Sem Idealize.ShloMosaic.ValueIdx
open Cert.KernelIdeal Cert.KernelIdeal.Gen Cert.KernelIdeal.Acc Cert.KernelIdeal.AccVal Cert.KernelIdeal.Final Cert.KernelIdeal.HostSums Cert.KernelIdeal.KSums Cert.LossSpec

variable (m : (ℓ : Loc nD τ sig) → Buf (Elt Ideal) ℓ) (c : Dev nD)

theorem q_p : Host.reduceAdd (Host.reduceAdd (G5 m c) (constant (F := Ideal) S_ .f32 0x00000000#32) reducesTo_S2x16x1_S16x1_d0 h_S_) (constant (F := Ideal) S_ .f32 0x00000000#32) reducesTo_S16x1_S_d0_1 h_S_ = fun _ => pSum (rows (m ((c : Thread nD τ).loc main_arg0))) := by
  refine (total_sum (G5 m c)).trans ?_
  funext _; unfold pSum
  exact Finset.sum_congr rfl fun b _ => pair5 m c b

theorem q_g : Host.reduceAdd (Host.reduceAdd (G6 m c) (constant (F := Ideal) S_ .f32 0x00000000#32) reducesTo_S2x16x1_S16x1_d0 h_S_) (constant (F := Ideal) S_ .f32 0x00000000#32) reducesTo_S16x1_S_d0_1 h_S_ = fun _ => gSum (rows (m ((c : Thread nD τ).loc main_arg1))) := by
  refine (total_sum (G6 m c)).trans ?_
  funext _; unfold gSum
  exact Finset.sum_congr rfl fun b _ => pair6 m c b

theorem q_pg : Host.reduceAdd (Host.reduceAdd (G7 m c) (constant (F := Ideal) S_ .f32 0x00000000#32) reducesTo_S2x16x1_S16x1_d0 h_S_) (constant (F := Ideal) S_ .f32 0x00000000#32) reducesTo_S16x1_S_d0_1 h_S_ = fun _ => pgSum (rows (m ((c : Thread nD τ).loc main_arg0))) (rows (m ((c : Thread nD τ).loc main_arg1))) := by
  refine (total_sum (G7 m c)).trans ?_
  funext _; unfold pgSum
  exact Finset.sum_congr rfl fun b _ => pair7 m c b

theorem q_s1 : shapeCast S16 (Host.reduceAdd (G8 m c) (constant (F := Ideal) S_ .f32 0x00000000#32) reducesTo_S2x16x1_S16x1_d0 h_S_) shapeCasts_S16x1_S16 = fun i => s1sq (rows (m ((c : Thread nD τ).loc main_arg2))) ⟨(i 0).val, (i 0).isLt⟩ := by
  refine (row_sum (G8 m c)).trans ?_
  funext i; unfold s1sq
  exact pair8 m c _

theorem q_s2 : shapeCast S16 (Host.reduceAdd (G9 m c) (constant (F := Ideal) S_ .f32 0x00000000#32) reducesTo_S2x16x1_S16x1_d0 h_S_) shapeCasts_S16x1_S16 = fun i => s2sq (rows (m ((c : Thread nD τ).loc main_arg3))) ⟨(i 0).val, (i 0).isLt⟩ := by
  refine (row_sum (G9 m c)).trans ?_
  funext i; unfold s2sq
  exact pair9 m c _

theorem q_md : shapeCast S16 (Host.reduceAdd (G10 m c) (constant (F := Ideal) S_ .f32 0x00000000#32) reducesTo_S2x16x1_S16x1_d0 h_S_) shapeCasts_S16x1_S16 = fun i => mdsq (rows (m ((c : Thread nD τ).loc main_arg2))) (rows (m ((c : Thread nD τ).loc main_arg3))) (rows (m ((c : Thread nD τ).loc main_arg4))) ⟨(i 0).val, (i 0).isLt⟩ := by
  refine (row_sum (G10 m c)).trans ?_
  funext i; unfold mdsq
  exact pair10 m c _

theorem q_cr : Host.reduceAdd (G11 m c) (constant (F := Ideal) S_ .f32 0x00000000#32) reducesTo_S2x16x16_S16x16_d0 h_S_ = fun i => cross (rows (m ((c : Thread nD τ).loc main_arg2))) (rows (m ((c : Thread nD τ).loc main_arg3))) ⟨(i 0).val, (i 0).isLt⟩ ⟨(i 1).val, (i 1).isLt⟩ := by
  refine (mat_sum (G11 m c)).trans ?_
  funext i; unfold cross
  exact pair11 m c _ _

end Cert.KernelIdeal.KQuant

end
-- ==== Proof.LossTail.lean ====
/-
  The arithmetic both programs apply to the seven reduced quantities, as one function each: the dice loss of the three
  total sums, (2 * pg + 0.1) / (p + g + 0.1) subtracted from 1, and the contrastive loss of the two per-image sums of
  squares, the per-image masked squared difference and the Gram matrix: with N the number of pixels, the positive
  similarity exp(-(md / N) / 0.1), the pairwise mean squared error sq1[b1] + sq2[b2] - 2 * cross[b1, b2] / N, its
  similarity exp(-mse / 0.1) summed off the diagonal, and the mean over the images of -log(pos / (pos + neg)).
  The reference's own stages, from the seven sums on, are these functions of them, by unfolding definitions.
-/
import proofs.«134782_j77738908057903_2_alg».proof.Proof.Gen.ReferenceIdeal.Read

noncomputable section

namespace Cert.LossTail

open Cert.ReferenceIdeal Cert.ReferenceIdeal.Gen Idealize.ShloMosaic Idealize.ShloMosaic.TcCoe Idealize.SL.Sem Idealize.ShloMosaic.StableHlo

variable {F : FTy → Type} [FloatOps F]

/-- The dice loss from the sum of s(pred), the sum of gt and the sum of their products. -/
def dice (p g pg : FVec F S_ .f32) : FVec F S_ .f32 :=
  (subf (constant S_ .f32 0x3F800000#32) (Host.divf (addf (mulf (constant S_ .f32 0x40000000#32) pg) (constant S_ .f32 0x3DCCCCCD#32)) (addf (addf p g) (constant S_ .f32 0x3DCCCCCD#32))))

/-- The contrastive loss from the per-image sums of squares, the masked squared differences and the Gram matrix. -/
def contrast (s1 s2 md : FVec F S16 .f32) (cr : FVec F S16x16 .f32) : FVec F S_ .f32 :=
  (Host.divf (Host.reduceAdd (Host.negf (Host.log (Host.divf (Host.exp (Host.divf (Host.negf (Host.divf md (broadcastInDim S16 ![] bcast_S_S16 (constant S_ .f32 0x48800000#32)))) (broadcastInDim S16 ![] bcast_S_S16 (constant S_ .f32 0x3DCCCCCD#32)))) (addf (Host.exp (Host.divf (Host.negf (Host.divf md (broadcastInDim S16 ![] bcast_S_S16 (constant S_ .f32 0x48800000#32)))) (broadcastInDim S16 ![] bcast_S_S16 (constant S_ .f32 0x3DCCCCCD#32)))) (Host.reduceAdd (mulf (Host.exp (Host.divf (Host.negf (subf (addf (broadcastInDim S16x16 ![0, 1] bcast_S16x1_S16x16_0_1 (broadcastInDim S16x1 ![0] bcast_S16_S16x1_0 (Host.divf s1 (broadcastInDim S16 ![] bcast_S_S16 (constant S_ .f32 0x48800000#32))))) (broadcastInDim S16x16 ![0, 1] bcast_S1x16_S16x16_0_1 (broadcastInDim S1x16 ![1] bcast_S16_S1x16_1 (Host.divf s2 (broadcastInDim S16 ![] bcast_S_S16 (constant S_ .f32 0x48800000#32)))))) (mulf (broadcastInDim S16x16 ![] bcast_S_S16x16 (constant S_ .f32 0x40000000#32)) (Host.divf cr (broadcastInDim S16x16 ![] bcast_S_S16x16 (constant S_ .f32 0x48800000#32)))))) (broadcastInDim S16x16 ![] bcast_S_S16x16 (constant S_ .f32 0x3DCCCCCD#32)))) (subf (broadcastInDim S16x16 ![] bcast_S_S16x16 (constant S_ .f32 0x3F800000#32)) (uitofp .f32 (cmpi .eq (addi (iotaInDim S16x16 32 0) (broadcastInDim S16x16 ![] bcast_S_S16x16 (constantI S_ 32 0#32))) (iotaInDim S16x16 32 1))))) (constant S_ .f32 0x00000000#32) reducesTo_S16x16_S16_d1 h_S_))))) (constant S_ .f32 0x00000000#32) reducesTo_S16_S_d0 h_S_) (constant S_ .f32 0x41800000#32))

/-- The total: the dice loss plus 1 * (0 + the contrastive loss). -/
def total (p g pg : FVec F S_ .f32) (s1 s2 md : FVec F S16 .f32) (cr : FVec F S16x16 .f32) : FVec F S_ .f32 :=
  addf (dice p g pg) (mulf (constant S_ .f32 0x3F800000#32) (addf (constant S_ .f32 0x00000000#32) (contrast s1 s2 md cr)))

open Cert.ReferenceIdeal.Read in
theorem ref_dice (x0 x1 : (⟨S16x1x512x512, .f32⟩ : BufTy).Contents (Elt F)) :
    val_main_v17 (F := F) x0 x1 = dice (val_main_v12 (F := F) x0) (val_main_v13 (F := F) x1) (val_main_v9 (F := F) x0 x1) := rfl

open Cert.ReferenceIdeal.Read in
theorem ref_contrast (x2 x3 x4 : (⟨S16x1x512x512, .f32⟩ : BufTy).Contents (Elt F)) :
    val_main_v81 (F := F) x2 x3 x4 = contrast (val_main_v43 (F := F) x2) (val_main_v47 (F := F) x3) (val_main_v33 (F := F) x2 x3 x4) (val_main_v51 (F := F) x2 x3) := rfl

open Cert.ReferenceIdeal.Read in
theorem ref_total (x0 x1 x2 x3 x4 : (⟨S16x1x512x512, .f32⟩ : BufTy).Contents (Elt F)) :
    val_main_v84 (F := F) x0 x1 x2 x3 x4 = total (val_main_v12 (F := F) x0) (val_main_v13 (F := F) x1) (val_main_v9 (F := F) x0 x1)
      (val_main_v43 (F := F) x2) (val_main_v47 (F := F) x3) (val_main_v33 (F := F) x2 x3 x4) (val_main_v51 (F := F) x2 x3) := rfl

end Cert.LossTail

end
-- ==== Proof.KernelIdeal.TailRead.lean ====
/-
  What the host operations after the kernel leave in the four result buffers.

  From any contents of the kernel's seven result arrays, the host first adds the two per-core partial blocks of each
  array, then adds the sixteen per-image entries of the first three (the three total sums of the dice term) and
  reshapes the next three to vectors of sixteen; the remaining operations are the arithmetic of the dice loss, of the
  contrastive loss and of their total, applied to these seven reduced quantities.
-/
import proofs.«134782_j77738908057903_2_alg».proof.Proof.KernelIdeal.Shared
import proofs.«134782_j77738908057903_2_alg».proof.Proof.LossTail
import Idealize.ShloMosaic.Lib.StableHlo.Run

set_option maxRecDepth 16384

noncomputable section

namespace Cert.KernelIdeal.TailRead

open Cert.KernelIdeal Cert.KernelIdeal.Gen Idealize.ShloMosaic Idealize.ShloMosaic.TcCoe Idealize.ShloMosaic.StableHlo

variable {F : FTy → Type} [FloatOps F]

set_option maxHeartbeats 40000000 in
/-- The third result is the constant 0. -/
theorem tail_zero (W : Valuation τ sig (Elt F)) :
    StableHlo.after hostOps1 W (Proc.devRef .tc main_cst_26) = constant S_ .f32 0x00000000#32 := by
  after_results_simp <;> rfl

set_option maxHeartbeats 40000000 in
/-- The second result is the dice loss of the three total sums. -/
theorem tail_dice (W : Valuation τ sig (Elt F)) :
    StableHlo.after hostOps1 W (Proc.devRef .tc main_v21)
      = Cert.LossTail.dice
          (Host.reduceAdd (Host.reduceAdd (W (Proc.devRef .tc main_v5_0)) (constant S_ .f32 0x00000000#32) reducesTo_S2x16x1_S16x1_d0 h_S_) (constant S_ .f32 0x00000000#32) reducesTo_S16x1_S_d0_1 h_S_)
          (Host.reduceAdd (Host.reduceAdd (W (Proc.devRef .tc main_v5_1)) (constant S_ .f32 0x00000000#32) reducesTo_S2x16x1_S16x1_d0 h_S_) (constant S_ .f32 0x00000000#32) reducesTo_S16x1_S_d0_1 h_S_)
          (Host.reduceAdd (Host.reduceAdd (W (Proc.devRef .tc main_v5_2)) (constant S_ .f32 0x00000000#32) reducesTo_S2x16x1_S16x1_d0 h_S_) (constant S_ .f32 0x00000000#32) reducesTo_S16x1_S_d0_1 h_S_) := by
  after_results_simp <;> rfl

set_option maxHeartbeats 40000000 in
/-- The fourth result is the contrastive loss of the three per-image sums and the Gram matrix. -/
theorem tail_contrast (W : Valuation τ sig (Elt F)) :
    StableHlo.after hostOps1 W (Proc.devRef .tc main_v64)
      = Cert.LossTail.contrast
          (shapeCast S16 (Host.reduceAdd (W (Proc.devRef .tc main_v5_3)) (constant S_ .f32 0x00000000#32) reducesTo_S2x16x1_S16x1_d0 h_S_) shapeCasts_S16x1_S16)
          (shapeCast S16 (Host.reduceAdd (W (Proc.devRef .tc main_v5_4)) (constant S_ .f32 0x00000000#32) reducesTo_S2x16x1_S16x1_d0 h_S_) shapeCasts_S16x1_S16)
          (shapeCast S16 (Host.reduceAdd (W (Proc.devRef .tc main_v5_5)) (constant S_ .f32 0x00000000#32) reducesTo_S2x16x1_S16x1_d0 h_S_) shapeCasts_S16x1_S16)
          (Host.reduceAdd (W (Proc.devRef .tc main_v5_6)) (constant S_ .f32 0x00000000#32) reducesTo_S2x16x16_S16x16_d0 h_S_) := by
  after_results_simp <;> rfl

set_option maxHeartbeats 40000000 in
/-- The first result is the total of the two losses. -/
theorem tail_total (W : Valuation τ sig (Elt F)) :
    StableHlo.after hostOps1 W (Proc.devRef .tc main_v67)
      = Cert.LossTail.total
          (Host.reduceAdd (Host.reduceAdd (W (Proc.devRef .tc main_v5_0)) (constant S_ .f32 0x00000000#32) reducesTo_S2x16x1_S16x1_d0 h_S_) (constant S_ .f32 0x00000000#32) reducesTo_S16x1_S_d0_1 h_S_)
          (Host.reduceAdd (Host.reduceAdd (W (Proc.devRef .tc main_v5_1)) (constant S_ .f32 0x00000000#32) reducesTo_S2x16x1_S16x1_d0 h_S_) (constant S_ .f32 0x00000000#32) reducesTo_S16x1_S_d0_1 h_S_)
          (Host.reduceAdd (Host.reduceAdd (W (Proc.devRef .tc main_v5_2)) (constant S_ .f32 0x00000000#32) reducesTo_S2x16x1_S16x1_d0 h_S_) (constant S_ .f32 0x00000000#32) reducesTo_S16x1_S_d0_1 h_S_)
          (shapeCast S16 (Host.reduceAdd (W (Proc.devRef .tc main_v5_3)) (constant S_ .f32 0x00000000#32) reducesTo_S2x16x1_S16x1_d0 h_S_) shapeCasts_S16x1_S16)
          (shapeCast S16 (Host.reduceAdd (W (Proc.devRef .tc main_v5_4)) (constant S_ .f32 0x00000000#32) reducesTo_S2x16x1_S16x1_d0 h_S_) shapeCasts_S16x1_S16)
          (shapeCast S16 (Host.reduceAdd (W (Proc.devRef .tc main_v5_5)) (constant S_ .f32 0x00000000#32) reducesTo_S2x16x1_S16x1_d0 h_S_) shapeCasts_S16x1_S16)
          (Host.reduceAdd (W (Proc.devRef .tc main_v5_6)) (constant S_ .f32 0x00000000#32) reducesTo_S2x16x16_S16x16_d0 h_S_) := by
  after_results_simp <;> rfl

end Cert.KernelIdeal.TailRead

end
-- ==== Proof.KernelIdeal.KRun.lean ====
/-
  The idealized kernel's run, read: its four results are the loss functions of the specification's sums of its own
  arguments, and its arguments end unchanged.  The later host lines find the seven result arrays at what the region left
  (the two cores' running sums) and every other buffer untouched; they reduce the arrays to the seven quantities, which
  are the specification's sums, and apply the final arithmetic.
-/
import proofs.«134782_j77738908057903_2_alg».proof.Proof.KernelIdeal.KQuant
import proofs.«134782_j77738908057903_2_alg».proof.Proof.KernelIdeal.TailRead
import proofs.«134782_j77738908057903_2_alg».proof.Proof.LossTail

set_option maxRecDepth 16384

noncomputable section

namespace Cert.KernelIdeal.KRun

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Acc Cert.KernelIdeal.Final Cert.KernelIdeal.KQuant Cert.LossSpec

variable (m : (ℓ : Loc nD τ sig) → Buf (Elt Ideal) ℓ) (ρ : Dev nD → PrngReg)

/-- The buffers as the later host lines find them. -/
abbrev W (c : Dev nD) : Valuation τ sig (Elt Ideal) :=
  Pipeline.withArrays spec0 c (V0 m c) fun w => (dats m 0 c).arrAt w cfg0.N

theorem W5 (c : Dev nD) : W m c (Proc.devRef .tc main_v5_0) = G5 m c :=
  (Pipeline.withArrays_arr spec0 launch0.win.arr_inj c _ _ (5 : Fin 12)).trans (final5 m c)
theorem W6 (c : Dev nD) : W m c (Proc.devRef .tc main_v5_1) = G6 m c :=
  (Pipeline.withArrays_arr spec0 launch0.win.arr_inj c _ _ (6 : Fin 12)).trans (final6 m c)
theorem W7 (c : Dev nD) : W m c (Proc.devRef .tc main_v5_2) = G7 m c :=
  (Pipeline.withArrays_arr spec0 launch0.win.arr_inj c _ _ (7 : Fin 12)).trans (final7 m c)
theorem W8 (c : Dev nD) : W m c (Proc.devRef .tc main_v5_3) = G8 m c :=
  (Pipeline.withArrays_arr spec0 launch0.win.arr_inj c _ _ (8 : Fin 12)).trans (final8 m c)
theorem W9 (c : Dev nD) : W m c (Proc.devRef .tc main_v5_4) = G9 m c :=
  (Pipeline.withArrays_arr spec0 launch0.win.arr_inj c _ _ (9 : Fin 12)).trans (final9 m c)
theorem W10 (c : Dev nD) : W m c (Proc.devRef .tc main_v5_5) = G10 m c :=
  (Pipeline.withArrays_arr spec0 launch0.win.arr_inj c _ _ (10 : Fin 12)).trans (final10 m c)
theorem W11 (c : Dev nD) : W m c (Proc.devRef .tc main_v5_6) = G11 m c :=
  (Pipeline.withArrays_arr spec0 launch0.win.arr_inj c _ _ (11 : Fin 12)).trans (final11 m c)

/-- The total loss. -/
def vTotal (c : Dev nD) : FVec Ideal Cert.ReferenceIdeal.S_ .f32 := Cert.LossTail.total (fun _ => pSum (rows (m ((c : Thread nD τ).loc main_arg0)))) (fun _ => gSum (rows (m ((c : Thread nD τ).loc main_arg1)))) (fun _ => pgSum (rows (m ((c : Thread nD τ).loc main_arg0))) (rows (m ((c : Thread nD τ).loc main_arg1)))) (fun i => s1sq (rows (m ((c : Thread nD τ).loc main_arg2))) ⟨(i 0).val, (i 0).isLt⟩) (fun i => s2sq (rows (m ((c : Thread nD τ).loc main_arg3))) ⟨(i 0).val, (i 0).isLt⟩) (fun i => mdsq (rows (m ((c : Thread nD τ).loc main_arg2))) (rows (m ((c : Thread nD τ).loc main_arg3))) (rows (m ((c : Thread nD τ).loc main_arg4))) ⟨(i 0).val, (i 0).isLt⟩) (fun i => cross (rows (m ((c : Thread nD τ).loc main_arg2))) (rows (m ((c : Thread nD τ).loc main_arg3))) ⟨(i 0).val, (i 0).isLt⟩ ⟨(i 1).val, (i 1).isLt⟩)
/-- The dice loss. -/
def vDice (c : Dev nD) : FVec Ideal Cert.ReferenceIdeal.S_ .f32 := Cert.LossTail.dice (fun _ => pSum (rows (m ((c : Thread nD τ).loc main_arg0)))) (fun _ => gSum (rows (m ((c : Thread nD τ).loc main_arg1)))) (fun _ => pgSum (rows (m ((c : Thread nD τ).loc main_arg0))) (rows (m ((c : Thread nD τ).loc main_arg1))))
/-- The contrastive loss. -/
def vContrast (c : Dev nD) : FVec Ideal Cert.ReferenceIdeal.S_ .f32 := Cert.LossTail.contrast (fun i => s1sq (rows (m ((c : Thread nD τ).loc main_arg2))) ⟨(i 0).val, (i 0).isLt⟩) (fun i => s2sq (rows (m ((c : Thread nD τ).loc main_arg3))) ⟨(i 0).val, (i 0).isLt⟩) (fun i => mdsq (rows (m ((c : Thread nD τ).loc main_arg2))) (rows (m ((c : Thread nD τ).loc main_arg3))) (rows (m ((c : Thread nD τ).loc main_arg4))) ⟨(i 0).val, (i 0).isLt⟩) (fun i => cross (rows (m ((c : Thread nD τ).loc main_arg2))) (rows (m ((c : Thread nD τ).loc main_arg3))) ⟨(i 0).val, (i 0).isLt⟩ ⟨(i 1).val, (i 1).isLt⟩)

set_option maxHeartbeats 40000000 in
theorem tail_total_val (c : Dev nD) : Pipeline.afterTail₀ cfgs (dats m) 0 (V0 m) [hostOps1] c main_v67 = vTotal m c := by
  unfold Pipeline.afterTail₀
  simp only [List.flatten_cons, List.flatten_nil, List.append_nil]
  refine (Cert.KernelIdeal.TailRead.tail_total (W m c)).trans ?_
  rw [W5, W6, W7, W8, W9, W10, W11, q_p m c, q_g m c, q_pg m c, q_s1 m c, q_s2 m c, q_md m c, q_cr m c]
  rfl

set_option maxHeartbeats 40000000 in
theorem tail_dice_val (c : Dev nD) : Pipeline.afterTail₀ cfgs (dats m) 0 (V0 m) [hostOps1] c main_v21 = vDice m c := by
  unfold Pipeline.afterTail₀
  simp only [List.flatten_cons, List.flatten_nil, List.append_nil]
  refine (Cert.KernelIdeal.TailRead.tail_dice (W m c)).trans ?_
  rw [W5, W6, W7, q_p m c, q_g m c, q_pg m c]
  rfl

set_option maxHeartbeats 40000000 in
theorem tail_contrast_val (c : Dev nD) : Pipeline.afterTail₀ cfgs (dats m) 0 (V0 m) [hostOps1] c main_v64 = vContrast m c := by
  unfold Pipeline.afterTail₀
  simp only [List.flatten_cons, List.flatten_nil, List.append_nil]
  refine (Cert.KernelIdeal.TailRead.tail_contrast (W m c)).trans ?_
  rw [W8, W9, W10, W11, q_s1 m c, q_s2 m c, q_md m c, q_cr m c]
  rfl

set_option maxHeartbeats 40000000 in
theorem tail_zero_val (c : Dev nD) : Pipeline.afterTail₀ cfgs (dats m) 0 (V0 m) [hostOps1] c main_cst_26 = constant (F := Ideal) S_ .f32 0x00000000#32 := by
  unfold Pipeline.afterTail₀
  simp only [List.flatten_cons, List.flatten_nil, List.append_nil]
  exact Cert.KernelIdeal.TailRead.tail_zero (W m c)

set_option maxHeartbeats 40000000 in
/-- Every weakly fair execution terminates with the four results at the loss functions of the specification's sums and the
    five arguments unchanged. -/
theorem run : θ_run defs (onTc (τ := τ) (main (F := Ideal))) ⟨m, fun _ => 0, ρ⟩ (fun r => ∀ c : Dev nD,
      r.2.mem ((c.tc : Thread nD τ).loc main_v67) = vTotal m c
      ∧ r.2.mem ((c.tc : Thread nD τ).loc main_v21) = vDice m c
      ∧ r.2.mem ((c.tc : Thread nD τ).loc main_cst_26) = constant (F := Ideal) S_ .f32 0x00000000#32
      ∧ r.2.mem ((c.tc : Thread nD τ).loc main_v64) = vContrast m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_v67 (Pipeline.mem_restRefs_of main_v67 (by decide) (by decide))).trans (tail_total_val m c),
      ((h c).2 main_v21 (Pipeline.mem_restRefs_of main_v21 (by decide) (by decide))).trans (tail_dice_val m c),
      ((h c).2 main_cst_26 (Pipeline.mem_restRefs_of main_cst_26 (by decide) (by decide))).trans (tail_zero_val m c),
      ((h c).2 main_v64 (Pipeline.mem_restRefs_of main_v64 (by decide) (by decide))).trans (tail_contrast_val m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KRun

end
-- ==== Proof.RefSums.lean ====
/-
  The sums the reference computes, read as the plain sums of the specification.

  The reference spells the logistic function as 1 / (1 + e^(-x)) with separate operations; on the extended reals
  this is the logistic function itself.  A reshape of a [16,1,512,512] array to [16,262144] or to [4194304] reads
  entry (b, n), resp. b * 262144 + n, at pixel n of image b (row n / 512, column n % 512).  Each float sum of the
  reference, started from 0, is then one of the seven sums of the specification.
-/
import proofs.«134782_j77738908057903_2_alg».proof.Proof.Gen.ReferenceIdeal.Read
import proofs.«134782_j77738908057903_2_alg».proof.Proof.LossSpec

noncomputable section

namespace Cert.ReferenceIdeal.RefSums

open Cert.ReferenceIdeal Cert.ReferenceIdeal.Gen Cert.ReferenceIdeal.Read Cert.LossSpec Idealize.ShloMosaic

/-- The f32 pattern of 1.0 is the extended real 1. -/
theorem ofBits_one_f32 : Ideal.ofBits .f32 0x3F800000#32 = 1 := by
  simp [Ideal.ofBits, Ideal.ieee, -EReal.coe_mul]; norm_num

abbrev Arg := (⟨S16x1x512x512, .f32⟩ : BufTy).Contents (Elt Ideal)

/-- The reference's 1 / (1 + e^(-x)) on the first argument is the logistic function. -/
theorem sig_v5 (x0 : Arg) (i : S16x1x512x512.Idx) : val_main_v5 (F := Ideal) x0 i = sg (x0 i) := by
  rw [val_main_v5_apply, val_main_v4_apply, val_main_cst_0_apply, val_main_v3_apply, val_main_v2_apply,
    val_main_cst_apply, val_main_v1_apply, val_main_v0_apply]
  simp only [Ideal.hostDivf_def, Ideal.addf_def, Ideal.hostUnary_exp_def, Ideal.hostNegf_def, Ideal.negf_def,
    Ideal.ofBits_def, ofBits_one_f32]
  rfl

theorem sig_v23 (x2 : Arg) (i : S16x1x512x512.Idx) : val_main_v23 (F := Ideal) x2 i = sg (x2 i) := by
  rw [val_main_v23_apply, val_main_v22_apply, val_main_cst_9_apply, val_main_v21_apply, val_main_v20_apply,
    val_main_cst_8_apply, val_main_v19_apply, val_main_v18_apply]
  simp only [Ideal.hostDivf_def, Ideal.addf_def, Ideal.hostUnary_exp_def, Ideal.hostNegf_def, Ideal.negf_def,
    Ideal.ofBits_def, ofBits_one_f32]
  rfl

theorem sig_v29 (x3 : Arg) (i : S16x1x512x512.Idx) : val_main_v29 (F := Ideal) x3 i = sg (x3 i) := by
  rw [val_main_v29_apply, val_main_v28_apply, val_main_cst_11_apply, val_main_v27_apply, val_main_v26_apply,
    val_main_cst_10_apply, val_main_v25_apply, val_main_v24_apply]
  simp only [Ideal.hostDivf_def, Ideal.addf_def, Ideal.hostUnary_exp_def, Ideal.hostNegf_def, Ideal.negf_def,
    Ideal.ofBits_def, ofBits_one_f32]
  rfl

/-- Entry (b, n) of the [16, 262144] reshape is pixel n of image b. -/
theorem idx_v40_eq (j : S16x262144.Idx) :
    idx_main_v40 j = unflat ⟨(j 0).val, (j 0).isLt⟩ ⟨(j 1).val, (j 1).isLt⟩ := by
  funext a
  apply Fin.ext
  have hb : (j 0).val < 16 := (j 0).isLt
  have hk : (j 1).val < 262144 := (j 1).isLt
  match a with
  | ⟨0, _⟩ => show ((j 0).val * 262144 + (j 1).val) / 262144 = (j 0).val; omega
  | ⟨1, _⟩ => rfl
  | ⟨2, _⟩ => show ((j 0).val * 262144 + (j 1).val) / 512 % 512 = (j 1).val / 512; omega
  | ⟨3, _⟩ => show ((j 0).val * 262144 + (j 1).val) % 512 = (j 1).val % 512; omega

/-- The [16, 262144] reshape of s(in1), at an entry. -/
theorem v40_at (x2 : Arg) (j : S16x262144.Idx) :
    val_main_v40 (F := Ideal) x2 j = sg (rows x2 ⟨(j 0).val, (j 0).isLt⟩ ⟨(j 1).val, (j 1).isLt⟩) := by
  rw [val_main_v40_apply, sig_v23, idx_v40_eq]; rfl

/-- The [16, 262144] reshape of s(in2), at an entry. -/
theorem v41_at (x3 : Arg) (j : S16x262144.Idx) :
    val_main_v41 (F := Ideal) x3 j = sg (rows x3 ⟨(j 0).val, (j 0).isLt⟩ ⟨(j 1).val, (j 1).isLt⟩) := by
  rw [val_main_v41_apply, sig_v29]
  exact congrArg (fun t => sg (x3 t)) (idx_v40_eq j)

/-- Per image, the reference's sum of s(in1)^2. -/
theorem s1_sum (x2 : Arg) :
    val_main_v43 (F := Ideal) x2 = fun i => s1sq (rows x2) ⟨(i 0).val, (i 0).isLt⟩ := by
  funext i
  rw [val_main_v43_apply, val_main_cst_15_apply, Ideal.ofBits_def, Ideal.ofBits_zero_f32, zero_add]
  refine Finset.sum_congr rfl fun k _ => ?_
  rw [val_main_v42_apply, v40_at]
  rfl

/-- Per image, the reference's sum of s(in2)^2. -/
theorem s2_sum (x3 : Arg) :
    val_main_v47 (F := Ideal) x3 = fun i => s2sq (rows x3) ⟨(i 0).val, (i 0).isLt⟩ := by
  funext i
  rw [val_main_v47_apply, val_main_cst_17_apply, Ideal.ofBits_def, Ideal.ofBits_zero_f32, zero_add]
  refine Finset.sum_congr rfl fun k _ => ?_
  rw [val_main_v46_apply, v41_at]
  rfl

/-- The reference's Gram matrix of s(in1) against s(in2). -/
theorem cr_sum (x2 x3 : Arg) :
    val_main_v51 (F := Ideal) x2 x3
      = fun i => cross (rows x2) (rows x3) ⟨(i 0).val, (i 0).isLt⟩ ⟨(i 1).val, (i 1).isLt⟩ := by
  funext i
  rw [val_main_v51_apply]
  refine Finset.sum_congr rfl fun k _ => ?_
  rw [val_main_v50_apply, v40_at, v41_at]

/-- Entry b * 262144 + n of the flat [4194304] array, for image b and pixel n. -/
def flatEquiv : Fin 16 × Fin 262144 ≃ S4194304.Idx where
  toFun p := fun a => match a with
    | ⟨0, _⟩ => ⟨p.1.val * 262144 + p.2.val, by
      have h1 := p.1.isLt; have h2 := p.2.isLt; show p.1.val * 262144 + p.2.val < 4194304; omega⟩
  invFun j := (⟨(j 0).val / 262144, by
      have h0 : (j 0).val < 4194304 := (j 0).isLt; show (j 0).val / 262144 < 16; omega⟩,
    ⟨(j 0).val % 262144, by show (j 0).val % 262144 < 262144; omega⟩)
  left_inv p := by
    have h1 := p.1.isLt; have h2 := p.2.isLt
    refine Prod.ext (Fin.ext ?_) (Fin.ext ?_)
    · show (p.1.val * 262144 + p.2.val) / 262144 = p.1.val; omega
    · show (p.1.val * 262144 + p.2.val) % 262144 = p.2.val; omega
  right_inv j := by
    funext a
    match a with
    | ⟨0, _⟩ =>
      apply Fin.ext
      show (j 0).val / 262144 * 262144 + (j 0).val % 262144 = (j 0).val
      omega

/-- A sum over the flat array is the sum over the images of the sums over the pixels. -/
theorem sum_flat (f : S4194304.Idx → EReal) :
    ∑ j : S4194304.Idx, f j = ∑ b : Fin 16, ∑ n : Fin 262144, f (flatEquiv (b, n)) := by
  rw [← flatEquiv.sum_comp f, Fintype.sum_prod_type]

/-- Entry b * 262144 + n of the flat reshape is pixel n of image b. -/
theorem idx_v6_flat (b : Fin 16) (n : Fin 262144) : idx_main_v6 (flatEquiv (b, n)) = unflat b n := by
  funext a
  apply Fin.ext
  have hb : b.val < 16 := b.isLt
  have hn : n.val < 262144 := n.isLt
  match a with
  | ⟨0, _⟩ => show (b.val * 262144 + n.val) / 262144 = b.val; omega
  | ⟨1, _⟩ => rfl
  | ⟨2, _⟩ => show (b.val * 262144 + n.val) / 512 % 512 = n.val / 512; omega
  | ⟨3, _⟩ => show (b.val * 262144 + n.val) % 512 = n.val % 512; omega

/-- The flat reshape of s(pred), at an entry. -/
theorem v6_at (x0 : Arg) (b : Fin 16) (n : Fin 262144) :
    val_main_v6 (F := Ideal) x0 (flatEquiv (b, n)) = sg (rows x0 b n) := by
  rw [val_main_v6_apply, sig_v5, idx_v6_flat]; rfl

/-- The flat reshape of gt, at an entry. -/
theorem v7_at (x1 : Arg) (b : Fin 16) (n : Fin 262144) :
    val_main_v7 (F := Ideal) x1 (flatEquiv (b, n)) = rows x1 b n := by
  rw [val_main_v7_apply]
  exact congrArg x1 (idx_v6_flat b n)

/-- The reference's sum of s(pred) over all entries. -/
theorem p_sum (x0 : Arg) : val_main_v12 (F := Ideal) x0 = fun _ => pSum (rows x0) := by
  funext i
  rw [val_main_v12_apply, val_main_cst_4_apply, Ideal.ofBits_def, Ideal.ofBits_zero_f32, zero_add, sum_flat]
  exact Finset.sum_congr rfl fun b _ => Finset.sum_congr rfl fun n _ => v6_at x0 b n

/-- The reference's sum of gt over all entries. -/
theorem g_sum (x1 : Arg) : val_main_v13 (F := Ideal) x1 = fun _ => gSum (rows x1) := by
  funext i
  rw [val_main_v13_apply, val_main_cst_5_apply, Ideal.ofBits_def, Ideal.ofBits_zero_f32, zero_add, sum_flat]
  exact Finset.sum_congr rfl fun b _ => Finset.sum_congr rfl fun n _ => v7_at x1 b n

/-- The reference's sum of s(pred) * gt over all entries. -/
theorem pg_sum (x0 x1 : Arg) : val_main_v9 (F := Ideal) x0 x1 = fun _ => pgSum (rows x0) (rows x1) := by
  funext i
  rw [val_main_v9_apply, val_main_cst_1_apply, Ideal.ofBits_def, Ideal.ofBits_zero_f32, zero_add, sum_flat]
  refine Finset.sum_congr rfl fun b _ => Finset.sum_congr rfl fun n _ => ?_
  rw [val_main_v8_apply, v6_at, v7_at]
  rfl

/-- The pixels of image b, as indices of an argument: distinct pixels are distinct indices. -/
def pixEmb (b : Fin 16) : Fin 262144 ↪ S16x1x512x512.Idx :=
  ⟨unflat b, fun n n' h => by
    have e2 : n.val / 512 = n'.val / 512 := congrArg (fun t : S16x1x512x512.Idx => (t 2).val) h
    have e3 : n.val % 512 = n'.val % 512 := congrArg (fun t : S16x1x512x512.Idx => (t 3).val) h
    apply Fin.ext
    omega⟩

/-- Dropping the three summed axes of an index leaves its image. -/
theorem drop_v33_val (j : S16x1x512x512.Idx) :
    (reducesTo_S16x1x512x512_S16_d1_2_3.drop j 0).val = (j 0).val :=
  Shape.ReducesTo.drop_apply_val_of_eq reducesTo_S16x1x512x512_S16_d1_2_3 j 0 0

/-- The indices summed into entry b of the per-image sum are exactly the pixels of image b. -/
theorem filter_drop_v33 (i : S16.Idx)
    [DecidablePred fun j : S16x1x512x512.Idx => reducesTo_S16x1x512x512_S16_d1_2_3.drop j = i] :
    Finset.univ.filter (fun j : S16x1x512x512.Idx => reducesTo_S16x1x512x512_S16_d1_2_3.drop j = i)
      = Finset.univ.map (pixEmb ⟨(i 0).val, (i 0).isLt⟩) := by
  ext j
  simp only [Finset.mem_filter, Finset.mem_univ, true_and, Finset.mem_map]
  constructor
  · intro h
    have h0 : (j 0).val = (i 0).val := by rw [← drop_v33_val, h]
    have h1 : (j 1).val < 1 := (j 1).isLt
    have h2 : (j 2).val < 512 := (j 2).isLt
    have h3 : (j 3).val < 512 := (j 3).isLt
    refine ⟨⟨512 * (j 2).val + (j 3).val, by omega⟩, ?_⟩
    funext a
    apply Fin.ext
    match a with
    | ⟨0, _⟩ => exact h0.symm
    | ⟨1, _⟩ => show 0 = (j 1).val; omega
    | ⟨2, _⟩ => show (512 * (j 2).val + (j 3).val) / 512 = (j 2).val; omega
    | ⟨3, _⟩ => show (512 * (j 2).val + (j 3).val) % 512 = (j 3).val; omega
  · rintro ⟨n, rfl⟩
    funext c
    match c with
    | ⟨0, _⟩ => exact Fin.ext (drop_v33_val _)

/-- Per image, the reference's sum of (mask * (s(in1) - s(in2)))^2. -/
theorem md_sum (x2 x3 x4 : Arg) :
    val_main_v33 (F := Ideal) x2 x3 x4
      = fun i => mdsq (rows x2) (rows x3) (rows x4) ⟨(i 0).val, (i 0).isLt⟩ := by
  funext i
  unfold val_main_v33
  generalize hy : val_main_v32 (F := Ideal) x2 x3 x4 = y
  simp only [Host.reduceAdd, Ideal.hostReduceAdd_def]
  unfold Ideal.hostReduceAdd
  rw [filter_drop_v33, Finset.sum_map, val_main_cst_12_apply, Ideal.ofBits_def, Ideal.ofBits_zero_f32, zero_add]
  subst hy
  refine Finset.sum_congr rfl fun n _ => ?_
  rw [val_main_v32_apply, val_main_v31_apply, val_main_v30_apply, sig_v23, sig_v29]
  rfl

end Cert.ReferenceIdeal.RefSums

end
-- ==== Proof.lean ====
/-
  The certificate's five claims.

  Frames.  The kernel (as printed, and read at the ideal instance) is five reshapes, one pallas_call on the grid (2,4) and 91
  host operations.  Its frame is the class of an accumulating kernel: seven accumulators, zeroed at each core's first
  point and added to at the other three, written back after a core's last point (Kernel/Frame.lean, KernelIdeal/Frame.lean:
  one text at any float instance).  The reference has no kernel: its frame is its run with the results dropped.

  preserves.  The ideal pass rewrote no operation, so the claim is `True`.

  algebraic.  Both programs compute, from the same five arrays, the dice loss of three total sums and the contrastive loss
  of three per-image sums and one Gram matrix, with the same final arithmetic (LossTail.lean).  The reference takes each
  sum in one piece over the flattened array (RefSums.lean); the kernel takes it tile by tile (8 tiles of 32768 pixels),
  four tiles per core, and adds the two cores' partial results on the host (KernelIdeal/*.lean).  On the extended reals
  addition is commutative and associative, so both are the specification's sums (LossSpec.lean); the logistic function
  is the same function on both sides; the rounding to bf16 in front of the kernel's matrix product is the identity at the
  ideal instance.  No use is made of the finiteness of the inputs.
-/
import proofs.«134782_j77738908057903_2_alg».proof.Defs
import proofs.«134782_j77738908057903_2_alg».proof.Proof.Gen.Kernel
import proofs.«134782_j77738908057903_2_alg».proof.Proof.Gen.KernelIdeal
import proofs.«134782_j77738908057903_2_alg».proof.Proof.Gen.ReferenceIdeal
import proofs.«134782_j77738908057903_2_alg».proof.Proof.Gen.Pre_finite_inputs
import proofs.«134782_j77738908057903_2_alg».proof.Proof.Gen.ReferenceIdeal.Run
import proofs.«134782_j77738908057903_2_alg».proof.Proof.Gen.ReferenceIdeal.Read
import proofs.«134782_j77738908057903_2_alg».proof.Proof.Kernel.Frame
import proofs.«134782_j77738908057903_2_alg».proof.Proof.KernelIdeal.KRun
import proofs.«134782_j77738908057903_2_alg».proof.Proof.RefSums
import proofs.«134782_j77738908057903_2_alg».proof.Proof.LossTail
import Idealize.ShloMosaic.Adequacy
import Idealize.ShloMosaic.Init

noncomputable section

namespace Cert.Proof

open Idealize.ShloMosaic Idealize.SL.Sem

theorem frame_k : Cert.frame_Kernel := fun m ρ _ => Cert.Kernel.Acc.frame m ρ

theorem frame_ki : Cert.frame_KernelIdeal := fun m ρ _ => Cert.KernelIdeal.Acc.frame m ρ

theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

open Cert.ReferenceIdeal.Read Cert.ReferenceIdeal.RefSums in
set_option maxHeartbeats 4000000 in
theorem algebraic : Cert.algebraic_KernelIdeal_ReferenceIdeal := by
  intro m ρ m' ρ' _ hagree
  refine ⟨fun c => Cert.KernelIdeal.KRun.vTotal m c, fun c => Cert.KernelIdeal.KRun.vDice m c,
    fun c => constant (F := Ideal) Cert.KernelIdeal.S_ .f32 0x00000000#32, fun c => Cert.KernelIdeal.KRun.vContrast m c,
    Cert.KernelIdeal.KRun.run m ρ, ?_⟩
  refine (θ_run Cert.ReferenceIdeal.defs _ _).mono (fun _ h c => ?_) (Cert.ReferenceIdeal.Value.run (F := Ideal) m' ρ')
  obtain ⟨h0, h1, h2, h3, hargs⟩ := h c
  obtain ⟨a0, a1, a2, a3, a4⟩ := hagree c
  refine ⟨h0.trans ?_, h1.trans ?_, h2, h3.trans ?_, hargs⟩
  · rw [val_main_v84_eq, Cert.LossTail.ref_total, p_sum, g_sum, pg_sum, s1_sum, s2_sum, md_sum, cr_sum, a0, a1, a2, a3, a4]
    rfl
  · refine (val_main_v17_eq _ _).trans ?_
    rw [Cert.LossTail.ref_dice, p_sum, g_sum, pg_sum, a0, a1]
    rfl
  · rw [val_main_v81_eq, Cert.LossTail.ref_contrast, s1_sum, s2_sum, md_sum, cr_sum, a2, a3, a4]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
